-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.named_const.Statement Cert.KernelIdeal.κ "inv_12" .f32 0x3DAAAAAB#32 ((1 / 12 : ℝ) : EReal)
  ∧ IdealRules.named_const.Statement Cert.KernelIdeal.κ "inv_12" .f32 0x3DAAAAAB#32 ((1 / 12 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x12 : Shape := ⟨2, ![4096, 12]⟩
abbrev S49152x12 : Shape := ⟨2, ![49152, 12]⟩
abbrev S100000 : Shape := ⟨1, ![100000]⟩
abbrev S1600000 : Shape := ⟨1, ![1600000]⟩
abbrev S100000x128 : Shape := ⟨2, ![100000, 128]⟩
abbrev S64x128 : Shape := ⟨2, ![64, 128]⟩
abbrev S64 : Shape := ⟨1, ![64]⟩
abbrev S64x64 : Shape := ⟨2, ![64, 64]⟩
abbrev S16x64 : Shape := ⟨2, ![16, 64]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg13 : FVec F S16 .f32) (main_v33 : IVec S_ 1) : IVec S_ 1 :=
  let main_v34 : FVec F S16 .f32 := Host.absf main_arg13
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg10 : FVec F S64x64 .f32) (main_arg11 : FVec F S64 .f32) (main_arg12 : FVec F S16x64 .f32) (main_arg13 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg10
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg11
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S16x64 .f32 := Host.absf main_arg12
  let main_cst_10 : FVec F S_ .f32 := constant S_ .f32 0x7F800000#32
  let main_v30 : FVec F S16x64 .f32 := broadcastInDim S16x64 ![] bcast_S_S16x64 main_cst_10
  let main_v31 : IVec S16x64 1 := cmpf .olt main_v29 main_v30
  let main_c_11 : IVec S_ 1 := constantI S_ 1 1#1
  let main_v32 : IVec S_ 1 := (fun x v => Host.reduce IntOp.andi x v reducesTo_S16x64_S_d0_1 h_S_) main_v31 main_c_11
  let main_v33 : IVec S_ 1 := andi main_v28 main_v32
  fn_part2 (F := F) main_arg13 main_v33

def fn {F : FTy → Type} [FloatOps F] (main_arg0 : IVec S4096 32) (main_arg1 : IVec S4096x12 32) (main_arg2 : IVec S49152x12 32) (main_arg3 : IVec S100000 32) (main_arg4 : IVec S1600000 32) (main_arg5 : IVec S100000 32) (main_arg6 : FVec F S100000x128 .f32) (main_arg7 : FVec F S64x128 .f32) (main_arg8 : FVec F S64x128 .f32) (main_arg9 : FVec F S64 .f32) (main_arg10 : FVec F S64x64 .f32) (main_arg11 : FVec F S64 .f32) (main_arg12 : FVec F S16x64 .f32) (main_arg13 : FVec F S16 .f32) : IVec S_ 1 :=
  let main_v0 : FVec F S100000x128 .f32 := Host.absf main_arg6
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg7
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg8
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg9
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg10 main_arg11 main_arg12 main_arg13 main_v13 main_v16
-- ==== Kernel.lean ====
abbrev S4096 : Shape := ⟨1, ![4096]⟩
abbrev S4096x12 : Shape := ⟨2, ![4096, 12]⟩
abbrev S49152x12 : Shape := ⟨2, ![49152, 12]⟩
abbrev S100000 : Shape := ⟨1, ![100000]⟩
abbrev S1600000 : Shape := ⟨1, ![1600000]⟩
abbrev S100000x128 : Shape := ⟨2, ![100000, 128]⟩
abbrev S64x128 : Shape := ⟨2, ![64, 128]⟩
abbrev S64 : Shape := ⟨1, ![64]⟩
abbrev S64x64 : Shape := ⟨2, ![64, 64]⟩
abbrev S16x64 : Shape := ⟨2, ![16, 64]⟩
abbrev S16 : Shape := ⟨1, ![16]⟩
abbrev S_ : Shape := ⟨0, ![]⟩
abbrev S4096x1 : Shape := ⟨2, ![4096, 1]⟩
abbrev S4096x12x1 : Shape := ⟨3, ![4096, 12, 1]⟩
abbrev S49152 : Shape := ⟨1, ![49152]⟩
abbrev S49152x1 : Shape := ⟨2, ![49152, 1]⟩
abbrev S49152x12x1 : Shape := ⟨3, ![49152, 12, 1]⟩
abbrev S4096x12x12 : Shape := ⟨3, ![4096, 12, 12]⟩
abbrev S4096x12x128 : Shape := ⟨3, ![4096, 12, 128]⟩
abbrev S49152x128 : Shape := ⟨2, ![49152, 128]⟩
abbrev S4096x12x12x1 : Shape := ⟨4, ![4096, 12, 12, 1]⟩
abbrev S4096x12x12x128 : Shape := ⟨4, ![4096, 12, 12, 128]⟩
abbrev S589824x128 : Shape := ⟨2, ![589824, 128]⟩
abbrev S128x64 : Shape := ⟨2, ![128, 64]⟩
abbrev S64x16 : Shape := ⟨2, ![64, 16]⟩
abbrev S1x64 : Shape := ⟨2, ![1, 64]⟩
abbrev S1x16 : Shape := ⟨2, ![1, 16]⟩
abbrev S49152x64 : Shape := ⟨2, ![49152, 64]⟩
abbrev S3072x128 : Shape := ⟨2, ![3072, 128]⟩
abbrev S256x64 : Shape := ⟨2, ![256, 64]⟩
abbrev S3072x64 : Shape := ⟨2, ![3072, 64]⟩
abbrev S256x3072 : Shape := ⟨2, ![256, 3072]⟩
abbrev S6144x128 : Shape := ⟨2, ![6144, 128]⟩
abbrev S6144x64 : Shape := ⟨2, ![6144, 64]⟩
abbrev S4096x16 : Shape := ⟨2, ![4096, 16]⟩
abbrev S256x16 : Shape := ⟨2, ![256, 16]⟩

abbrev nBuf : Space → Nat
  | .hbm => 161
  | .vmem => 22
  | .smem => 0
  | _ => 0

abbrev hbmTy0_0 (i : Nat) : BufTy := match i % 128 with
  | 0 => ⟨S4096, .i32⟩
  | 1 => ⟨S4096x12, .i32⟩
  | 2 => ⟨S49152x12, .i32⟩
  | 3 => ⟨S100000, .i32⟩
  | 4 => ⟨S1600000, .i32⟩
  | 5 => ⟨S100000, .i32⟩
  | 6 => ⟨S100000x128, .f32⟩
  | 7 => ⟨S64x128, .f32⟩
  | 8 => ⟨S64x128, .f32⟩
  | 9 => ⟨S64, .f32⟩
  | 10 => ⟨S64x64, .f32⟩
  | 11 => ⟨S64, .f32⟩
  | 12 => ⟨S16x64, .f32⟩
  | 13 => ⟨S16, .f32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S4096, .i32⟩
  | 23 => ⟨S4096x1, .i32⟩
  | 24 => ⟨S_, .i32⟩
  | 25 => ⟨S4096x1, .i32⟩
  | 26 => ⟨S4096x1, .i1⟩
  | 27 => ⟨S_, .i32⟩
  | 28 => ⟨S4096x1, .i32⟩
  | 29 => ⟨S4096x1, .i32⟩
  | 30 => ⟨S4096x12, .i32⟩
  | 31 => ⟨S4096x12, .i32⟩
  | 32 => ⟨S_, .i32⟩
  | 33 => ⟨S4096x12, .i32⟩
  | 34 => ⟨S4096x12, .i1⟩
  | 35 => ⟨S_, .i32⟩
  | 36 => ⟨S4096x12, .i32⟩
  | 37 => ⟨S4096x12, .i1⟩
  | 38 => ⟨S_, .i32⟩
  | 39 => ⟨S4096x1, .i32⟩
  | 40 => ⟨S4096x1, .i1⟩
  | 41 => ⟨S4096x12, .i1⟩
  | 42 => ⟨S4096x12, .i1⟩
  | 43 => ⟨S4096x12, .i1⟩
  | 44 => ⟨S4096x12, .i32⟩
  | 45 => ⟨S4096x12, .i32⟩
  | 46 => ⟨S4096x12, .i32⟩
  | 47 => ⟨S_, .i32⟩
  | 48 => ⟨S4096, .i32⟩
  | 49 => ⟨S4096, .i1⟩
  | 50 => ⟨S_, .i32⟩
  | 51 => ⟨S4096, .i32⟩
  | 52 => ⟨S4096, .i32⟩
  | 53 => ⟨S4096, .i32⟩
  | 54 => ⟨S4096x1, .i32⟩
  | 55 => ⟨S4096, .i32⟩
  | 56 => ⟨S4096x1, .i32⟩
  | 57 => ⟨S4096x12, .i32⟩
  | 58 => ⟨S4096x12, .i32⟩
  | 59 => ⟨S_, .i32⟩
  | 60 => ⟨S4096x12, .i32⟩
  | 61 => ⟨S4096x12, .i1⟩
  | 62 => ⟨S_, .i32⟩
  | 63 => ⟨S4096x12, .i32⟩
  | 64 => ⟨S4096x12, .i32⟩
  | 65 => ⟨S4096x12, .i32⟩
  | 66 => ⟨S4096x12x1, .i32⟩
  | 67 => ⟨S4096x12, .i32⟩
  | 68 => ⟨S49152, .i32⟩
  | 69 => ⟨S_, .i32⟩
  | 70 => ⟨S49152, .i32⟩
  | 71 => ⟨S49152, .i1⟩
  | 72 => ⟨S_, .i32⟩
  | 73 => ⟨S49152, .i32⟩
  | 74 => ⟨S49152, .i32⟩
  | 75 => ⟨S49152, .i32⟩
  | 76 => ⟨S49152x1, .i32⟩
  | 77 => ⟨S49152, .i32⟩
  | 78 => ⟨S49152x1, .i32⟩
  | 79 => ⟨S_, .i32⟩
  | 80 => ⟨S49152x1, .i32⟩
  | 81 => ⟨S49152x1, .i1⟩
  | 82 => ⟨S_, .i32⟩
  | 83 => ⟨S49152x1, .i32⟩
  | 84 => ⟨S49152x1, .i32⟩
  | 85 => ⟨S49152x12, .i32⟩
  | 86 => ⟨S49152x12, .i32⟩
  | 87 => ⟨S_, .i32⟩
  | 88 => ⟨S49152x12, .i32⟩
  | 89 => ⟨S49152x12, .i1⟩
  | 90 => ⟨S_, .i32⟩
  | 91 => ⟨S49152x12, .i32⟩
  | 92 => ⟨S49152x12, .i1⟩
  | 93 => ⟨S_, .i32⟩
  | 94 => ⟨S49152x1, .i32⟩
  | 95 => ⟨S49152x1, .i1⟩
  | 96 => ⟨S49152x12, .i1⟩
  | 97 => ⟨S49152x12, .i1⟩
  | 98 => ⟨S49152x12, .i1⟩
  | 99 => ⟨S49152x12, .i32⟩
  | 100 => ⟨S49152x12, .i32⟩
  | 101 => ⟨S49152x12, .i32⟩
  | 102 => ⟨S_, .i32⟩
  | 103 => ⟨S49152, .i32⟩
  | 104 => ⟨S49152, .i1⟩
  | 105 => ⟨S_, .i32⟩
  | 106 => ⟨S49152, .i32⟩
  | 107 => ⟨S49152, .i32⟩
  | 108 => ⟨S49152, .i32⟩
  | 109 => ⟨S49152x1, .i32⟩
  | 110 => ⟨S49152, .i32⟩
  | 111 => ⟨S49152x1, .i32⟩
  | 112 => ⟨S49152x12, .i32⟩
  | 113 => ⟨S49152x12, .i32⟩
  | 114 => ⟨S_, .i32⟩
  | 115 => ⟨S49152x12, .i32⟩
  | 116 => ⟨S49152x12, .i1⟩
  | 117 => ⟨S_, .i32⟩
  | 118 => ⟨S49152x12, .i32⟩
  | 119 => ⟨S49152x12, .i32⟩
  | 120 => ⟨S49152x12, .i32⟩
  | 121 => ⟨S49152x12x1, .i32⟩
  | 122 => ⟨S49152x12, .i32⟩
  | 123 => ⟨S4096x12x12, .i32⟩
  | 124 => ⟨S100000x128, .bf16⟩
  | 125 => ⟨S_, .i32⟩
  | 126 => ⟨S4096x12, .i32⟩
  | 127 => ⟨S4096x12, .i1⟩
  | _ => ⟨S4096, .i32⟩

abbrev hbmTy0_1 (i : Nat) : BufTy := match i % 128 with
  | 0 => ⟨S_, .i32⟩
  | 1 => ⟨S4096x12, .i32⟩
  | 2 => ⟨S4096x12, .i32⟩
  | 3 => ⟨S4096x12, .i32⟩
  | 4 => ⟨S4096x12x1, .i32⟩
  | 5 => ⟨S4096x12x128, .bf16⟩
  | 6 => ⟨S49152x128, .bf16⟩
  | 7 => ⟨S_, .i32⟩
  | 8 => ⟨S4096x12x12, .i32⟩
  | 9 => ⟨S4096x12x12, .i1⟩
  | 10 => ⟨S_, .i32⟩
  | 11 => ⟨S4096x12x12, .i32⟩
  | 12 => ⟨S4096x12x12, .i32⟩
  | 13 => ⟨S4096x12x12, .i32⟩
  | 14 => ⟨S4096x12x12x1, .i32⟩
  | 15 => ⟨S4096x12x12x128, .bf16⟩
  | 16 => ⟨S589824x128, .bf16⟩
  | 17 => ⟨S128x64, .f32⟩
  | 18 => ⟨S128x64, .bf16⟩
  | 19 => ⟨S128x64, .f32⟩
  | 20 => ⟨S128x64, .bf16⟩
  | 21 => ⟨S64x64, .f32⟩
  | 22 => ⟨S64x64, .bf16⟩
  | 23 => ⟨S64x16, .f32⟩
  | 24 => ⟨S64x16, .bf16⟩
  | 25 => ⟨S1x64, .f32⟩
  | 26 => ⟨S1x64, .f32⟩
  | 27 => ⟨S1x16, .f32⟩
  | 28 => ⟨S49152x64, .f32⟩
  | 29 => ⟨S49152x64, .f32⟩
  | 30 => ⟨S49152x64, .bf16⟩
  | 31 => ⟨S49152x64, .bf16⟩
  | 32 => ⟨S4096x16, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | .local _ .vmem, ⟨0, _⟩ => ⟨S3072x128, .bf16⟩
  | .local _ .vmem, ⟨1, _⟩ => ⟨S3072x128, .bf16⟩
  | .local _ .vmem, ⟨2, _⟩ => ⟨S128x64, .bf16⟩
  | .local _ .vmem, ⟨3, _⟩ => ⟨S256x64, .f32⟩
  | .local _ .vmem, ⟨4, _⟩ => ⟨S256x64, .f32⟩
  | .local _ .vmem, ⟨5, _⟩ => ⟨S6144x128, .bf16⟩
  | .local _ .vmem, ⟨6, _⟩ => ⟨S6144x128, .bf16⟩
  | .local _ .vmem, ⟨7, _⟩ => ⟨S128x64, .bf16⟩
  | .local _ .vmem, ⟨8, _⟩ => ⟨S6144x64, .f32⟩
  | .local _ .vmem, ⟨9, _⟩ => ⟨S6144x64, .f32⟩
  | .local _ .vmem, ⟨10, _⟩ => ⟨S3072x64, .bf16⟩
  | .local _ .vmem, ⟨11, _⟩ => ⟨S3072x64, .bf16⟩
  | .local _ .vmem, ⟨12, _⟩ => ⟨S3072x64, .bf16⟩
  | .local _ .vmem, ⟨13, _⟩ => ⟨S3072x64, .bf16⟩
  | .local _ .vmem, ⟨14, _⟩ => ⟨S128x64, .bf16⟩
  | .local _ .vmem, ⟨15, _⟩ => ⟨S1x64, .f32⟩
  | .local _ .vmem, ⟨16, _⟩ => ⟨S64x64, .bf16⟩
  | .local _ .vmem, ⟨17, _⟩ => ⟨S1x64, .f32⟩
  | .local _ .vmem, ⟨18, _⟩ => ⟨S64x16, .bf16⟩
  | .local _ .vmem, ⟨19, _⟩ => ⟨S1x16, .f32⟩
  | .local _ .vmem, ⟨20, _⟩ => ⟨S256x16, .f32⟩
  | .local _ .vmem, ⟨21, _⟩ => ⟨S256x16, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_v6 : Ref sig .tc := ⟨.hbm, 33, rfl⟩
abbrev main_call0_v7 : Ref sig .tc := ⟨.hbm, 34, rfl⟩
abbrev main_call0_c_2 : Ref sig .tc := ⟨.hbm, 35, rfl⟩
abbrev main_call0_v8 : Ref sig .tc := ⟨.hbm, 36, rfl⟩
abbrev main_call0_v9 : Ref sig .tc := ⟨.hbm, 37, rfl⟩
abbrev main_call0_c_3 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_v15 : Ref sig .tc := ⟨.hbm, 44, rfl⟩
abbrev main_call0_v16 : Ref sig .tc := ⟨.hbm, 45, rfl⟩
abbrev main_v8 : Ref sig .tc := ⟨.hbm, 46, rfl⟩
abbrev main_c_1 : Ref sig .tc := ⟨.hbm, 47, rfl⟩
abbrev main_v9 : Ref sig .tc := ⟨.hbm, 48, rfl⟩
abbrev main_v10 : Ref sig .tc := ⟨.hbm, 49, rfl⟩
abbrev main_c_2 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_3 : Ref sig .tc := ⟨.hbm, 59, rfl⟩
abbrev main_v19 : Ref sig .tc := ⟨.hbm, 60, rfl⟩
abbrev main_v20 : Ref sig .tc := ⟨.hbm, 61, rfl⟩
abbrev main_c_4 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_c_5 : Ref sig .tc := ⟨.hbm, 69, rfl⟩
abbrev main_v27 : Ref sig .tc := ⟨.hbm, 70, rfl⟩
abbrev main_v28 : Ref sig .tc := ⟨.hbm, 71, rfl⟩
abbrev main_c_6 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_call1_c : Ref sig .tc := ⟨.hbm, 79, rfl⟩
abbrev main_call1_v0 : Ref sig .tc := ⟨.hbm, 80, rfl⟩
abbrev main_call1_v1 : Ref sig .tc := ⟨.hbm, 81, rfl⟩
abbrev main_call1_c_0 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_c_1 : Ref sig .tc := ⟨.hbm, 87, rfl⟩
abbrev main_call1_v6 : Ref sig .tc := ⟨.hbm, 88, rfl⟩
abbrev main_call1_v7 : Ref sig .tc := ⟨.hbm, 89, rfl⟩
abbrev main_call1_c_2 : Ref sig .tc := ⟨.hbm, 90, rfl⟩
abbrev main_call1_v8 : Ref sig .tc := ⟨.hbm, 91, rfl⟩
abbrev main_call1_v9 : Ref sig .tc := ⟨.hbm, 92, rfl⟩
abbrev main_call1_c_3 : Ref sig .tc := ⟨.hbm, 93, rfl⟩
abbrev main_call1_v10 : Ref sig .tc := ⟨.hbm, 94, rfl⟩
abbrev main_call1_v11 : Ref sig .tc := ⟨.hbm, 95, rfl⟩
abbrev main_call1_v12 : Ref sig .tc := ⟨.hbm, 96, rfl⟩
abbrev main_call1_v13 : Ref sig .tc := ⟨.hbm, 97, rfl⟩
abbrev main_call1_v14 : Ref sig .tc := ⟨.hbm, 98, rfl⟩
abbrev main_call1_v15 : Ref sig .tc := ⟨.hbm, 99, rfl⟩
abbrev main_call1_v16 : Ref sig .tc := ⟨.hbm, 100, rfl⟩
abbrev main_v35 : Ref sig .tc := ⟨.hbm, 101, rfl⟩
abbrev main_c_7 : Ref sig .tc := ⟨.hbm, 102, rfl⟩
abbrev main_v36 : Ref sig .tc := ⟨.hbm, 103, rfl⟩
abbrev main_v37 : Ref sig .tc := ⟨.hbm, 104, rfl⟩
abbrev main_c_8 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_c_9 : Ref sig .tc := ⟨.hbm, 114, rfl⟩
abbrev main_v46 : Ref sig .tc := ⟨.hbm, 115, rfl⟩
abbrev main_v47 : Ref sig .tc := ⟨.hbm, 116, rfl⟩
abbrev main_c_10 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_c_11 : Ref sig .tc := ⟨.hbm, 125, rfl⟩
abbrev main_v55 : Ref sig .tc := ⟨.hbm, 126, rfl⟩
abbrev main_v56 : Ref sig .tc := ⟨.hbm, 127, rfl⟩
abbrev main_c_12 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_c_13 : Ref sig .tc := ⟨.hbm, 135, rfl⟩
abbrev main_v63 : Ref sig .tc := ⟨.hbm, 136, rfl⟩
abbrev main_v64 : Ref sig .tc := ⟨.hbm, 137, rfl⟩
abbrev main_c_14 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg8_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc2_sem8_1 : DmaSem sig := 21

abbrev nD : Nat := 1
abbrev τ : Topo := Topo.v7x

variable {F : FTy → Type} [FloatOps F]

abbrev grid0 : Pipeline.Grid := ⟨1, ![192], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3072x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6144x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S6144x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3072x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3072x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x16 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S256x16 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x12_0_1 : S4096x1.BroadcastsInDim S4096x12 (![0, 1] : Fin 2 → Fin S4096x12.rank)
  bcast_S_S4096x12 : S_.BroadcastsInDim S4096x12 (![] : Fin 0 → Fin S4096x12.rank)
  bcast_S4096x12_S4096x12x1_0_1 : S4096x12.BroadcastsInDim S4096x12x1 (![0, 1] : Fin 2 → Fin S4096x12x1.rank)
  shapeCasts_S4096x12_S49152 : S4096x12.ShapeCasts S49152
  bcast_S_S49152 : S_.BroadcastsInDim S49152 (![] : Fin 0 → Fin S49152.rank)
  bcast_S49152_S49152x1_0 : S49152.BroadcastsInDim S49152x1 (![0] : Fin 1 → Fin S49152x1.rank)
  bcast_S_S49152x1 : S_.BroadcastsInDim S49152x1 (![] : Fin 0 → Fin S49152x1.rank)
  bcast_S49152x1_S49152x12_0_1 : S49152x1.BroadcastsInDim S49152x12 (![0, 1] : Fin 2 → Fin S49152x12.rank)
  bcast_S_S49152x12 : S_.BroadcastsInDim S49152x12 (![] : Fin 0 → Fin S49152x12.rank)
  bcast_S49152x12_S49152x12x1_0_1 : S49152x12.BroadcastsInDim S49152x12x1 (![0, 1] : Fin 2 → Fin S49152x12x1.rank)
  shapeCasts_S49152x12_S4096x12x12 : S49152x12.ShapeCasts S4096x12x12
  bitsLt_bf16_f32 : FTy.bits .bf16 < FTy.bits .f32
  shapeCasts_S4096x12x128_S49152x128 : S4096x12x128.ShapeCasts S49152x128
  bcast_S_S4096x12x12 : S_.BroadcastsInDim S4096x12x12 (![] : Fin 0 → Fin S4096x12x12.rank)
  bcast_S4096x12x12_S4096x12x12x1_0_1_2 : S4096x12x12.BroadcastsInDim S4096x12x12x1 (![0, 1, 2] : Fin 3 → Fin S4096x12x12x1.rank)
  shapeCasts_S4096x12x12x128_S589824x128 : S4096x12x12x128.ShapeCasts S589824x128
  transposes_S64x128_S128x64_1_0 : S64x128.Transposes [1, 0] S128x64
  transposes_S64x64_S64x64_1_0 : S64x64.Transposes [1, 0] S64x64
  transposes_S16x64_S64x16_1_0 : S16x64.Transposes [1, 0] S64x16
  shapeCasts_S64_S1x64 : S64.ShapeCasts S1x64
  shapeCasts_S16_S1x16 : S16.ShapeCasts S1x16
  inb_S3072x128_S3072x128_0_0 : ∀ a, (![0, 0] : Fin 2 → Nat) a + S3072x128.size a ≤ S3072x128.size a
  h_S3072x128 : 0 < S3072x128.numel
  shapeCasts_S3072x128_S3072x128 : S3072x128.ShapeCasts S3072x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  iota_S256x3072_d1_w32 : S256x3072.Iotas .tc 32 [1]
  natLt_1_32 : 1 < 32
  iota_S256x3072_d0_w32 : S256x3072.Iotas .tc 32 [0]
  inb_S256x64_S256x64_0_0 : ∀ a, (![0, 0] : Fin 2 → Nat) a + S256x64.size a ≤ S256x64.size a
  h_S256x64 : 0 < S256x64.numel
  inb_S6144x128_S6144x128_0_0 : ∀ a, (![0, 0] : Fin 2 → Nat) a + S6144x128.size a ≤ S6144x128.size a
  h_S6144x128 : 0 < S6144x128.numel
  shapeCasts_S6144x128_S6144x128 : S6144x128.ShapeCasts S6144x128
  inb_S6144x64_S6144x64_0_0 : ∀ a, (![0, 0] : Fin 2 → Nat) a + S6144x64.size a ≤ S6144x64.size a
  h_S6144x64 : 0 < S6144x64.numel
  inb_S3072x64_S3072x64_0_0 : ∀ a, (![0, 0] : Fin 2 → Nat) a + S3072x64.size a ≤ S3072x64.size a
  h_S3072x64 : 0 < S3072x64.numel
  shapeCasts_S3072x64_S3072x64 : S3072x64.ShapeCasts S3072x64
  concatenates_S3072x64_S3072x64_S3072x128_d1 : Shape.Concatenates [S3072x64, S3072x64] S3072x128 1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3072x64 : S1x64.Broadcasts S3072x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S256x64 : S1x64.Broadcasts S256x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S256x16 : S1x16.Broadcasts S256x16
  inb_S256x16_S256x16_0_0 : ∀ a, (![0, 0] : Fin 2 → Nat) a + S256x16.size a ≤ S256x16.size a
  h_S256x16 : 0 < S256x16.numel
  gather_S100000_S4096x1_S4096_n_0_n_n_0_1_1_wf : GatherDims.WF S100000 S4096x1 S4096 [] [0] [] [0] [] 1 ![1]
  gather_S1600000_S4096x12x1_S4096x12_n_0_n_n_0_2_1_wf : GatherDims.WF S1600000 S4096x12x1 S4096x12 [] [0] [] [0] [] 2 ![1]
  gather_S100000_S49152x1_S49152_n_0_n_n_0_1_1_wf : GatherDims.WF S100000 S49152x1 S49152 [] [0] [] [0] [] 1 ![1]
  gather_S1600000_S49152x12x1_S49152x12_n_0_n_n_0_2_1_wf : GatherDims.WF S1600000 S49152x12x1 S49152x12 [] [0] [] [0] [] 2 ![1]
  gather_S100000x128_S4096x12x1_S4096x12x128_2_0_n_n_0_2_1128_wf : GatherDims.WF S100000x128 S4096x12x1 S4096x12x128 [2] [0] [] [0] [] 2 ![1, 128]
  gather_S100000x128_S4096x12x12x1_S4096x12x12x128_3_0_n_n_0_3_1128_wf : GatherDims.WF S100000x128 S4096x12x12x1 S4096x12x12x128 [3] [0] [] [0] [] 3 ![1, 128]
  dot_S3072x128_S128x64_S3072x64_1_0_0_1_n_n_wf : DotDims.WF S3072x128 S128x64 S3072x64 [1] [0] [0] [1] [] []
  dot_S256x3072_S3072x64_S256x64_1_0_0_1_n_n_wf : DotDims.WF S256x3072 S3072x64 S256x64 [1] [0] [0] [1] [] []
  dot_S6144x128_S128x64_S6144x64_1_0_0_1_n_n_wf : DotDims.WF S6144x128 S128x64 S6144x64 [1] [0] [0] [1] [] []
  dot_S256x64_S64x64_S256x64_1_0_0_1_n_n_wf : DotDims.WF S256x64 S64x64 S256x64 [1] [0] [0] [1] [] []
  dot_S256x64_S64x16_S256x16_1_0_0_1_n_n_wf : DotDims.WF S256x64 S64x16 S256x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3072x128.size a ≤ S589824x128.size a
  hwx0_0 : ∀ i : grid0.Coords, EltTy.bits .bf16 = 32 ∨ (Rect.block (s := S589824x128) S3072x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S49152x64.size a
  hwx0_2 : ∀ i : grid0.Coords, EltTy.bits .f32 = 32 ∨ (Rect.block (s := S49152x64) S256x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6144x128.size a ≤ S49152x128.size a
  hwx1_0 : ∀ i : grid1.Coords, EltTy.bits .bf16 = 32 ∨ (Rect.block (s := S49152x128) S6144x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .bf16 = 32 ∨ (Rect.block (s := S128x64) S128x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6144x64.size a ≤ S49152x64.size a
  hwx1_2 : ∀ i : grid1.Coords, EltTy.bits .f32 = 32 ∨ (Rect.block (s := S49152x64) S6144x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3072x64.size a ≤ S49152x64.size a
  hwx2_0 : ∀ i : grid2.Coords, EltTy.bits .bf16 = 32 ∨ (Rect.block (s := S49152x64) S3072x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3072x64.size a ≤ S49152x64.size a
  hwx2_1 : ∀ i : grid2.Coords, EltTy.bits .bf16 = 32 ∨ (Rect.block (s := S49152x64) S3072x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .bf16 = 32 ∨ (Rect.block (s := S128x64) S128x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .bf16 = 32 ∨ (Rect.block (s := S64x64) S64x64.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x16.size a ≤ S64x16.size a
  hwx2_6 : ∀ i : grid2.Coords, EltTy.bits .bf16 = 32 ∨ (Rect.block (s := S64x16) S64x16.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x16.size a ≤ S1x16.size a
  hwx2_7 : ∀ i : grid2.Coords, EltTy.bits .f32 = 32 ∨ (Rect.block (s := S1x16) S1x16.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S256x16.size a ≤ S4096x16.size a
  hwx2_8 : ∀ i : grid2.Coords, EltTy.bits .f32 = 32 ∨ (Rect.block (s := S4096x16) S256x16.size (cc2_transform_8 i) (hinb2_8 i)).WholeWords (EltTy.packing .f32)

variable [Facts₀]

def gather_S100000_S4096x1_S4096_n_0_n_n_0_1_1 : GatherDims S100000 S4096x1 S4096 where
  offsetDims := []
  collapsedSliceDims := [0]
  operandBatchingDims := []
  startIndicesBatchingDims := []
  startIndexMap := [0]
  indexVectorDim := 1
  sliceSizes := ![1]
  wf := gather_S100000_S4096x1_S4096_n_0_n_n_0_1_1_wf
def gather_S1600000_S4096x12x1_S4096x12_n_0_n_n_0_2_1 : GatherDims S1600000 S4096x12x1 S4096x12 where
  offsetDims := []
  collapsedSliceDims := [0]
  operandBatchingDims := []
  startIndicesBatchingDims := []
  startIndexMap := [0]
  indexVectorDim := 2
  sliceSizes := ![1]
  wf := gather_S1600000_S4096x12x1_S4096x12_n_0_n_n_0_2_1_wf
def gather_S100000_S49152x1_S49152_n_0_n_n_0_1_1 : GatherDims S100000 S49152x1 S49152 where
  offsetDims := []
  collapsedSliceDims := [0]
  operandBatchingDims := []
  startIndicesBatchingDims := []
  startIndexMap := [0]
  indexVectorDim := 1
  sliceSizes := ![1]
  wf := gather_S100000_S49152x1_S49152_n_0_n_n_0_1_1_wf
def gather_S1600000_S49152x12x1_S49152x12_n_0_n_n_0_2_1 : GatherDims S1600000 S49152x12x1 S49152x12 where
  offsetDims := []
  collapsedSliceDims := [0]
  operandBatchingDims := []
  startIndicesBatchingDims := []
  startIndexMap := [0]
  indexVectorDim := 2
  sliceSizes := ![1]
  wf := gather_S1600000_S49152x12x1_S49152x12_n_0_n_n_0_2_1_wf
def gather_S100000x128_S4096x12x1_S4096x12x128_2_0_n_n_0_2_1128 : GatherDims S100000x128 S4096x12x1 S4096x12x128 where
  offsetDims := [2]
  collapsedSliceDims := [0]
  operandBatchingDims := []
  startIndicesBatchingDims := []
  startIndexMap := [0]
  indexVectorDim := 2
  sliceSizes := ![1, 128]
  wf := gather_S100000x128_S4096x12x1_S4096x12x128_2_0_n_n_0_2_1128_wf
def gather_S100000x128_S4096x12x12x1_S4096x12x12x128_3_0_n_n_0_3_1128 : GatherDims S100000x128 S4096x12x12x1 S4096x12x12x128 where
  offsetDims := [3]
  collapsedSliceDims := [0]
  operandBatchingDims := []
  startIndicesBatchingDims := []
  startIndexMap := [0]
  indexVectorDim := 3
  sliceSizes := ![1, 128]
  wf := gather_S100000x128_S4096x12x12x1_S4096x12x12x128_3_0_n_n_0_3_1128_wf
def dot_S3072x128_S128x64_S3072x64_1_0_0_1_n_n : DotDims S3072x128 S128x64 S3072x64 where
  lhsContracting := [1]
  rhsContracting := [0]
  lhsNonContracting := [0]
  rhsNonContracting := [1]
  lhsBatch := []
  rhsBatch := []
  wf := dot_S3072x128_S128x64_S3072x64_1_0_0_1_n_n_wf
def dot_S256x3072_S3072x64_S256x64_1_0_0_1_n_n : DotDims S256x3072 S3072x64 S256x64 where
  lhsContracting := [1]
  rhsContracting := [0]
  lhsNonContracting := [0]
  rhsNonContracting := [1]
  lhsBatch := []
  rhsBatch := []
  wf := dot_S256x3072_S3072x64_S256x64_1_0_0_1_n_n_wf
def dot_S6144x128_S128x64_S6144x64_1_0_0_1_n_n : DotDims S6144x128 S128x64 S6144x64 where
  lhsContracting := [1]
  rhsContracting := [0]
  lhsNonContracting := [0]
  rhsNonContracting := [1]
  lhsBatch := []
  rhsBatch := []
  wf := dot_S6144x128_S128x64_S6144x64_1_0_0_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x16_S256x16_1_0_0_1_n_n : DotDims S256x64 S64x16 S256x16 where
  lhsContracting := [1]
  rhsContracting := [0]
  lhsNonContracting := [0]
  rhsNonContracting := [1]
  lhsBatch := []
  rhsBatch := []
  wf := dot_S256x64_S64x16_S256x16_1_0_0_1_n_n_wf

abbrev win0_0 : Pipeline.Window sig grid0 :=
  Pipeline.Window.ofSpec (Memref.whole main_v70) S3072x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v72) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v82) S256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v62) S6144x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v72) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v83) S6144x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v84) S3072x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v85) S3072x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v74) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v79) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v76) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v80) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v78) S64x16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v81) S1x16.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v86) S256x16.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S4096 : Shape := ⟨1, ![4096]⟩
abbrev S4096x12 : Shape := ⟨2, ![4096, 12]⟩
abbrev S49152x12 : Shape := ⟨2, ![49152, 12]⟩
abbrev S100000 : Shape := ⟨1, ![100000]⟩
abbrev S1600000 : Shape := ⟨1, ![1600000]⟩
abbrev S100000x128 : Shape := ⟨2, ![100000, 128]⟩
abbrev S64x128 : Shape := ⟨2, ![64, 128]⟩
abbrev S64 : Shape := ⟨1, ![64]⟩
abbrev S64x64 : Shape := ⟨2, ![64, 64]⟩
abbrev S16x64 : Shape := ⟨2, ![16, 64]⟩
abbrev S16 : Shape := ⟨1, ![16]⟩
abbrev S_ : Shape := ⟨0, ![]⟩
abbrev S4096x1 : Shape := ⟨2, ![4096, 1]⟩
abbrev S4096x12x1 : Shape := ⟨3, ![4096, 12, 1]⟩
abbrev S49152 : Shape := ⟨1, ![49152]⟩
abbrev S49152x1 : Shape := ⟨2, ![49152, 1]⟩
abbrev S49152x12x1 : Shape := ⟨3, ![49152, 12, 1]⟩
abbrev S4096x12x12 : Shape := ⟨3, ![4096, 12, 12]⟩
abbrev S4096x12x128 : Shape := ⟨3, ![4096, 12, 128]⟩
abbrev S4096x12x64 : Shape := ⟨3, ![4096, 12, 64]⟩
abbrev S4096x12x12x1 : Shape := ⟨4, ![4096, 12, 12, 1]⟩
abbrev S4096x12x12x128 : Shape := ⟨4, ![4096, 12, 12, 128]⟩
abbrev S4096x12x12x64 : Shape := ⟨4, ![4096, 12, 12, 64]⟩
abbrev S1x1x64 : Shape := ⟨3, ![1, 1, 64]⟩
abbrev S4096x64 : Shape := ⟨2, ![4096, 64]⟩
abbrev S1x64 : Shape := ⟨2, ![1, 64]⟩
abbrev S64x16 : Shape := ⟨2, ![64, 16]⟩
abbrev S4096x16 : Shape := ⟨2, ![4096, 16]⟩
abbrev S1x16 : Shape := ⟨2, ![1, 16]⟩

abbrev nBuf : Space → Nat
  | .hbm => 181
  | .vmem => 0
  | .smem => 0
  | _ => 0

abbrev hbmTy0_0 (i : Nat) : BufTy := match i % 128 with
  | 0 => ⟨S4096, .i32⟩
  | 1 => ⟨S4096x12, .i32⟩
  | 2 => ⟨S49152x12, .i32⟩
  | 3 => ⟨S100000, .i32⟩
  | 4 => ⟨S1600000, .i32⟩
  | 5 => ⟨S100000, .i32⟩
  | 6 => ⟨S100000x128, .f32⟩
  | 7 => ⟨S64x128, .f32⟩
  | 8 => ⟨S64x128, .f32⟩
  | 9 => ⟨S64, .f32⟩
  | 10 => ⟨S64x64, .f32⟩
  | 11 => ⟨S64, .f32⟩
  | 12 => ⟨S16x64, .f32⟩
  | 13 => ⟨S16, .f32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S4096, .i32⟩
  | 23 => ⟨S4096x1, .i32⟩
  | 24 => ⟨S_, .i32⟩
  | 25 => ⟨S4096x1, .i32⟩
  | 26 => ⟨S4096x1, .i1⟩
  | 27 => ⟨S_, .i32⟩
  | 28 => ⟨S4096x1, .i32⟩
  | 29 => ⟨S4096x1, .i32⟩
  | 30 => ⟨S4096x12, .i32⟩
  | 31 => ⟨S4096x12, .i32⟩
  | 32 => ⟨S_, .i32⟩
  | 33 => ⟨S4096x12, .i32⟩
  | 34 => ⟨S4096x12, .i1⟩
  | 35 => ⟨S_, .i32⟩
  | 36 => ⟨S4096x12, .i32⟩
  | 37 => ⟨S4096x12, .i1⟩
  | 38 => ⟨S_, .i32⟩
  | 39 => ⟨S4096x1, .i32⟩
  | 40 => ⟨S4096x1, .i1⟩
  | 41 => ⟨S4096x12, .i1⟩
  | 42 => ⟨S4096x12, .i1⟩
  | 43 => ⟨S4096x12, .i1⟩
  | 44 => ⟨S4096x12, .i32⟩
  | 45 => ⟨S4096x12, .i32⟩
  | 46 => ⟨S4096x12, .i32⟩
  | 47 => ⟨S_, .i32⟩
  | 48 => ⟨S4096, .i32⟩
  | 49 => ⟨S4096, .i1⟩
  | 50 => ⟨S_, .i32⟩
  | 51 => ⟨S4096, .i32⟩
  | 52 => ⟨S4096, .i32⟩
  | 53 => ⟨S4096, .i32⟩
  | 54 => ⟨S4096x1, .i32⟩
  | 55 => ⟨S4096, .i32⟩
  | 56 => ⟨S4096x1, .i32⟩
  | 57 => ⟨S4096x12, .i32⟩
  | 58 => ⟨S4096x12, .i32⟩
  | 59 => ⟨S_, .i32⟩
  | 60 => ⟨S4096x12, .i32⟩
  | 61 => ⟨S4096x12, .i1⟩
  | 62 => ⟨S_, .i32⟩
  | 63 => ⟨S4096x12, .i32⟩
  | 64 => ⟨S4096x12, .i32⟩
  | 65 => ⟨S4096x12, .i32⟩
  | 66 => ⟨S4096x12x1, .i32⟩
  | 67 => ⟨S4096x12, .i32⟩
  | 68 => ⟨S49152, .i32⟩
  | 69 => ⟨S_, .i32⟩
  | 70 => ⟨S49152, .i32⟩
  | 71 => ⟨S49152, .i1⟩
  | 72 => ⟨S_, .i32⟩
  | 73 => ⟨S49152, .i32⟩
  | 74 => ⟨S49152, .i32⟩
  | 75 => ⟨S49152, .i32⟩
  | 76 => ⟨S49152x1, .i32⟩
  | 77 => ⟨S49152, .i32⟩
  | 78 => ⟨S49152x1, .i32⟩
  | 79 => ⟨S_, .i32⟩
  | 80 => ⟨S49152x1, .i32⟩
  | 81 => ⟨S49152x1, .i1⟩
  | 82 => ⟨S_, .i32⟩
  | 83 => ⟨S49152x1, .i32⟩
  | 84 => ⟨S49152x1, .i32⟩
  | 85 => ⟨S49152x12, .i32⟩
  | 86 => ⟨S49152x12, .i32⟩
  | 87 => ⟨S_, .i32⟩
  | 88 => ⟨S49152x12, .i32⟩
  | 89 => ⟨S49152x12, .i1⟩
  | 90 => ⟨S_, .i32⟩
  | 91 => ⟨S49152x12, .i32⟩
  | 92 => ⟨S49152x12, .i1⟩
  | 93 => ⟨S_, .i32⟩
  | 94 => ⟨S49152x1, .i32⟩
  | 95 => ⟨S49152x1, .i1⟩
  | 96 => ⟨S49152x12, .i1⟩
  | 97 => ⟨S49152x12, .i1⟩
  | 98 => ⟨S49152x12, .i1⟩
  | 99 => ⟨S49152x12, .i32⟩
  | 100 => ⟨S49152x12, .i32⟩
  | 101 => ⟨S49152x12, .i32⟩
  | 102 => ⟨S_, .i32⟩
  | 103 => ⟨S49152, .i32⟩
  | 104 => ⟨S49152, .i1⟩
  | 105 => ⟨S_, .i32⟩
  | 106 => ⟨S49152, .i32⟩
  | 107 => ⟨S49152, .i32⟩
  | 108 => ⟨S49152, .i32⟩
  | 109 => ⟨S49152x1, .i32⟩
  | 110 => ⟨S49152, .i32⟩
  | 111 => ⟨S49152x1, .i32⟩
  | 112 => ⟨S49152x12, .i32⟩
  | 113 => ⟨S49152x12, .i32⟩
  | 114 => ⟨S_, .i32⟩
  | 115 => ⟨S49152x12, .i32⟩
  | 116 => ⟨S49152x12, .i1⟩
  | 117 => ⟨S_, .i32⟩
  | 118 => ⟨S49152x12, .i32⟩
  | 119 => ⟨S49152x12, .i32⟩
  | 120 => ⟨S49152x12, .i32⟩
  | 121 => ⟨S49152x12x1, .i32⟩
  | 122 => ⟨S49152x12, .i32⟩
  | 123 => ⟨S4096x12x12, .i32⟩
  | 124 => ⟨S_, .i32⟩
  | 125 => ⟨S4096x12, .i32⟩
  | 126 => ⟨S4096x12, .i1⟩
  | 127 => ⟨S_, .i32⟩
  | _ => ⟨S4096, .i32⟩

abbrev hbmTy0_1 (i : Nat) : BufTy := match i % 128 with
  | 0 => ⟨S4096x12, .i32⟩
  | 1 => ⟨S4096x12, .i32⟩
  | 2 => ⟨S4096x12, .i32⟩
  | 3 => ⟨S4096x12x1, .i32⟩
  | 4 => ⟨S4096x12x128, .f32⟩
  | 5 => ⟨S4096x12x64, .f32⟩
  | 6 => ⟨S_, .f32⟩
  | 7 => ⟨S4096x12x64, .f32⟩
  | 8 => ⟨S4096x12x64, .f32⟩
  | 9 => ⟨S_, .i32⟩
  | 10 => ⟨S4096x12x12, .i32⟩
  | 11 => ⟨S4096x12x12, .i1⟩
  | 12 => ⟨S_, .i32⟩
  | 13 => ⟨S4096x12x12, .i32⟩
  | 14 => ⟨S4096x12x12, .i32⟩
  | 15 => ⟨S4096x12x12, .i32⟩
  | 16 => ⟨S4096x12x12x1, .i32⟩
  | 17 => ⟨S4096x12x12x128, .f32⟩
  | 18 => ⟨S4096x12x12x64, .f32⟩
  | 19 => ⟨S_, .f32⟩
  | 20 => ⟨S4096x12x12x64, .f32⟩
  | 21 => ⟨S4096x12x12x64, .f32⟩
  | 22 => ⟨S_, .f32⟩
  | 23 => ⟨S4096x12x64, .f32⟩
  | 24 => ⟨S_, .f32⟩
  | 25 => ⟨S4096x12x64, .f32⟩
  | 26 => ⟨S4096x12x64, .f32⟩
  | 27 => ⟨S4096x12x128, .f32⟩
  | 28 => ⟨S4096x12x64, .f32⟩
  | 29 => ⟨S1x1x64, .f32⟩
  | 30 => ⟨S4096x12x64, .f32⟩
  | 31 => ⟨S4096x12x64, .f32⟩
  | 32 => ⟨S_, .f32⟩
  | 33 => ⟨S4096x12x64, .f32⟩
  | 34 => ⟨S4096x12x64, .f32⟩
  | 35 => ⟨S_, .f32⟩
  | 36 => ⟨S4096x64, .f32⟩
  | 37 => ⟨S_, .f32⟩
  | 38 => ⟨S4096x64, .f32⟩
  | 39 => ⟨S4096x64, .f32⟩
  | 40 => ⟨S64x64, .f32⟩
  | 41 => ⟨S4096x64, .f32⟩
  | 42 => ⟨S1x64, .f32⟩
  | 43 => ⟨S4096x64, .f32⟩
  | 44 => ⟨S4096x64, .f32⟩
  | 45 => ⟨S_, .f32⟩
  | 46 => ⟨S4096x64, .f32⟩
  | 47 => ⟨S4096x64, .f32⟩
  | 48 => ⟨S64x16, .f32⟩
  | 49 => ⟨S4096x16, .f32⟩
  | 50 => ⟨S1x16, .f32⟩
  | 51 => ⟨S4096x16, .f32⟩
  | 52 => ⟨S4096x16, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_v6 : Ref sig .tc := ⟨.hbm, 33, rfl⟩
abbrev main_call0_v7 : Ref sig .tc := ⟨.hbm, 34, rfl⟩
abbrev main_call0_c_2 : Ref sig .tc := ⟨.hbm, 35, rfl⟩
abbrev main_call0_v8 : Ref sig .tc := ⟨.hbm, 36, rfl⟩
abbrev main_call0_v9 : Ref sig .tc := ⟨.hbm, 37, rfl⟩
abbrev main_call0_c_3 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_v15 : Ref sig .tc := ⟨.hbm, 44, rfl⟩
abbrev main_call0_v16 : Ref sig .tc := ⟨.hbm, 45, rfl⟩
abbrev main_v8 : Ref sig .tc := ⟨.hbm, 46, rfl⟩
abbrev main_c_1 : Ref sig .tc := ⟨.hbm, 47, rfl⟩
abbrev main_v9 : Ref sig .tc := ⟨.hbm, 48, rfl⟩
abbrev main_v10 : Ref sig .tc := ⟨.hbm, 49, rfl⟩
abbrev main_c_2 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_3 : Ref sig .tc := ⟨.hbm, 59, rfl⟩
abbrev main_v19 : Ref sig .tc := ⟨.hbm, 60, rfl⟩
abbrev main_v20 : Ref sig .tc := ⟨.hbm, 61, rfl⟩
abbrev main_c_4 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_c_5 : Ref sig .tc := ⟨.hbm, 69, rfl⟩
abbrev main_v27 : Ref sig .tc := ⟨.hbm, 70, rfl⟩
abbrev main_v28 : Ref sig .tc := ⟨.hbm, 71, rfl⟩
abbrev main_c_6 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_call1_c : Ref sig .tc := ⟨.hbm, 79, rfl⟩
abbrev main_call1_v0 : Ref sig .tc := ⟨.hbm, 80, rfl⟩
abbrev main_call1_v1 : Ref sig .tc := ⟨.hbm, 81, rfl⟩
abbrev main_call1_c_0 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_c_1 : Ref sig .tc := ⟨.hbm, 87, rfl⟩
abbrev main_call1_v6 : Ref sig .tc := ⟨.hbm, 88, rfl⟩
abbrev main_call1_v7 : Ref sig .tc := ⟨.hbm, 89, rfl⟩
abbrev main_call1_c_2 : Ref sig .tc := ⟨.hbm, 90, rfl⟩
abbrev main_call1_v8 : Ref sig .tc := ⟨.hbm, 91, rfl⟩
abbrev main_call1_v9 : Ref sig .tc := ⟨.hbm, 92, rfl⟩
abbrev main_call1_c_3 : Ref sig .tc := ⟨.hbm, 93, rfl⟩
abbrev main_call1_v10 : Ref sig .tc := ⟨.hbm, 94, rfl⟩
abbrev main_call1_v11 : Ref sig .tc := ⟨.hbm, 95, rfl⟩
abbrev main_call1_v12 : Ref sig .tc := ⟨.hbm, 96, rfl⟩
abbrev main_call1_v13 : Ref sig .tc := ⟨.hbm, 97, rfl⟩
abbrev main_call1_v14 : Ref sig .tc := ⟨.hbm, 98, rfl⟩
abbrev main_call1_v15 : Ref sig .tc := ⟨.hbm, 99, rfl⟩
abbrev main_call1_v16 : Ref sig .tc := ⟨.hbm, 100, rfl⟩
abbrev main_v35 : Ref sig .tc := ⟨.hbm, 101, rfl⟩
abbrev main_c_7 : Ref sig .tc := ⟨.hbm, 102, rfl⟩
abbrev main_v36 : Ref sig .tc := ⟨.hbm, 103, rfl⟩
abbrev main_v37 : Ref sig .tc := ⟨.hbm, 104, rfl⟩
abbrev main_c_8 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_c_9 : Ref sig .tc := ⟨.hbm, 114, rfl⟩
abbrev main_v46 : Ref sig .tc := ⟨.hbm, 115, rfl⟩
abbrev main_v47 : Ref sig .tc := ⟨.hbm, 116, rfl⟩
abbrev main_c_10 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_c_11 : Ref sig .tc := ⟨.hbm, 124, rfl⟩
abbrev main_v54 : Ref sig .tc := ⟨.hbm, 125, rfl⟩
abbrev main_v55 : Ref sig .tc := ⟨.hbm, 126, rfl⟩
abbrev main_c_12 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_call2_cst : Ref sig .tc := ⟨.hbm, 134, rfl⟩
abbrev main_call2_v0 : Ref sig .tc := ⟨.hbm, 135, rfl⟩
abbrev main_v62 : Ref sig .tc := ⟨.hbm, 136, rfl⟩
abbrev main_c_13 : Ref sig .tc := ⟨.hbm, 137, rfl⟩
abbrev main_v63 : Ref sig .tc := ⟨.hbm, 138, rfl⟩
abbrev main_v64 : Ref sig .tc := ⟨.hbm, 139, rfl⟩
abbrev main_c_14 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_call3_cst : Ref sig .tc := ⟨.hbm, 147, rfl⟩
abbrev main_call3_v0 : Ref sig .tc := ⟨.hbm, 148, rfl⟩
abbrev main_v71 : Ref sig .tc := ⟨.hbm, 149, rfl⟩
abbrev main_cst : Ref sig .tc := ⟨.hbm, 150, rfl⟩
abbrev main_v72 : Ref sig .tc := ⟨.hbm, 151, rfl⟩
abbrev main_cst_15 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_call4_cst : Ref sig .tc := ⟨.hbm, 160, rfl⟩
abbrev main_call4_v0 : Ref sig .tc := ⟨.hbm, 161, rfl⟩
abbrev main_v80 : Ref sig .tc := ⟨.hbm, 162, rfl⟩
abbrev main_cst_16 : Ref sig .tc := ⟨.hbm, 163, rfl⟩
abbrev main_v81 : Ref sig .tc := ⟨.hbm, 164, rfl⟩
abbrev main_cst_17 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_call5_cst : Ref sig .tc := ⟨.hbm, 173, rfl⟩
abbrev main_call5_v0 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x12_0_1 : S4096x1.BroadcastsInDim S4096x12 (![0, 1] : Fin 2 → Fin S4096x12.rank)
  bcast_S_S4096x12 : S_.BroadcastsInDim S4096x12 (![] : Fin 0 → Fin S4096x12.rank)
  bcast_S4096x12_S4096x12x1_0_1 : S4096x12.BroadcastsInDim S4096x12x1 (![0, 1] : Fin 2 → Fin S4096x12x1.rank)
  shapeCasts_S4096x12_S49152 : S4096x12.ShapeCasts S49152
  bcast_S_S49152 : S_.BroadcastsInDim S49152 (![] : Fin 0 → Fin S49152.rank)
  bcast_S49152_S49152x1_0 : S49152.BroadcastsInDim S49152x1 (![0] : Fin 1 → Fin S49152x1.rank)
  bcast_S_S49152x1 : S_.BroadcastsInDim S49152x1 (![] : Fin 0 → Fin S49152x1.rank)
  bcast_S49152x1_S49152x12_0_1 : S49152x1.BroadcastsInDim S49152x12 (![0, 1] : Fin 2 → Fin S49152x12.rank)
  bcast_S_S49152x12 : S_.BroadcastsInDim S49152x12 (![] : Fin 0 → Fin S49152x12.rank)
  bcast_S49152x12_S49152x12x1_0_1 : S49152x12.BroadcastsInDim S49152x12x1 (![0, 1] : Fin 2 → Fin S49152x12x1.rank)
  shapeCasts_S49152x12_S4096x12x12 : S49152x12.ShapeCasts S4096x12x12
  bcast_S_S4096x12x64 : S_.BroadcastsInDim S4096x12x64 (![] : Fin 0 → Fin S4096x12x64.rank)
  bcast_S_S4096x12x12 : S_.BroadcastsInDim S4096x12x12 (![] : Fin 0 → Fin S4096x12x12.rank)
  bcast_S4096x12x12_S4096x12x12x1_0_1_2 : S4096x12x12.BroadcastsInDim S4096x12x12x1 (![0, 1, 2] : Fin 3 → Fin S4096x12x12x1.rank)
  bcast_S_S4096x12x12x64 : S_.BroadcastsInDim S4096x12x12x64 (![] : Fin 0 → Fin S4096x12x12x64.rank)
  reducesTo_S4096x12x12x64_S4096x12x64_d2 : S4096x12x12x64.ReducesTo [2] S4096x12x64
  h_S_ : 0 < S_.numel
  concatenates_S4096x12x64_S4096x12x64_S4096x12x128_d2 : Shape.Concatenates [S4096x12x64, S4096x12x64] S4096x12x128 2
  bcast_S64_S1x1x64_2 : S64.BroadcastsInDim S1x1x64 (![2] : Fin 1 → Fin S1x1x64.rank)
  bcast_S1x1x64_S4096x12x64_0_1_2 : S1x1x64.BroadcastsInDim S4096x12x64 (![0, 1, 2] : Fin 3 → Fin S4096x12x64.rank)
  reducesTo_S4096x12x64_S4096x64_d1 : S4096x12x64.ReducesTo [1] S4096x64
  bcast_S_S4096x64 : S_.BroadcastsInDim S4096x64 (![] : Fin 0 → Fin S4096x64.rank)
  transposes_S64x64_S64x64_1_0 : S64x64.Transposes [1, 0] S64x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  transposes_S16x64_S64x16_1_0 : S16x64.Transposes [1, 0] S64x16
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  gather_S100000_S4096x1_S4096_n_0_n_n_0_1_1_wf : GatherDims.WF S100000 S4096x1 S4096 [] [0] [] [0] [] 1 ![1]
  gather_S1600000_S4096x12x1_S4096x12_n_0_n_n_0_2_1_wf : GatherDims.WF S1600000 S4096x12x1 S4096x12 [] [0] [] [0] [] 2 ![1]
  gather_S100000_S49152x1_S49152_n_0_n_n_0_1_1_wf : GatherDims.WF S100000 S49152x1 S49152 [] [0] [] [0] [] 1 ![1]
  gather_S1600000_S49152x12x1_S49152x12_n_0_n_n_0_2_1_wf : GatherDims.WF S1600000 S49152x12x1 S49152x12 [] [0] [] [0] [] 2 ![1]
  gather_S100000x128_S4096x12x1_S4096x12x128_2_0_n_n_0_2_1128_wf : GatherDims.WF S100000x128 S4096x12x1 S4096x12x128 [2] [0] [] [0] [] 2 ![1, 128]
  dot_S4096x12x128_S64x128_S4096x12x64_2_1_01_0_n_n_wf : DotDims.WF S4096x12x128 S64x128 S4096x12x64 [2] [1] [0, 1] [0] [] []
  gather_S100000x128_S4096x12x12x1_S4096x12x12x128_3_0_n_n_0_3_1128_wf : GatherDims.WF S100000x128 S4096x12x12x1 S4096x12x12x128 [3] [0] [] [0] [] 3 ![1, 128]
  dot_S4096x12x12x128_S64x128_S4096x12x12x64_3_1_012_0_n_n_wf : DotDims.WF S4096x12x12x128 S64x128 S4096x12x12x64 [3] [1] [0, 1, 2] [0] [] []
  dot_S4096x64_S64x64_S4096x64_1_0_0_1_n_n_wf : DotDims.WF S4096x64 S64x64 S4096x64 [1] [0] [0] [1] [] []
  dot_S4096x64_S64x16_S4096x16_1_0_0_1_n_n_wf : DotDims.WF S4096x64 S64x16 S4096x16 [1] [0] [0] [1] [] []

variable [Facts₀]

def gather_S100000_S4096x1_S4096_n_0_n_n_0_1_1 : GatherDims S100000 S4096x1 S4096 where
  offsetDims := []
  collapsedSliceDims := [0]
  operandBatchingDims := []
  startIndicesBatchingDims := []
  startIndexMap := [0]
  indexVectorDim := 1
  sliceSizes := ![1]
  wf := gather_S100000_S4096x1_S4096_n_0_n_n_0_1_1_wf
def gather_S1600000_S4096x12x1_S4096x12_n_0_n_n_0_2_1 : GatherDims S1600000 S4096x12x1 S4096x12 where
  offsetDims := []
  collapsedSliceDims := [0]
  operandBatchingDims := []
  startIndicesBatchingDims := []
  startIndexMap := [0]
  indexVectorDim := 2
  sliceSizes := ![1]
  wf := gather_S1600000_S4096x12x1_S4096x12_n_0_n_n_0_2_1_wf
def gather_S100000_S49152x1_S49152_n_0_n_n_0_1_1 : GatherDims S100000 S49152x1 S49152 where
  offsetDims := []
  collapsedSliceDims := [0]
  operandBatchingDims := []
  startIndicesBatchingDims := []
  startIndexMap := [0]
  indexVectorDim := 1
  sliceSizes := ![1]
  wf := gather_S100000_S49152x1_S49152_n_0_n_n_0_1_1_wf
def gather_S1600000_S49152x12x1_S49152x12_n_0_n_n_0_2_1 : GatherDims S1600000 S49152x12x1 S49152x12 where
  offsetDims := []
  collapsedSliceDims := [0]
  operandBatchingDims := []
  startIndicesBatchingDims := []
  startIndexMap := [0]
  indexVectorDim := 2
  sliceSizes := ![1]
  wf := gather_S1600000_S49152x12x1_S49152x12_n_0_n_n_0_2_1_wf
def gather_S100000x128_S4096x12x1_S4096x12x128_2_0_n_n_0_2_1128 : GatherDims S100000x128 S4096x12x1 S4096x12x128 where
  offsetDims := [2]
  collapsedSliceDims := [0]
  operandBatchingDims := []
  startIndicesBatchingDims := []
  startIndexMap := [0]
  indexVectorDim := 2
  sliceSizes := ![1, 128]
  wf := gather_S100000x128_S4096x12x1_S4096x12x128_2_0_n_n_0_2_1128_wf
def dot_S4096x12x128_S64x128_S4096x12x64_2_1_01_0_n_n : DotDims S4096x12x128 S64x128 S4096x12x64 where
  lhsContracting := [2]
  rhsContracting := [1]
  lhsNonContracting := [0, 1]
  rhsNonContracting := [0]
  lhsBatch := []
  rhsBatch := []
  wf := dot_S4096x12x128_S64x128_S4096x12x64_2_1_01_0_n_n_wf
def gather_S100000x128_S4096x12x12x1_S4096x12x12x128_3_0_n_n_0_3_1128 : GatherDims S100000x128 S4096x12x12x1 S4096x12x12x128 where
  offsetDims := [3]
  collapsedSliceDims := [0]
  operandBatchingDims := []
  startIndicesBatchingDims := []
  startIndexMap := [0]
  indexVectorDim := 3
  sliceSizes := ![1, 128]
  wf := gather_S100000x128_S4096x12x12x1_S4096x12x12x128_3_0_n_n_0_3_1128_wf
def dot_S4096x12x12x128_S64x128_S4096x12x12x64_3_1_012_0_n_n : DotDims S4096x12x12x128 S64x128 S4096x12x12x64 where
  lhsContracting := [3]
  rhsContracting := [1]
  lhsNonContracting := [0, 1, 2]
  rhsNonContracting := [0]
  lhsBatch := []
  rhsBatch := []
  wf := dot_S4096x12x12x128_S64x128_S4096x12x12x64_3_1_012_0_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x16_S4096x16_1_0_0_1_n_n : DotDims S4096x64 S64x16 S4096x16 where
  lhsContracting := [1]
  rhsContracting := [0]
  lhsNonContracting := [0]
  rhsNonContracting := [1]
  lhsBatch := []
  rhsBatch := []
  wf := dot_S4096x64_S64x16_S4096x16_1_0_0_1_n_n_wf

class Facts : Prop extends Facts₀ where

variable [Facts]
-- ==== Proof.Spec.lean ====
/-
  The function both programs compute, over the extended reals, entry by entry.

  A batch of 4096 nodes, each with 12 sampled neighbours, each of those with 12 sampled neighbours of its own.
  Every sampled node carries a row of 128 features (`E1` for the first hop, `E2` for the second).

  * A row is ENCODED by a linear map to 64 hidden units followed by the positive part (`enc`).
  * The twelve second-hop encodings under one first-hop neighbour are AVERAGED: their sum times one twelfth (`mean12`).
  * The first-hop encoding and that average are laid side by side (`catOf`, 128 numbers), mapped linearly to 64
    units, shifted by a bias, and the positive part is taken (`h1Of`); the twelve results under one batch node are
    averaged again.
  * Two more affine maps, 64 → 64 with a positive part (`h0Of`) and 64 → 16 (`outOf`), give the 16 outputs of
    the batch node. `headOf` is everything after the encodings, for ONE batch node.

  The mean is written as the product with the real number 1/12; on the extended reals this is also the
  quotient by 12 (`mul_twelfth_eq_div`), whatever the sum is, infinite or not.
-/
import Idealize.ShloMosaic.PureOps.Ideal.Laws
import Idealize.ShloMosaic.Lib.ValueIdx

noncomputable section

open scoped BigOperators

namespace Cert.Sage

open Idealize.ShloMosaic

/-- The real number one twelfth, as an extended real. -/
def twelfth : EReal := ((1 / 12 : ℝ) : EReal)

/-- The mean of twelve extended reals: their sum times one twelfth. -/
def mean12 (f : Fin 12 → EReal) : EReal := (∑ k : Fin 12, f k) * twelfth

/-- One feature row encoded: hidden unit `h` of the positive part of the linear map `encw`. -/
def enc (encw : Fin 64 → Fin 128 → EReal) (x : Fin 128 → EReal) (h : Fin 64) : EReal :=
  max (∑ f : Fin 128, x f * encw h f) 0

/-- Two rows of 64 laid side by side: entries 0–63 from `e`, entries 64–127 from `a`. -/
def catOf (e a : Fin 64 → EReal) (d : Fin 128) : EReal :=
  if hd : d.val < 64 then e ⟨d.val, hd⟩ else a ⟨d.val - 64, by omega⟩

/-- The first hidden layer: an affine map of the 128 side-by-side numbers, then the positive part. -/
def h1Of (cat : Fin 128 → EReal) (h1w : Fin 64 → Fin 128 → EReal) (h1b : Fin 64 → EReal) (h : Fin 64) : EReal :=
  max ((∑ d : Fin 128, cat d * h1w h d) + h1b h) 0

/-- The second hidden layer. -/
def h0Of (v : Fin 64 → EReal) (h2w : Fin 64 → Fin 64 → EReal) (h2b : Fin 64 → EReal) (c : Fin 64) : EReal :=
  max ((∑ c' : Fin 64, v c' * h2w c c') + h2b c) 0

/-- The output layer. -/
def outOf (v : Fin 64 → EReal) (outw : Fin 16 → Fin 64 → EReal) (outb : Fin 16 → EReal) (o : Fin 16) : EReal :=
  (∑ c : Fin 64, v c * outw o c) + outb o

/-- Everything after the encodings, for one batch node: `e k` is the encoding of its first-hop neighbour `k`,
    `a k` the mean of the twelve second-hop encodings under that neighbour. -/
def headOf (e a : Fin 12 → Fin 64 → EReal) (h1w : Fin 64 → Fin 128 → EReal) (h1b : Fin 64 → EReal)
    (h2w : Fin 64 → Fin 64 → EReal) (h2b : Fin 64 → EReal) (outw : Fin 16 → Fin 64 → EReal) (outb : Fin 16 → EReal)
    (o : Fin 16) : EReal :=
  outOf (h0Of (fun c' => mean12 fun k => h1Of (catOf (e k) (a k)) h1w h1b c') h2w h2b) outw outb o

/-- The data: the gathered feature rows of both hops and the weights and biases of the four affine maps. -/
structure Params where
  E1 : Fin 4096 → Fin 12 → Fin 128 → EReal
  E2 : Fin 4096 → Fin 12 → Fin 12 → Fin 128 → EReal
  encw : Fin 64 → Fin 128 → EReal
  h1w : Fin 64 → Fin 128 → EReal
  h1b : Fin 64 → EReal
  h2w : Fin 64 → Fin 64 → EReal
  h2b : Fin 64 → EReal
  outw : Fin 16 → Fin 64 → EReal
  outb : Fin 16 → EReal

variable (P : Params)

/-- The encoding of first-hop neighbour `k` of batch node `b`. -/
def enc1 (b : Fin 4096) (k : Fin 12) (h : Fin 64) : EReal := enc P.encw (P.E1 b k) h

/-- The mean of the twelve second-hop encodings under first-hop neighbour `k` of batch node `b`. -/
def avg2 (b : Fin 4096) (k : Fin 12) (h : Fin 64) : EReal := mean12 fun j => enc P.encw (P.E2 b k j) h

/-- Output `o` of batch node `b`. -/
def out (b : Fin 4096) (o : Fin 16) : EReal :=
  headOf (enc1 P b) (avg2 P b) P.h1w P.h1b P.h2w P.h2b P.outw P.outb o

/-- On the extended reals the product with one twelfth is the quotient by twelve. -/
theorem mul_twelfth_eq_div (x : EReal) : x * twelfth = Ideal.div x ((12 : ℝ) : EReal) := by
  rw [Ideal.div_coe (by norm_num : (12 : ℝ) ≠ 0)]
  rfl

end Cert.Sage

end
-- ==== Proof.IdxSpec.lean ====
/-
  The sampled node indices, as pure functions of the integer arguments.

  Sampling a neighbour of node `n` with random integer `u`: the node's degree `deg n` and first edge `ptr n` are
  looked up (a negative node index counted from the end, as array indexing does), the random integer is reduced
  modulo the degree with the sign of the divisor (a zero divisor is replaced by one, and the truncated remainder
  is shifted by the divisor where the signs differ), and the edge list is read at `ptr n + (u mod deg n)`.
  The first hop samples twelve neighbours of each of the 4096 batch nodes; the second hop samples twelve
  neighbours of each of those 49152 nodes. The feature rows gathered at the sampled nodes are `rows1` and `rows2`.
-/
import proofs.«174830_j1030792151555_1_alg».proof.KernelIdeal
import proofs.«174830_j1030792151555_1_alg».proof.Proof.Spec

noncomputable section

namespace Cert.Idx

open Cert.KernelIdeal Idealize.ShloMosaic Idealize.ShloMosaic.ValueIdx

variable [Cert.KernelIdeal.Facts]
open Cert.KernelIdeal.Facts₀ Cert.KernelIdeal.Facts

/-- An index counted from the end when negative: `x + n` where `x < 0`, else `x`. -/
def wrapTo {s : Shape} (hb : S_.BroadcastsInDim s ![]) (n : BitVec 32) (x : IVec s 32) : IVec s 32 :=
  select (cmpi .slt x (broadcastInDim s ![] hb (constantI S_ 32 0#32))) (addi x (broadcastInDim s ![] hb (constantI S_ 32 n))) x

/-- The divisor with zero replaced by one. -/
def orOne {s : Shape} (hb : S_.BroadcastsInDim s ![]) (d : IVec s 32) : IVec s 32 :=
  select (cmpi .eq d (broadcastInDim s ![] hb (constantI S_ 32 0#32))) (broadcastInDim s ![] hb (constantI S_ 32 1#32)) d

/-- The remainder with the sign of the divisor, the divisor a column spread over the twelve entries of its row. -/
def floorRem (n : Nat) (hb1 : S_.BroadcastsInDim (⟨2, ![n, 1]⟩ : Shape) ![]) (hb : S_.BroadcastsInDim (⟨2, ![n, 12]⟩ : Shape) ![])
    (h01 : (⟨2, ![n, 1]⟩ : Shape).BroadcastsInDim (⟨2, ![n, 12]⟩ : Shape) ![0, 1]) (a : IVec (⟨2, ![n, 12]⟩ : Shape) 32)
    (d : IVec (⟨2, ![n, 1]⟩ : Shape) 32) : IVec (⟨2, ![n, 12]⟩ : Shape) 32 :=
  select
    (andi
      (cmpi .ne
        (cmpi .slt (Host.remsi a (broadcastInDim (⟨2, ![n, 12]⟩ : Shape) ![0, 1] h01 (orOne hb1 d))) (broadcastInDim (⟨2, ![n, 12]⟩ : Shape) ![] hb (constantI S_ 32 0#32)))
        (broadcastInDim (⟨2, ![n, 12]⟩ : Shape) ![0, 1] h01 (cmpi .slt (orOne hb1 d) (broadcastInDim (⟨2, ![n, 1]⟩ : Shape) ![] hb1 (constantI S_ 32 0#32)))))
      (cmpi .ne (Host.remsi a (broadcastInDim (⟨2, ![n, 12]⟩ : Shape) ![0, 1] h01 (orOne hb1 d))) (broadcastInDim (⟨2, ![n, 12]⟩ : Shape) ![] hb (constantI S_ 32 0#32))))
    (addi (Host.remsi a (broadcastInDim (⟨2, ![n, 12]⟩ : Shape) ![0, 1] h01 (orOne hb1 d))) (broadcastInDim (⟨2, ![n, 12]⟩ : Shape) ![0, 1] h01 (orOne hb1 d)))
    (Host.remsi a (broadcastInDim (⟨2, ![n, 12]⟩ : Shape) ![0, 1] h01 (orOne hb1 d)))

/-! ### The first hop -/

/-- A per-node table (degrees, or first edges) read at the 4096 batch nodes, as a column. -/
def col1 (tbl : IVec S100000 32) (nodes : IVec S4096 32) : IVec S4096x1 32 :=
  broadcastInDim S4096x1 ![0] bcast_S4096_S4096x1_0
    (Host.gather gather_S100000_S4096x1_S4096_n_0_n_n_0_1_1 tbl
      (broadcastInDim S4096x1 ![0] bcast_S4096_S4096x1_0 (wrapTo bcast_S_S4096 100000#32 nodes)))

/-- The random integers reduced modulo the batch nodes' degrees. -/
def rem1 (buf : IVec S4096x12 32) (degrees : IVec S100000 32) (nodes : IVec S4096 32) : IVec S4096x12 32 :=
  floorRem 4096 bcast_S_S4096x1 bcast_S_S4096x12 bcast_S4096x1_S4096x12_0_1 buf (col1 degrees nodes)

/-- The twelve sampled neighbours of each batch node, given the reduced random integers. -/
def hop1Of (r : IVec S4096x12 32) (indptr : IVec S100000 32) (indices : IVec S1600000 32) (nodes : IVec S4096 32) :
    IVec S4096x12 32 :=
  Host.gather gather_S1600000_S4096x12x1_S4096x12_n_0_n_n_0_2_1 indices
    (broadcastInDim S4096x12x1 ![0, 1] bcast_S4096x12_S4096x12x1_0_1
      (wrapTo bcast_S_S4096x12 1600000#32
        (addi (broadcastInDim S4096x12 ![0, 1] bcast_S4096x1_S4096x12_0_1 (col1 indptr nodes)) r)))

/-- The first-hop neighbours. -/
def hop1 (a0 : IVec S4096 32) (a1 : IVec S4096x12 32) (a3 : IVec S100000 32) (a4 : IVec S1600000 32)
    (a5 : IVec S100000 32) : IVec S4096x12 32 :=
  hop1Of (rem1 a1 a5 a0) a3 a4 a0

/-- The first-hop neighbours as one list of 49152 nodes. -/
def flat1 (x : IVec S4096x12 32) : IVec S49152 32 := fun i => shapeCast S49152 x shapeCasts_S4096x12_S49152 i

/-! ### The second hop -/

/-- A per-node table read at the 49152 first-hop nodes, as a column. -/
def col2 (tbl : IVec S100000 32) (nodes : IVec S49152 32) : IVec S49152x1 32 :=
  broadcastInDim S49152x1 ![0] bcast_S49152_S49152x1_0
    (Host.gather gather_S100000_S49152x1_S49152_n_0_n_n_0_1_1 tbl
      (broadcastInDim S49152x1 ![0] bcast_S49152_S49152x1_0 (wrapTo bcast_S_S49152 100000#32 nodes)))

def rem2 (buf : IVec S49152x12 32) (degrees : IVec S100000 32) (nodes : IVec S49152 32) : IVec S49152x12 32 :=
  floorRem 49152 bcast_S_S49152x1 bcast_S_S49152x12 bcast_S49152x1_S49152x12_0_1 buf (col2 degrees nodes)

def hop2Of (r : IVec S49152x12 32) (indptr : IVec S100000 32) (indices : IVec S1600000 32) (nodes : IVec S49152 32) :
    IVec S49152x12 32 :=
  Host.gather gather_S1600000_S49152x12x1_S49152x12_n_0_n_n_0_2_1 indices
    (broadcastInDim S49152x12x1 ![0, 1] bcast_S49152x12_S49152x12x1_0_1
      (wrapTo bcast_S_S49152x12 1600000#32
        (addi (broadcastInDim S49152x12 ![0, 1] bcast_S49152x1_S49152x12_0_1 (col2 indptr nodes)) r)))

/-- The second-hop neighbours, indexed by batch node, first-hop neighbour and second-hop neighbour. -/
def cube2 (x : IVec S49152x12 32) : IVec S4096x12x12 32 := fun i => shapeCast S4096x12x12 x shapeCasts_S49152x12_S4096x12x12 i

def hop2 (a0 : IVec S4096 32) (a1 : IVec S4096x12 32) (a2 : IVec S49152x12 32) (a3 : IVec S100000 32)
    (a4 : IVec S1600000 32) (a5 : IVec S100000 32) : IVec S4096x12x12 32 :=
  cube2 (hop2Of (rem2 a2 a5 (flat1 (hop1 a0 a1 a3 a4 a5))) a3 a4 (flat1 (hop1 a0 a1 a3 a4 a5)))

/-! ### The index arrays the feature table is gathered at, and the gathered rows -/

/-- The first-hop node ids as the gather's index array. -/
def idxA (x : IVec S4096x12 32) : IVec S4096x12x1 32 :=
  broadcastInDim S4096x12x1 ![0, 1] bcast_S4096x12_S4096x12x1_0_1 (wrapTo bcast_S_S4096x12 100000#32 x)

/-- The second-hop node ids as the gather's index array. -/
def idxB (x : IVec S4096x12x12 32) : IVec S4096x12x12x1 32 :=
  broadcastInDim S4096x12x12x1 ![0, 1, 2] bcast_S4096x12x12_S4096x12x12x1_0_1_2 (wrapTo bcast_S_S4096x12x12 100000#32 x)

/-- The feature rows of the first-hop nodes. -/
def rows1 (emb : FVec Ideal S100000x128 .f32) (x : IVec S4096x12 32) : FVec Ideal S4096x12x128 .f32 :=
  Host.gather gather_S100000x128_S4096x12x1_S4096x12x128_2_0_n_n_0_2_1128 emb (idxA x)

/-- The feature rows of the second-hop nodes. -/
def rows2 (emb : FVec Ideal S100000x128 .f32) (x : IVec S4096x12x12 32) : FVec Ideal S4096x12x12x128 .f32 :=
  Host.gather gather_S100000x128_S4096x12x12x1_S4096x12x12x128_3_0_n_n_0_3_1128 emb (idxB x)

/-- Everything the common function is computed from, as functions of the fourteen argument arrays. -/
def paramsOf (a0 : IVec S4096 32) (a1 : IVec S4096x12 32) (a2 : IVec S49152x12 32) (a3 : IVec S100000 32)
    (a4 : IVec S1600000 32) (a5 : IVec S100000 32) (a6 : FVec Ideal S100000x128 .f32) (a7 a8 : FVec Ideal S64x128 .f32)
    (a9 : FVec Ideal S64 .f32) (a10 : FVec Ideal S64x64 .f32) (a11 : FVec Ideal S64 .f32) (a12 : FVec Ideal S16x64 .f32)
    (a13 : FVec Ideal S16 .f32) : Cert.Sage.Params where
  E1 := fun b k f => rows1 a6 (hop1 a0 a1 a3 a4 a5) (ix3 b k f)
  E2 := fun b k j f => rows2 a6 (hop2 a0 a1 a2 a3 a4 a5) (ix4 b k j f)
  encw := fun h f => a7 (ix2 h f)
  h1w := fun h d => a8 (ix2 h d)
  h1b := fun h => a9 (ix1 h)
  h2w := fun c c' => a10 (ix2 c c')
  h2b := fun c => a11 (ix1 c)
  outw := fun o c => a12 (ix2 o c)
  outb := fun o => a13 (ix1 o)

end Cert.Idx

end
-- ==== Proof.KHost.lean ====
/-
  What the host operations before the regions leave in the buffers the regions read, as pure functions of the
  argument arrays: the sampled node indices stage by stage (each stretch of operations reads the previous
  stretch's result as ONE value, so no term is ever expanded through the sharing), the gathered feature rows
  laid out as matrices of rows, and the transposed weights. At the ideal values a change of float format is the
  identity, so the rows gathered from the narrowed table are the table's rows.
-/
import proofs.«174830_j1030792151555_1_alg».proof.Proof.Gen.KernelIdeal.Frame
import proofs.«174830_j1030792151555_1_alg».proof.Proof.IdxSpec
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

/-! ## What each stretch leaves untouched -/

/-- The buffers the stretch writes. -/
abbrev wr0 : List (Ref sig .tc) := [main_c, main_v0, main_v1, main_c_0, main_v2, main_v3, main_v4, main_v5, main_v6, main_v7]
theorem wr0_ok : (hostOps0 : List (HloOp τ sig (Elt Ideal))).Forall fun op => op.writes ⊆ (wr0.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer the stretch does not write keeps its contents. -/
theorem keep0 (W : Valuation τ sig (Elt Ideal)) (r : Ref sig .tc) (h : r ∉ wr0) :
    StableHlo.after hostOps0 W (Proc.devRef .tc r) = W (Proc.devRef .tc r) :=
  StableHlo.after_of_writes_sub hostOps0 W wr0_ok h

/-- The buffers the stretch writes. -/
abbrev wr1 : List (Ref sig .tc) := [main_call0_c, main_call0_v0, main_call0_v1, main_call0_c_0, main_call0_v2, main_call0_v3, main_call0_v4, main_call0_v5, main_call0_c_1, main_call0_v6, main_call0_v7, main_call0_c_2, main_call0_v8, main_call0_v9, main_call0_c_3, main_call0_v10, main_call0_v11, main_call0_v12, main_call0_v13, main_call0_v14, main_call0_v15, main_call0_v16, main_v8]
theorem wr1_ok : (hostOps0_1 : List (HloOp τ sig (Elt Ideal))).Forall fun op => op.writes ⊆ (wr1.map (Proc.devRef (τ := τ) .tc)).toFinset := by
  simp only [hostOps0_1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer the stretch does not write keeps its contents. -/
theorem keep1 (W : Valuation τ sig (Elt Ideal)) (r : Ref sig .tc) (h : r ∉ wr1) :
    StableHlo.after hostOps0_1 W (Proc.devRef .tc r) = W (Proc.devRef .tc r) :=
  StableHlo.after_of_writes_sub hostOps0_1 W wr1_ok h

/-- The buffers the stretch writes. -/
abbrev wr2 : List (Ref sig .tc) := [main_c_1, main_v9, main_v10, main_c_2, main_v11, main_v12, main_v13, main_v14, main_v15, main_v16, main_v17, main_v18, main_c_3, main_v19, main_v20, main_c_4, main_v21, main_v22, main_v23, main_v24, main_v25, main_v26, main_c_5, main_v27, main_v28, main_c_6, main_v29, main_v30, main_v31, main_v32, main_v33, main_v34]
theorem wr2_ok : (hostOps0_2 : List (HloOp τ sig (Elt Ideal))).Forall fun op => op.writes ⊆ (wr2.map (Proc.devRef (τ := τ) .tc)).toFinset := by
  simp only [hostOps0_2, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer the stretch does not write keeps its contents. -/
theorem keep2 (W : Valuation τ sig (Elt Ideal)) (r : Ref sig .tc) (h : r ∉ wr2) :
    StableHlo.after hostOps0_2 W (Proc.devRef .tc r) = W (Proc.devRef .tc r) :=
  StableHlo.after_of_writes_sub hostOps0_2 W wr2_ok h

/-- The buffers the stretch writes. -/
abbrev wr3 : List (Ref sig .tc) := [main_call1_c, main_call1_v0, main_call1_v1, main_call1_c_0, main_call1_v2, main_call1_v3, main_call1_v4, main_call1_v5, main_call1_c_1, main_call1_v6, main_call1_v7, main_call1_c_2, main_call1_v8, main_call1_v9, main_call1_c_3, main_call1_v10, main_call1_v11, main_call1_v12, main_call1_v13, main_call1_v14, main_call1_v15, main_call1_v16, main_v35]
theorem wr3_ok : (hostOps0_3 : List (HloOp τ sig (Elt Ideal))).Forall fun op => op.writes ⊆ (wr3.map (Proc.devRef (τ := τ) .tc)).toFinset := by
  simp only [hostOps0_3, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer the stretch does not write keeps its contents. -/
theorem keep3 (W : Valuation τ sig (Elt Ideal)) (r : Ref sig .tc) (h : r ∉ wr3) :
    StableHlo.after hostOps0_3 W (Proc.devRef .tc r) = W (Proc.devRef .tc r) :=
  StableHlo.after_of_writes_sub hostOps0_3 W wr3_ok h

/-- The buffers the stretch writes. -/
abbrev wr4 : List (Ref sig .tc) := [main_c_7, main_v36, main_v37, main_c_8, main_v38, main_v39, main_v40, main_v41, main_v42, main_v43, main_v44, main_v45, main_c_9, main_v46, main_v47, main_c_10, main_v48, main_v49, main_v50, main_v51, main_v52, main_v53, main_v54, main_c_11, main_v55, main_v56, main_c_12, main_v57, main_v58, main_v59, main_v60, main_v61, main_v62, main_c_13, main_v63, main_v64, main_c_14, main_v65, main_v66, main_v67, main_v68, main_v69, main_v70, main_v71, main_v72, main_v73, main_v74, main_v75, main_v76, main_v77, main_v78, main_v79, main_v80, main_v81]
theorem wr4_ok : (hostOps0_4 : List (HloOp τ sig (Elt Ideal))).Forall fun op => op.writes ⊆ (wr4.map (Proc.devRef (τ := τ) .tc)).toFinset := by
  simp only [hostOps0_4, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer the stretch does not write keeps its contents. -/
theorem keep4 (W : Valuation τ sig (Elt Ideal)) (r : Ref sig .tc) (h : r ∉ wr4) :
    StableHlo.after hostOps0_4 W (Proc.devRef .tc r) = W (Proc.devRef .tc r) :=
  StableHlo.after_of_writes_sub hostOps0_4 W wr4_ok h

/-- The buffers the stretch writes. -/
abbrev wrh2 : List (Ref sig .tc) := [main_v84, main_v85]
theorem wrh2_ok : (hostOps2 : List (HloOp τ sig (Elt Ideal))).Forall fun op => op.writes ⊆ (wrh2.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer the stretch does not write keeps its contents. -/
theorem keeph2 (W : Valuation τ sig (Elt Ideal)) (r : Ref sig .tc) (h : r ∉ wrh2) :
    StableHlo.after hostOps2 W (Proc.devRef .tc r) = W (Proc.devRef .tc r) :=
  StableHlo.after_of_writes_sub hostOps2 W wrh2_ok h

/-! ## What each stretch computes, from ANY contents `W` it starts at -/

section Stages
variable (W : Valuation τ sig (Elt Ideal))

set_option maxHeartbeats 2000000 in
theorem st0 : StableHlo.after hostOps0 W (Proc.devRef .tc main_v7)
    = Cert.Idx.col1 (W (Proc.devRef .tc main_arg5)) (W (Proc.devRef .tc main_arg0)) := by
  after_results_simp
  rfl

set_option maxHeartbeats 2000000 in
theorem st1 : StableHlo.after hostOps0_1 W (Proc.devRef .tc main_v8)
    = Cert.Idx.floorRem 4096 bcast_S_S4096x1 bcast_S_S4096x12 bcast_S4096x1_S4096x12_0_1
        (W (Proc.devRef .tc main_arg1)) (W (Proc.devRef .tc main_v7)) := by
  after_results_simp
  rfl

set_option maxHeartbeats 2000000 in
theorem st2a : StableHlo.after hostOps0_2 W (Proc.devRef .tc main_v25)
    = Cert.Idx.hop1Of (W (Proc.devRef .tc main_v8)) (W (Proc.devRef .tc main_arg3)) (W (Proc.devRef .tc main_arg4))
        (W (Proc.devRef .tc main_arg0)) := by
  after_results_simp
  rfl

set_option maxHeartbeats 2000000 in
theorem st2b : StableHlo.after hostOps0_2 W (Proc.devRef .tc main_v26)
    = Cert.Idx.flat1 (Cert.Idx.hop1Of (W (Proc.devRef .tc main_v8)) (W (Proc.devRef .tc main_arg3))
        (W (Proc.devRef .tc main_arg4)) (W (Proc.devRef .tc main_arg0))) := by
  after_results_simp
  rfl

set_option maxHeartbeats 2000000 in
theorem st2c : StableHlo.after hostOps0_2 W (Proc.devRef .tc main_v34)
    = Cert.Idx.col2 (W (Proc.devRef .tc main_arg5)) (Cert.Idx.flat1 (Cert.Idx.hop1Of (W (Proc.devRef .tc main_v8))
        (W (Proc.devRef .tc main_arg3)) (W (Proc.devRef .tc main_arg4)) (W (Proc.devRef .tc main_arg0)))) := by
  after_results_simp
  rfl

set_option maxHeartbeats 2000000 in
theorem st3 : StableHlo.after hostOps0_3 W (Proc.devRef .tc main_v35)
    = Cert.Idx.floorRem 49152 bcast_S_S49152x1 bcast_S_S49152x12 bcast_S49152x1_S49152x12_0_1
        (W (Proc.devRef .tc main_arg2)) (W (Proc.devRef .tc main_v34)) := by
  after_results_simp
  rfl

end Stages

end Cert.KernelIdeal.HostValue

end
-- ==== Proof.KHost4.lean ====
/-
  The last stretch of host operations before the regions, from ANY contents `W` it starts at: the feature rows
  gathered at the first-hop and second-hop nodes, laid out as matrices with one node per row, and the four weight
  matrices transposed and the three biases as single rows. At the ideal values narrowing a float is the identity.
-/
import proofs.«174830_j1030792151555_1_alg».proof.Proof.Gen.KernelIdeal.Frame
import proofs.«174830_j1030792151555_1_alg».proof.Proof.IdxSpec
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable (W : Valuation τ sig (Elt Ideal))

/-- The second-hop neighbours from the previous stretches' results. -/
abbrev hop2From (W : Valuation τ sig (Elt Ideal)) : IVec S4096x12x12 32 :=
  Cert.Idx.cube2 (Cert.Idx.hop2Of (W (Proc.devRef .tc main_v35)) (W (Proc.devRef .tc main_arg3))
    (W (Proc.devRef .tc main_arg4)) (W (Proc.devRef .tc main_v26)))

set_option maxHeartbeats 4000000 in
theorem st4_rows1 : StableHlo.after hostOps0_4 W (Proc.devRef .tc main_v62)
    = fun i => shapeCast S49152x128 (Cert.Idx.rows1 (W (Proc.devRef .tc main_arg6)) (W (Proc.devRef .tc main_v25)))
        shapeCasts_S4096x12x128_S49152x128 i := by
  after_results_simp
  rfl

set_option maxHeartbeats 4000000 in
theorem st4_rows2 : StableHlo.after hostOps0_4 W (Proc.devRef .tc main_v70)
    = fun i => shapeCast S589824x128 (Cert.Idx.rows2 (W (Proc.devRef .tc main_arg6)) (hop2From W))
        shapeCasts_S4096x12x12x128_S589824x128 i := by
  after_results_simp
  rfl

set_option maxHeartbeats 4000000 in
theorem st4_encw : StableHlo.after hostOps0_4 W (Proc.devRef .tc main_v72)
    = transpose S128x64 [1, 0] (W (Proc.devRef .tc main_arg7)) transposes_S64x128_S128x64_1_0 := by
  after_results_simp
  rfl

set_option maxHeartbeats 4000000 in
theorem st4_h1w : StableHlo.after hostOps0_4 W (Proc.devRef .tc main_v74)
    = transpose S128x64 [1, 0] (W (Proc.devRef .tc main_arg8)) transposes_S64x128_S128x64_1_0 := by
  after_results_simp
  rfl

set_option maxHeartbeats 4000000 in
theorem st4_h2w : StableHlo.after hostOps0_4 W (Proc.devRef .tc main_v76)
    = transpose S64x64 [1, 0] (W (Proc.devRef .tc main_arg10)) transposes_S64x64_S64x64_1_0 := by
  after_results_simp
  rfl

set_option maxHeartbeats 4000000 in
theorem st4_outw : StableHlo.after hostOps0_4 W (Proc.devRef .tc main_v78)
    = transpose S64x16 [1, 0] (W (Proc.devRef .tc main_arg12)) transposes_S16x64_S64x16_1_0 := by
  after_results_simp
  rfl

set_option maxHeartbeats 4000000 in
theorem st4_h1b : StableHlo.after hostOps0_4 W (Proc.devRef .tc main_v79)
    = fun i => shapeCast S1x64 (W (Proc.devRef .tc main_arg9)) shapeCasts_S64_S1x64 i := by
  after_results_simp
  rfl

set_option maxHeartbeats 4000000 in
theorem st4_h2b : StableHlo.after hostOps0_4 W (Proc.devRef .tc main_v80)
    = fun i => shapeCast S1x64 (W (Proc.devRef .tc main_arg11)) shapeCasts_S64_S1x64 i := by
  after_results_simp
  rfl

set_option maxHeartbeats 4000000 in
theorem st4_outb : StableHlo.after hostOps0_4 W (Proc.devRef .tc main_v81)
    = fun i => shapeCast S1x16 (W (Proc.devRef .tc main_arg13)) shapeCasts_S16_S1x16 i := by
  after_results_simp
  rfl

end Cert.KernelIdeal.HostValue

end
-- ==== Proof.LibRowOps.lean ====
/-
  Rank-two arrays read at an index, over abstract extents.

  * A plain matrix product — rows by contraction times contraction by columns, no batch axis — read at
    `(p, q)` is the sum over the contraction axis of left `(p, k)` times right `(k, q)`: for a kernel's product
    into a zero accumulator and for the host's `dot_general` alike, at the ideal values.
  * A vector of length `N` spread over the rows of an `M × N` array, read at `(p, q)`, is the vector at `q`:
    spelt as a shape cast followed by a broadcast, or as two `broadcast_in_dim`s.
  * A unit-stride slice of columns (of entries, for a vector) read at an index is the operand at the shifted index.
  * A scalar constant spread over any shape reads as the constant's value.
-/
import Idealize.ShloMosaic.PureOps.Ideal.Laws
import Idealize.ShloMosaic.Lib.ValueIdx
import Idealize.ShloMosaic.Lib.Pipeline.Value

noncomputable section

open scoped BigOperators

namespace Cert.Lib.RowOps

open Idealize.ShloMosaic Idealize.ShloMosaic.ValueIdx

/-! ## Plain matrix products -/

/-- The contraction of a plain product at `(p, q)`, re-indexed by the contraction axis itself. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A kernel's plain product into the zero accumulator, at `(p, q)`. -/
theorem matmul_zero_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply]
  exact plain_sum M K N l r p q

/-- The host's plain `dot_general` at `(p, q)`. -/
theorem dotGeneral_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum M K N l r p q

/-! ## A vector spread over the rows -/

section Spread

variable {α : Type}

/-- Shape cast to one row, then broadcast over `M` rows. -/
theorem castRow_broadcast_apply (M N : Nat) (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_apply _ h2 (ix2 p q) (ix2 (0 : Fin 1) q) (fun a => by
    match a with
    | ⟨0, _⟩ => simp
    | ⟨1, _⟩ =>
      show q.val = if N = 1 then 0 else q.val
      split
      · have := q.isLt; omega
      · rfl)]
  rw [shapeCast_addUnit_apply ![N] b h1 (ix2 (0 : Fin 1) q)]
  exact congrArg b (funext fun a => by match a with | ⟨0, _⟩ => rfl)

/-- `broadcast_in_dim` to one row, then over `M` rows. -/
theorem bcastRow_bcast_apply (M N : Nat) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => simp
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-! ## Slices -/

/-- Columns `o … o + N - 1` of an `M × N'` array. -/
theorem sliceCols_apply (M N' N o : Nat) (x : (⟨2, ![M, N']⟩ : Shape).Idx → α)
    (h : (⟨2, ![M, N']⟩ : Shape).Slices ![0, o] ⟨2, ![M, N]⟩) (p : Fin M) (q : Fin N) (hlt : o + q.val < N') :
    extractStridedSlice ⟨2, ![M, N]⟩ ![0, o] x h (ix2 p q) = x (ix2 p ⟨o + q.val, hlt⟩) :=
  extractStridedSlice_apply ![0, o] x h (ix2 p q) (ix2 p ⟨o + q.val, hlt⟩) (fun a => by
    match a with
    | ⟨0, _⟩ => show p.val = 0 + p.val; omega
    | ⟨1, _⟩ => rfl)

/-- Entries `o … o + N - 1` of a vector of length `N'`. -/
theorem sliceVec_apply (N' N o : Nat) (x : (⟨1, ![N']⟩ : Shape).Idx → α)
    (h : (⟨1, ![N']⟩ : Shape).Slices ![o] ⟨1, ![N]⟩) (q : Fin N) (hlt : o + q.val < N') :
    extractStridedSlice ⟨1, ![N]⟩ ![o] x h (ix1 q) = x (ix1 ⟨o + q.val, hlt⟩) :=
  extractStridedSlice_apply ![o] x h (ix1 q) (ix1 ⟨o + q.val, hlt⟩) (fun a => by
    match a with
    | ⟨0, _⟩ => rfl)

end Spread

/-! ## One-operand operations at an index (definitional at the ideal values) -/

section Pointwise

variable {s : Shape} {φ : FTy}

theorem hostDivf_apply (x y : FVec Ideal s φ) (i : s.Idx) : Host.divf x y i = Ideal.div (x i) (y i) := rfl
theorem hostExp_apply (x : FVec Ideal s φ) (i : s.Idx) : Host.exp x i = Ideal.exp (x i) := rfl
theorem hostNegf_apply (x : FVec Ideal s φ) (i : s.Idx) : Host.negf x i = -(x i) := rfl
theorem hostTanh_apply (x : FVec Ideal s φ) (i : s.Idx) : Host.tanh x i = Ideal.tanh (x i) := rfl
theorem tanh_apply (x : FVec Ideal s φ) (i : s.Idx) : tanh x i = Ideal.tanh (x i) := rfl
theorem logistic_apply (x : FVec Ideal s φ) (i : s.Idx) : logistic x i = Ideal.logistic (x i) := rfl

end Pointwise

/-! ## Scalar constants spread over a shape -/

/-- The host's `broadcast_in_dim` of a scalar constant. -/
theorem splat_apply {φ : FTy} (t : Shape) (h : (⟨0, ![]⟩ : Shape).BroadcastsInDim t ![]) (w : BitVec φ.bits) (i : t.Idx) :
    broadcastInDim t ![] h (constant (F := Ideal) ⟨0, ![]⟩ φ w) i = Ideal.ofBits φ w := by
  rw [broadcastInDim_apply ![] h _ i ix0 (fun a => a.elim0)]
  rfl

end Cert.Lib.RowOps

end
-- ==== Proof.PayOneHop.lean ====
/-
  The one-hop body read at an index, over the extended reals.

  The body multiplies a block of 6144 feature rows (128 features each) by the 128 × 64 encoder matrix and takes
  the positive part. Entry `(r, h)` of what it leaves is therefore the encoding of row `r` at hidden unit `h`:
  the positive part of the sum over the 128 features of feature times weight.
-/
import proofs.«174830_j1030792151555_1_alg».proof.Proof.Gen.KernelIdeal.Frame
import proofs.«174830_j1030792151555_1_alg».proof.Proof.Spec
import proofs.«174830_j1030792151555_1_alg».proof.Proof.LibRowOps
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The two zero offsets of a whole-block rectangle of rank two. -/
private theorem zero_offsets2 : (![0, 0] : Fin 2 → Nat) = fun _ => 0 := funext fun a => by fin_cases a <;> rfl

/-- Entry `(r, h)` of the one-hop body's output block: the encoding of feature row `r` at hidden unit `h`. -/
theorem out1_2_apply (x0 : Vec Ideal S6144x128 .bf16) (x1 : Vec Ideal S128x64 .bf16) (r : Fin 6144) (h : Fin 64) :
    Gen.out1_2 (F := Ideal) x0 x1 (ix2 r h) = Cert.Sage.enc (fun h f => x1 (ix2 f h)) (fun f => x0 (ix2 r f)) h := by
  unfold Gen.out1_2
  rw [View.canon_unit_zero zero_offsets2]
  simp only [View.ld_unit_zero (S := S6144x128) zero_offsets2, View.ld_unit_zero (S := S128x64) zero_offsets2]
  unfold Gen.k1_pay1
  -- the positive part is pointwise, the shape casts are the identity, and the product is a plain 6144 × 128 by 128 × 64 one
  rw [maximumf_apply, broadcast_apply, shapeCast_self, shapeCast_self]
  have hd : dot_S6144x128_S128x64_S6144x64_1_0_0_1_n_n = DotDims.plain 6144 128 64 := rfl
  rw [hd]
  unfold Cert.Sage.enc
  exact congrArg₂ max (Cert.Lib.RowOps.matmul_zero_apply 6144 128 64 none x0 x1 r h) Ideal.ofBits_zero_f32

end Cert.KernelIdeal.Pay

end
-- ==== Proof.RowCol.lean ====
/-
  The row and the column of a rank-2 index as numbers below the literal extents.
-/
import Idealize.ShloMosaic.Lib.ValueIdx

namespace Cert.KernelIdeal.RegionValue

open Idealize.ShloMosaic Idealize.ShloMosaic.ValueIdx

/-- The row of a rank-2 index. -/
def row {A B : Nat} (i : (⟨2, ![A, B]⟩ : Shape).Idx) : Fin A := ⟨(i 0).val, (i 0).isLt⟩
/-- The column of a rank-2 index. -/
def col {A B : Nat} (i : (⟨2, ![A, B]⟩ : Shape).Idx) : Fin B := ⟨(i 1).val, (i 1).isLt⟩

end Cert.KernelIdeal.RegionValue
-- ==== Proof.RegOneHop.lean ====
/-
  The one-hop region: what its output array holds after the run. Grid point `t` reads rows 6144·t … 6144·t + 6143 of
  the matrix of first-hop feature rows and the whole weight matrix, and writes the same rows of the output:
  every output row is the encoding of the input row of the same number, so the eight blocks together are one
  function of the two arrays as the region finds them.
-/
import proofs.«174830_j1030792151555_1_alg».proof.Proof.Gen.KernelIdeal.Frame
import proofs.«174830_j1030792151555_1_alg».proof.Proof.PayOneHop
import proofs.«174830_j1030792151555_1_alg».proof.Proof.Spec
import proofs.«174830_j1030792151555_1_alg».proof.Proof.RowCol
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- Every row of `x` encoded with the (transposed) weights `w`. -/
def encRows (x : S49152x128.Idx → EReal) (w : S128x64.Idx → EReal) : S49152x64.Idx → EReal :=
  fun i => Cert.Sage.enc (fun h f => w (ix2 f h)) (fun f => x (ix2 (row i) f)) (col i)

/-- One block of the body's result is the corresponding block of `encRows`: stated over plain blocks `x0`, `x1` that
    are known to be rows `base …` of `X` and all of `Wt`. -/
theorem encRows_point (x0 : Vec Ideal S6144x128 .bf16) (x1 : Vec Ideal S128x64 .bf16) (X : S49152x128.Idx → EReal)
    (Wt : S128x64.Idx → EReal) (base : Nat)
    (hx0 : ∀ (r : Fin 6144) (f : Fin 128) (hr : base + r.val < 49152), x0 (ix2 r f) = X (ix2 ⟨base + r.val, hr⟩ f))
    (hx1 : ∀ (f : Fin 128) (h : Fin 64), x1 (ix2 f h) = Wt (ix2 f h))
    (y : S6144x64.Idx) (I : S49152x64.Idx) (hI0 : (I 0).val = base + (y 0).val) (hI1 : (I 1).val = (y 1).val) :
    Gen.out1_2 (F := Ideal) x0 x1 y = encRows X Wt I := by
  obtain ⟨p, q, rfl⟩ : ∃ (p : Fin 6144) (q : Fin 64), y = ix2 p q := ⟨y 0, y 1, eq_ix2 y⟩
  have hr : base + p.val < 49152 := by
    have h49 : (I 0).val < 49152 := (I 0).isLt
    have h0 : (I 0).val = base + p.val := hI0
    omega
  have hI : I = ix2 (⟨base + p.val, hr⟩ : Fin 49152) q :=
    funext fun a => Fin.ext (by
      match a with
      | ⟨0, _⟩ => exact hI0
      | ⟨1, _⟩ => exact hI1)
  rw [Pay.out1_2_apply, hI]
  show Cert.Sage.enc (fun h f => x1 (ix2 f h)) (fun f => x0 (ix2 p f)) q
    = Cert.Sage.enc (fun h f => Wt (ix2 f h)) (fun f => X (ix2 (⟨base + p.val, hr⟩ : Fin 49152) f)) q
  have e0 : (fun f => x0 (ix2 p f)) = fun f => X (ix2 (⟨base + p.val, hr⟩ : Fin 49152) f) := funext fun f => hx0 p f hr
  have e1 : (fun (h : Fin 64) (f : Fin 128) => x1 (ix2 f h)) = fun h f => Wt (ix2 f h) := funext fun h => funext fun f => hx1 f h
  rw [e0, e1]

variable (V : (c : Dev nD) → (b : Ref sig .tc) → Buf (Elt Ideal) ((c : Thread nD τ).loc b))

/-- The printed index maps over the grid: the row blocks move with the point, the weights stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the encoded rows. -/
theorem flushed1 (c : Dev nD) (t : Fin cfg1.N) :
    (dat1 V c).flushed 2 t = ((cfg1.win 2).blk t).view.read (Elt Ideal) (encRows (V c main_v62) (V c main_v72)) := by
  show (cfg1.win 2).cut (grid1.coords t) ((dat1 V c).after 2 t) = _
  rw [after1_2]
  obtain ⟨e00, e01, e10, e11, e20, e21⟩ := idx_facts1 t
  funext j
  show Gen.out1_2 (F := Ideal) (iblk1 V c 0 t) (iblk1 V c 1 t) j = encRows (V c main_v62) (V c main_v72) (((cfg1.win 2).blk t).view.emb j)
  refine encRows_point (iblk1 V c 0 t) (iblk1 V c 1 t) (V c main_v62) (V c main_v72) (t.val * 6144) ?_ ?_ j _ ?_ ?_
  · intro r f hr
    show V c main_v62 (((cfg1.win 0).blk t).view.emb (ix2 r f)) = V c main_v62 (ix2 ⟨t.val * 6144 + r.val, hr⟩ f)
    refine congrArg (V c main_v62) (funext fun a => Fin.ext ?_)
    match a with
    | ⟨0, _⟩ => show win1_0.index t (0 : Fin 2) * 6144 + 1 * r.val = t.val * 6144 + r.val; omega
    | ⟨1, _⟩ => show win1_0.index t (1 : Fin 2) * 128 + 1 * f.val = f.val; omega
  · intro f h
    show V c main_v72 (((cfg1.win 1).blk t).view.emb (ix2 f h)) = V c main_v72 (ix2 f h)
    refine congrArg (V c main_v72) (funext fun a => Fin.ext ?_)
    match a with
    | ⟨0, _⟩ => show win1_1.index t (0 : Fin 2) * 128 + 1 * f.val = f.val; omega
    | ⟨1, _⟩ => show win1_1.index t (1 : Fin 2) * 64 + 1 * h.val = h.val; omega
  · show win1_2.index t (0 : Fin 2) * 6144 + 1 * (j 0).val = t.val * 6144 + (j 0).val; omega
  · show win1_2.index t (1 : Fin 2) * 64 + 1 * (j 1).val = (j 1).val; omega

/-- An index of the output array is in point `t`'s block iff each coordinate is in the block's range. -/
theorem mem_blk1 (t : Fin cfg1.N) (i : S49152x64.Idx) :
    i ∈ ((cfg1.win 2).blk t).view.set ↔ ∀ a : Fin 2, win1_2.index t a * S6144x64.size a ≤ (i a).val ∧ (i a).val < win1_2.index t a * S6144x64.size a + S6144x64.size a := by
  show i ∈ ((View.whole main_v83).slice (win1_2.rect t)).set ↔ _
  rw [View.set_slice_whole, Rect.mem_set_unit]
  exact Iff.rfl

/-- Every index of the output array is in some point's block: row `r` in the block of point `r / 6144`. -/
theorem cover1 (i : S49152x64.Idx) : ∃ t : Fin cfg1.N, (cfg1.win 2).flush t = true ∧ i ∈ ((cfg1.win 2).blk t).view.set := by
  have hi0 : (i 0).val < 49152 := (i 0).isLt
  have hi1 : (i 1).val < 64 := (i 1).isLt
  let t : Fin cfg1.N := ⟨(i 0).val / 6144, by rw [show cfg1.N = 8 from N_1]; omega⟩
  obtain ⟨e00, e01, e10, e11, e20, e21⟩ := idx_facts1 t
  have tv : t.val = (i 0).val / 6144 := rfl
  refine ⟨t, flush1_2 t, ?_⟩
  rw [mem_blk1]
  intro a
  match a with
  | ⟨0, _⟩ => show win1_2.index t (0 : Fin 2) * 6144 ≤ (i 0).val ∧ (i 0).val < win1_2.index t (0 : Fin 2) * 6144 + 6144; omega
  | ⟨1, _⟩ => show win1_2.index t (1 : Fin 2) * 64 ≤ (i 1).val ∧ (i 1).val < win1_2.index t (1 : Fin 2) * 64 + 64; omega

/-- The output array after the region: every row of the input matrix encoded. -/
theorem final1 (c : Dev nD) : (dat1 V c).arrAt 2 cfg1.N = encRows (V c main_v62) (V c main_v72) :=
  (dat1 V c).arrAt_eq_of_cover 2 _ (fun t _ => flushed1 V c t) cover1

end Cert.KernelIdeal.RegionValue

end
-- ==== Proof.PoolLaw.lean ====
/-
  The pooling law of the two-hop and head bodies, over the extended reals.

  Both bodies average rows in groups of twelve by a matrix product with a 0/1 mask: entry `(g, r)` of the mask is one
  when row `r` lies in group `g`, that is when the floor quotient `r / 12` equals `g`, and the product is then
  scaled by the named constant one twelfth.

  * The sum law: a sum over all rows weighted by that indicator is the sum over the twelve rows of the group.
  * The mask entry: the floor quotient is computed on 32-bit integers as the quotient rounded toward zero, lowered
    by one where the signs of dividend and divisor differ and the remainder is not zero. A row number is
    non-negative and the divisor is twelve, so no correction is made and the result is the natural quotient.
  * Together: the product of the mask with a 3072 × 64 array, read at `(g, h)`, is the sum of column `h` over rows
    `12 g, …, 12 g + 11`.
-/
import proofs.«174830_j1030792151555_1_alg».proof.Proof.Gen.KernelIdeal.Skeleton
import proofs.«174830_j1030792151555_1_alg».proof.Proof.Spec
import proofs.«174830_j1030792151555_1_alg».proof.Proof.LibRowOps
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The two zero offsets of a whole-block rectangle of rank two. -/
theorem zero_offsets2 : (![0, 0] : Fin 2 → Nat) = fun _ => 0 := funext fun a => by fin_cases a <;> rfl

/-- The kernel's named reciprocal is the real one twelfth over the extended reals. -/
theorem inv_12 : Named.named (F := Ideal) Cert.KernelIdeal.κ "inv_12" (φ := .f32) 0x3DAAAAAB#32 = Cert.Sage.twelfth :=
  IdealRules.named_const.ideal_named_scalar _ _ _ _ rfl

/-! ## Pooling: the product with a 0/1 group mask is the sum over the group -/

/-- A sum over `N` rows weighted by the indicator of "row `r` lies in group `g`" (groups of `K` consecutive rows,
    `r / K = g`) is the sum over the `K` rows of that group. On the extended reals `0 * x = 0` and `1 * x = x` hold for every `x`, infinite ones included, so nothing is asked of the entries. -/
theorem pool_sum (N K : Nat) (hK : 0 < K) (f : Fin N → EReal) (g : Nat) (hg : K * g + K ≤ N) :
    ∑ r : Fin N, (if r.val / K = g then (1 : EReal) else 0) * f r
      = ∑ j : Fin K, f ⟨K * g + j.val, by have := j.isLt; omega⟩ := by
  have e : ∀ r : Fin N, (if r.val / K = g then (1 : EReal) else 0) * f r = if r.val / K = g then f r else 0 := fun r => by
    split <;> simp
  rw [Finset.sum_congr rfl fun r _ => e r, ← Finset.sum_filter]
  refine Finset.sum_nbij' (fun r => (⟨r.val % K, Nat.mod_lt _ hK⟩ : Fin K))
    (fun j => (⟨K * g + j.val, by have := j.isLt; omega⟩ : Fin N)) ?_ ?_ ?_ ?_ ?_
  · intro r _; exact Finset.mem_univ _
  · intro j _
    rw [Finset.mem_filter]
    refine ⟨Finset.mem_univ _, ?_⟩
    show (K * g + j.val) / K = g
    rw [Nat.mul_add_div hK, Nat.div_eq_of_lt j.isLt, Nat.add_zero]
  · intro r hr
    rw [Finset.mem_filter] at hr
    refine Fin.ext ?_
    show K * g + r.val % K = r.val
    rw [← hr.2]; exact Nat.div_add_mod _ _
  · intro j _
    refine Fin.ext ?_
    show (K * g + j.val) % K = j.val
    rw [Nat.mul_add_mod, Nat.mod_eq_of_lt j.isLt]
  · intro r hr
    rw [Finset.mem_filter] at hr
    refine congrArg f (Fin.ext ?_)
    show r.val = K * g + r.val % K
    rw [← hr.2]; exact (Nat.div_add_mod _ _).symm

/-! ## Floor division by twelve of a non-negative 32-bit integer -/

/-- A natural number below `2³¹` is a non-negative 32-bit integer. -/
theorem msb_ofNat (r : Nat) (hr : r < 2147483648) : (BitVec.ofNat 32 r).msb = false := by
  rw [BitVec.msb_eq_false_iff_two_mul_lt, BitVec.toNat_ofNat]
  omega

theorem toInt_ofNat_small (r : Nat) (hr : r < 2147483648) : (BitVec.ofNat 32 r).toInt = (r : Int) := by
  have hN : (BitVec.ofNat 32 r).toNat = r := by rw [BitVec.toNat_ofNat]; omega
  rw [BitVec.toInt_eq_toNat_of_lt (by rw [hN]; omega), hN]

/-- The signed quotient by twelve, rounded toward zero, of a non-negative integer is the natural quotient. -/
theorem divsi_ofNat (r : Nat) (hr : r < 2147483648) :
    IntOp.divsi .vector (BitVec.ofNat 32 r) 12#32 = BitVec.ofNat 32 (r / 12) := by
  have hc : ¬ IntOp.SDivCorner (BitVec.ofNat 32 r) 12#32 := by
    rintro (h | ⟨_, h⟩) <;> exact absurd h (by decide)
  unfold IntOp.divsi
  rw [if_neg hc, BitVec.sdiv_eq, msb_ofNat r hr, show (12#32).msb = false from rfl]
  refine BitVec.eq_of_toNat_eq ?_
  show ((BitVec.ofNat 32 r).udiv 12#32).toNat = _
  rw [BitVec.udiv_eq, BitVec.toNat_udiv, BitVec.toNat_ofNat, BitVec.toNat_ofNat]
  show r % 4294967296 / 12 = (r / 12) % 4294967296
  omega

/-- The signed remainder by twelve of a non-negative integer is the natural remainder. -/
theorem remsi_ofNat (r : Nat) (hr : r < 2147483648) :
    IntOp.remsi .vector (BitVec.ofNat 32 r) 12#32 = BitVec.ofNat 32 (r % 12) := by
  have hc : ¬ IntOp.SDivCorner (BitVec.ofNat 32 r) 12#32 := by
    rintro (h | ⟨_, h⟩) <;> exact absurd h (by decide)
  unfold IntOp.remsi
  rw [if_neg hc, BitVec.srem_eq, msb_ofNat r hr, show (12#32).msb = false from rfl]
  refine BitVec.eq_of_toNat_eq ?_
  show ((BitVec.ofNat 32 r) % 12#32).toNat = _
  rw [BitVec.toNat_umod, BitVec.toNat_ofNat, BitVec.toNat_ofNat]
  show r % 4294967296 % 12 = (r % 12) % 4294967296
  omega

/-- "Greater than zero" on a non-negative 32-bit integer. -/
theorem sgt_zero_ofNat (r : Nat) (hr : r < 2147483648) :
    IntOp.cmpi .sgt (BitVec.ofNat 32 r) 0#32 = if 0 < r then 1#1 else 0#1 := by
  show BitVec.ofBool ((0#32).slt (BitVec.ofNat 32 r)) = _
  rw [BitVec.slt_eq_decide, toInt_ofNat_small r hr, BitVec.toInt_zero]
  by_cases h : 0 < r
  · rw [if_pos h, decide_eq_true (by exact_mod_cast h)]; rfl
  · rw [if_neg h, decide_eq_false (by exact_mod_cast h)]; rfl

/-- "Less than zero" on a non-negative 32-bit integer is false. -/
theorem slt_zero_ofNat (r : Nat) (hr : r < 2147483648) :
    IntOp.cmpi .slt (BitVec.ofNat 32 r) 0#32 = 0#1 := by
  show BitVec.ofBool ((BitVec.ofNat 32 r).slt 0#32) = _
  rw [BitVec.slt_eq_decide, toInt_ofNat_small r hr, BitVec.toInt_zero,
    decide_eq_false (by exact_mod_cast Nat.not_lt_zero r)]
  rfl

/-- The floor-division idiom — the quotient rounded toward zero, lowered by one where the operands' signs differ
    and the remainder is not zero — on a non-negative dividend and the divisor twelve: no correction is made,
    and the result is the natural quotient. -/
theorem floordiv12 (r : Nat) (hr : r < 2147483648) :
    Scalar.select
        (IntOp.andi
          (IntOp.cmpi .ne
            (IntOp.subi ((IntOp.cmpi .sgt (BitVec.ofNat 32 r) 0#32).setWidth 32)
              ((IntOp.cmpi .slt (BitVec.ofNat 32 r) 0#32).setWidth 32))
            (Scalar.subi (Scalar.extui (Scalar.cmpi .sgt 12#32 0#32)) (Scalar.extui (Scalar.cmpi .slt 12#32 0#32))))
          (IntOp.cmpi .ne (IntOp.remsi .vector (BitVec.ofNat 32 r) 12#32) 0#32))
        (IntOp.subi (IntOp.divsi .vector (BitVec.ofNat 32 r) 12#32) 1#32)
        (IntOp.divsi .vector (BitVec.ofNat 32 r) 12#32)
      = BitVec.ofNat 32 (r / 12) := by
  rw [divsi_ofNat r hr, remsi_ofNat r hr, sgt_zero_ofNat r hr, slt_zero_ofNat r hr]
  rcases Nat.eq_zero_or_pos r with h0 | hpos
  · subst h0
    rfl
  · rw [if_pos hpos]
    have hA : IntOp.cmpi .ne (IntOp.subi ((1#1 : BitVec 1).setWidth 32) ((0#1 : BitVec 1).setWidth 32))
        (Scalar.subi (Scalar.extui (Scalar.cmpi .sgt 12#32 0#32)) (Scalar.extui (Scalar.cmpi .slt 12#32 0#32))) = 0#1 := by
      decide
    rw [hA]
    show Scalar.select (0#1 &&& _) _ _ = _
    rw [BitVec.zero_and, select_zero]

/-- The mask entry in scalar form: the floor quotient of the column number by twelve compared with the row number. -/
theorem mask_scalar (r g : Nat) (hr : r < 2147483648) (hg : g < 4294967296) :
    IntOp.cmpi .eq
        (Scalar.select
          (IntOp.andi
            (IntOp.cmpi .ne
              (IntOp.subi ((IntOp.cmpi .sgt (BitVec.ofNat 32 r) 0#32).setWidth 32)
                ((IntOp.cmpi .slt (BitVec.ofNat 32 r) 0#32).setWidth 32))
              (Scalar.subi (Scalar.extui (Scalar.cmpi .sgt 12#32 0#32)) (Scalar.extui (Scalar.cmpi .slt 12#32 0#32))))
            (IntOp.cmpi .ne (IntOp.remsi .vector (BitVec.ofNat 32 r) 12#32) 0#32))
          (IntOp.subi (IntOp.divsi .vector (BitVec.ofNat 32 r) 12#32) 1#32)
          (IntOp.divsi .vector (BitVec.ofNat 32 r) 12#32))
        (BitVec.ofNat 32 g)
      = if r / 12 = g then 1#1 else 0#1 := by
  rw [floordiv12 r hr]
  show BitVec.ofBool (BitVec.ofNat 32 (r / 12) == BitVec.ofNat 32 g) = _
  by_cases h : r / 12 = g
  · rw [if_pos h, h, beq_self_eq_true]; rfl
  · rw [if_neg h]
    have hne : BitVec.ofNat 32 (r / 12) ≠ BitVec.ofNat 32 g := fun e => h (by
      have := congrArg BitVec.toNat e
      rw [BitVec.toNat_ofNat, BitVec.toNat_ofNat] at this
      omega)
    rw [beq_eq_false_iff_ne.mpr hne]; rfl

/-! ## The mask of the head and two-hop bodies -/

/-- Entry `(g, r)` of the 256 × 3072 group mask: one bit, set exactly when column `r` lies in group `g`
    (`r / 12 = g`). The column number is non-negative, so the floor-division idiom is the natural quotient. -/
theorem mask_entry (g : Fin 256) (r : Fin 3072) :
    Gen.k2_pay3 (ix2 g r) = if r.val / 12 = g.val then 1#1 else 0#1 := by
  unfold Gen.k2_pay3
  simp only [cmpi, divsi, remsi, subi, andi, select, extui, broadcast]
  have h1 : iota .tc S256x3072 32 [1] Facts₀.iota_S256x3072_d1_w32 (ix2 g r) = BitVec.ofNat 32 r.val :=
    iota_single_apply .tc S256x3072 32 1 _ (ix2 g r)
  have h0 : iota .tc S256x3072 32 [0] Facts₀.iota_S256x3072_d0_w32 (ix2 g r) = BitVec.ofNat 32 g.val :=
    iota_single_apply .tc S256x3072 32 0 _ (ix2 g r)
  rw [h1, h0]
  exact mask_scalar r.val g.val (by have := r.isLt; omega) (by have := g.isLt; omega)

/-- A mask bit widened to 32 bits and converted to a float is the extended real one or zero. -/
theorem mask_real (c : Prop) [Decidable c] :
    FloatOps.sitofp (F := Ideal) .f32 ((if c then 1#1 else 0#1 : BitVec 1).setWidth 32) = if c then (1 : EReal) else 0 := by
  split
  · have e : ((1#1 : BitVec 1).setWidth 32).toInt = 1 := by decide
    show ((((1#1 : BitVec 1).setWidth 32).toInt : ℝ) : EReal) = 1
    rw [e]; simp
  · have e : ((0#1 : BitVec 1).setWidth 32).toInt = 0 := by decide
    show ((((0#1 : BitVec 1).setWidth 32).toInt : ℝ) : EReal) = 0
    rw [e]; simp

/-- The product of the group mask (as floats) with a 3072 × 64 array, into a zero accumulator, read at `(g, h)`:
    the sum of the array's column `h` over the twelve rows `12 g, …, 12 g + 11` of group `g`. -/
theorem pool_matmul {φ : FTy} (m : IVec S256x3072 1)
    (hm : ∀ (g : Fin 256) (r : Fin 3072), m (ix2 g r) = if r.val / 12 = g.val then 1#1 else 0#1)
    (v : FVec Ideal S3072x64 φ) (g : Fin 256) (h : Fin 64) :
    matmul dot_S256x3072_S3072x64_S256x64_1_0_0_1_n_n none
        (truncf .bf16 (sitofp (F := Ideal) .f32 (extui 32 m Facts₀.natLt_1_32)) Facts₀.bitsLt_bf16_f32) v
        (constant S256x64 .f32 0x00000000#32) (ix2 g h)
      = ∑ j : Fin 12, v (ix2 (⟨12 * g.val + j.val, by omega⟩ : Fin 3072) h) := by
  have hd : dot_S256x3072_S3072x64_S256x64_1_0_0_1_n_n = DotDims.plain 256 3072 64 := rfl
  rw [hd]
  refine (Cert.Lib.RowOps.matmul_zero_apply 256 3072 64 none _ v g h).trans ?_
  have e : ∀ k : Fin 3072,
      (truncf .bf16 (sitofp (F := Ideal) .f32 (extui 32 m Facts₀.natLt_1_32)) Facts₀.bitsLt_bf16_f32
          : FVec Ideal S256x3072 .bf16) (ix2 g k)
        = if k.val / 12 = g.val then (1 : EReal) else 0 := fun k => by
    show FloatOps.sitofp (F := Ideal) .f32 ((m (ix2 g k)).setWidth 32) = _
    rw [hm g k]; exact mask_real _
  rw [Finset.sum_congr rfl fun k _ => by rw [e k]]
  exact pool_sum 3072 12 (by norm_num) (fun k => v (ix2 k h)) g.val (by have := g.isLt; omega)

end Cert.KernelIdeal.Pay

end
-- ==== Proof.PayTwoHop.lean ====
/-
  The two-hop body read at an index, over the extended reals.

  The body encodes a block of 3072 feature rows (the positive part of the product with the 128 × 64 encoder matrix),
  then averages the encodings in groups of twelve consecutive rows: a product with the 0/1 group mask, times the
  named constant one twelfth. Entry `(g, h)` of what it leaves is therefore the mean over rows `12 g, …, 12 g + 11`
  of the encodings at hidden unit `h`.
-/
import proofs.«174830_j1030792151555_1_alg».proof.Proof.Gen.KernelIdeal.Frame
import proofs.«174830_j1030792151555_1_alg».proof.Proof.Spec
import proofs.«174830_j1030792151555_1_alg».proof.Proof.LibRowOps
import proofs.«174830_j1030792151555_1_alg».proof.Proof.PoolLaw
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- Entry `(r, h)` of the encoded block of 3072 feature rows: the positive part of the plain product with the
    encoder matrix (the narrowing to 16 bits is the identity over the extended reals). -/
theorem enc_entry (x0 : FVec Ideal S3072x128 .bf16) (x1 : FVec Ideal S128x64 .bf16) (r : Fin 3072) (h : Fin 64) :
    (truncf .bf16
        (maximumf (matmul dot_S3072x128_S128x64_S3072x64_1_0_0_1_n_n none x0 x1 (constant S3072x64 .f32 0x00000000#32))
          (broadcast S3072x64 (Scalar.ofBits .f32 0x00000000#32)))
        Facts₀.bitsLt_bf16_f32 : FVec Ideal S3072x64 .bf16) (ix2 r h)
      = Cert.Sage.enc (fun h f => x1 (ix2 f h)) (fun f => x0 (ix2 r f)) h := by
  rw [truncf_apply, maximumf_apply, broadcast_apply]
  have hd : dot_S3072x128_S128x64_S3072x64_1_0_0_1_n_n = DotDims.plain 3072 128 64 := rfl
  rw [hd]
  unfold Cert.Sage.enc
  exact congrArg₂ max (Cert.Lib.RowOps.matmul_zero_apply 3072 128 64 none x0 x1 r h) Ideal.ofBits_zero_f32

/-- Entry `(g, h)` of the two-hop body's output block: the mean, over the twelve feature rows `12 g, …, 12 g + 11`,
    of their encodings at hidden unit `h`. -/
theorem out0_2_apply (x0 : Vec Ideal S3072x128 .bf16) (x1 : Vec Ideal S128x64 .bf16) (g : Fin 256) (h : Fin 64) :
    Gen.out0_2 (F := Ideal) x0 x1 (ix2 g h)
      = Cert.Sage.mean12 fun j => Cert.Sage.enc (fun h f => x1 (ix2 f h))
          (fun f => x0 (ix2 (⟨12 * g.val + j.val, by omega⟩ : Fin 3072) f)) h := by
  unfold Gen.out0_2
  rw [View.canon_unit_zero zero_offsets2]
  simp only [View.ld_unit_zero (S := S3072x128) zero_offsets2, View.ld_unit_zero (S := S128x64) zero_offsets2]
  unfold Gen.k0_pay1
  rw [mulf_apply, broadcast_apply, shapeCast_self, shapeCast_self]
  unfold Cert.Sage.mean12
  refine congrArg₂ (· * ·) ?_ inv_12
  -- the mask is the head body's, term for term
  refine (pool_matmul Gen.k2_pay3 mask_entry _ g h).trans ?_
  exact Finset.sum_congr rfl fun j _ => enc_entry x0 x1 _ h

end Cert.KernelIdeal.Pay

end
-- ==== Proof.RegTwoHop.lean ====
/-
  The two-hop region: what its output array holds after the run. Grid point `t` reads rows 3072·t … 3072·t + 3071 of
  the matrix of second-hop feature rows (twelve consecutive rows per first-hop node) and the whole weight matrix,
  and writes rows 256·t … 256·t + 255 of the output: output row `r` is the mean of the encodings of input rows
  12·r … 12·r + 11. The 192 blocks together are one function of the two arrays as the region finds them.
-/
import proofs.«174830_j1030792151555_1_alg».proof.Proof.Gen.KernelIdeal.Frame
import proofs.«174830_j1030792151555_1_alg».proof.Proof.PayTwoHop
import proofs.«174830_j1030792151555_1_alg».proof.Proof.Spec
import proofs.«174830_j1030792151555_1_alg».proof.Proof.RowCol
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- Row `r` of the result: the mean of the encodings of rows `12 r … 12 r + 11` of `x`. -/
def meanRows (x : S589824x128.Idx → EReal) (w : S128x64.Idx → EReal) : S49152x64.Idx → EReal :=
  fun i => Cert.Sage.mean12 fun j => Cert.Sage.enc (fun h f => w (ix2 f h))
    (fun f => x (ix2 (⟨12 * (row i).val + j.val, by have := (row i).isLt; have := j.isLt; omega⟩ : Fin 589824) f)) (col i)

/-- One block of the body's result is the corresponding block of `meanRows`, over plain blocks known to be rows
    `12·gbase …` of `X` and all of `Wt`. -/
theorem meanRows_point (x0 : Vec Ideal S3072x128 .bf16) (x1 : Vec Ideal S128x64 .bf16) (X : S589824x128.Idx → EReal)
    (Wt : S128x64.Idx → EReal) (gbase : Nat)
    (hx0 : ∀ (r : Fin 3072) (f : Fin 128) (hr : 12 * gbase + r.val < 589824), x0 (ix2 r f) = X (ix2 ⟨12 * gbase + r.val, hr⟩ f))
    (hx1 : ∀ (f : Fin 128) (h : Fin 64), x1 (ix2 f h) = Wt (ix2 f h))
    (y : S256x64.Idx) (I : S49152x64.Idx) (hI0 : (I 0).val = gbase + (y 0).val) (hI1 : (I 1).val = (y 1).val) :
    Gen.out0_2 (F := Ideal) x0 x1 y = meanRows X Wt I := by
  obtain ⟨g, q, rfl⟩ : ∃ (g : Fin 256) (q : Fin 64), y = ix2 g q := ⟨y 0, y 1, eq_ix2 y⟩
  have h49 : (I 0).val < 49152 := (I 0).isLt
  have h0 : (I 0).val = gbase + g.val := hI0
  have hr : gbase + g.val < 49152 := by omega
  have hI : I = ix2 (⟨gbase + g.val, hr⟩ : Fin 49152) q :=
    funext fun a => Fin.ext (by
      match a with
      | ⟨0, _⟩ => exact hI0
      | ⟨1, _⟩ => exact hI1)
  rw [Pay.out0_2_apply, hI]
  have e1 : (fun (h : Fin 64) (f : Fin 128) => x1 (ix2 f h)) = fun h f => Wt (ix2 f h) := funext fun h => funext fun f => hx1 f h
  rw [e1]
  unfold meanRows
  refine congrArg Cert.Sage.mean12 (funext fun j => ?_)
  refine congrArg (fun x => Cert.Sage.enc (fun h f => Wt (ix2 f h)) x q) (funext fun f => ?_)
  have hj : j.val < 12 := j.isLt
  have hg : g.val < 256 := g.isLt
  rw [hx0 ⟨12 * g.val + j.val, by omega⟩ f (by show 12 * gbase + (12 * g.val + j.val) < 589824; omega)]
  refine congrArg X (funext fun a => Fin.ext ?_)
  match a with
  | ⟨0, _⟩ => show 12 * gbase + (12 * g.val + j.val) = 12 * (gbase + g.val) + j.val; omega
  | ⟨1, _⟩ => rfl

variable (V : (c : Dev nD) → (b : Ref sig .tc) → Buf (Elt Ideal) ((c : Thread nD τ).loc b))

/-- The printed index maps over the grid: the row blocks move with the point, the weights stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the pooled encodings. -/
theorem flushed0 (c : Dev nD) (t : Fin cfg0.N) :
    (dat0 V c).flushed 2 t = ((cfg0.win 2).blk t).view.read (Elt Ideal) (meanRows (V c main_v70) (V c main_v72)) := by
  show (cfg0.win 2).cut (grid0.coords t) ((dat0 V c).after 2 t) = _
  rw [after0_2]
  obtain ⟨e00, e01, e10, e11, e20, e21⟩ := idx_facts0 t
  funext j
  show Gen.out0_2 (F := Ideal) (iblk0 V c 0 t) (iblk0 V c 1 t) j = meanRows (V c main_v70) (V c main_v72) (((cfg0.win 2).blk t).view.emb j)
  refine meanRows_point (iblk0 V c 0 t) (iblk0 V c 1 t) (V c main_v70) (V c main_v72) (t.val * 256) ?_ ?_ j _ ?_ ?_
  · intro r f hr
    show V c main_v70 (((cfg0.win 0).blk t).view.emb (ix2 r f)) = V c main_v70 (ix2 ⟨12 * (t.val * 256) + r.val, hr⟩ f)
    refine congrArg (V c main_v70) (funext fun a => Fin.ext ?_)
    match a with
    | ⟨0, _⟩ => show win0_0.index t (0 : Fin 2) * 3072 + 1 * r.val = 12 * (t.val * 256) + r.val; omega
    | ⟨1, _⟩ => show win0_0.index t (1 : Fin 2) * 128 + 1 * f.val = f.val; omega
  · intro f h
    show V c main_v72 (((cfg0.win 1).blk t).view.emb (ix2 f h)) = V c main_v72 (ix2 f h)
    refine congrArg (V c main_v72) (funext fun a => Fin.ext ?_)
    match a with
    | ⟨0, _⟩ => show win0_1.index t (0 : Fin 2) * 128 + 1 * f.val = f.val; omega
    | ⟨1, _⟩ => show win0_1.index t (1 : Fin 2) * 64 + 1 * h.val = h.val; omega
  · show win0_2.index t (0 : Fin 2) * 256 + 1 * (j 0).val = t.val * 256 + (j 0).val; omega
  · show win0_2.index t (1 : Fin 2) * 64 + 1 * (j 1).val = (j 1).val; omega

/-- An index of the output array is in point `t`'s block iff each coordinate is in the block's range. -/
theorem mem_blk0 (t : Fin cfg0.N) (i : S49152x64.Idx) :
    i ∈ ((cfg0.win 2).blk t).view.set ↔ ∀ a : Fin 2, win0_2.index t a * S256x64.size a ≤ (i a).val ∧ (i a).val < win0_2.index t a * S256x64.size a + S256x64.size a := by
  show i ∈ ((View.whole main_v82).slice (win0_2.rect t)).set ↔ _
  rw [View.set_slice_whole, Rect.mem_set_unit]
  exact Iff.rfl

/-- Every index of the output array is in some point's block: row `r` in the block of point `r / 256`. -/
theorem cover0 (i : S49152x64.Idx) : ∃ t : Fin cfg0.N, (cfg0.win 2).flush t = true ∧ i ∈ ((cfg0.win 2).blk t).view.set := by
  have hi0 : (i 0).val < 49152 := (i 0).isLt
  have hi1 : (i 1).val < 64 := (i 1).isLt
  let t : Fin cfg0.N := ⟨(i 0).val / 256, by rw [show cfg0.N = 192 from N_0]; omega⟩
  obtain ⟨e00, e01, e10, e11, e20, e21⟩ := idx_facts0 t
  have tv : t.val = (i 0).val / 256 := rfl
  refine ⟨t, flush0_2 t, ?_⟩
  rw [mem_blk0]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 64 ≤ (i 1).val ∧ (i 1).val < win0_2.index t (1 : Fin 2) * 64 + 64; omega

/-- The output array after the region: the pooled encodings of the input matrix's rows. -/
theorem final0 (c : Dev nD) : (dat0 V c).arrAt 2 cfg0.N = meanRows (V c main_v70) (V c main_v72) :=
  (dat0 V c).arrAt_eq_of_cover 2 _ (fun t _ => flushed0 V c t) cover0

end Cert.KernelIdeal.RegionValue

end
-- ==== Proof.PayHead.lean ====
/-
  The head body read at an index, over the extended reals.

  The body lays the first-hop encodings and the second-hop means side by side (3072 rows of 128 numbers), applies the
  first hidden layer (an affine map to 64 units, then the positive part), averages the rows in groups of twelve
  (the product with the 0/1 group mask, times the named constant one twelfth), and applies the second hidden layer
  (64 → 64, positive part) and the output layer (64 → 16). Entry `(b, o)` of what it leaves is therefore output `o`
  of the batch node whose twelve first-hop rows are rows `12 b, …, 12 b + 11` of the two input blocks.
-/
import proofs.«174830_j1030792151555_1_alg».proof.Proof.Gen.KernelIdeal.Frame
import proofs.«174830_j1030792151555_1_alg».proof.Proof.Spec
import proofs.«174830_j1030792151555_1_alg».proof.Proof.LibRowOps
import proofs.«174830_j1030792151555_1_alg».proof.Proof.PoolLaw
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- One row spread over `M` rows, read at `(p, q)`: the row at `q`. -/
theorem bcastRows_apply {α : Type} (M N : Nat) (x : (⟨2, ![1, N]⟩ : Shape).Idx → α)
    (h2 : (⟨2, ![1, N]⟩ : Shape).Broadcasts ⟨2, ![M, N]⟩) (p : Fin M) (q : Fin N) :
    broadcastTo ⟨2, ![M, N]⟩ x h2 (ix2 p q) = x (ix2 (0 : Fin 1) q) :=
  broadcastTo_apply _ h2 (ix2 p q) (ix2 (0 : Fin 1) q) (fun a => by
    match a with
    | ⟨0, _⟩ => simp
    | ⟨1, _⟩ =>
      show q.val = if N = 1 then 0 else q.val
      split
      · have := q.isLt; omega
      · rfl)

/-- Two blocks of 64 columns laid side by side, read at `(r, d)`: the left block for `d < 64`, the right block at
    `d - 64` otherwise. -/
theorem cat_entry (x0 x1 : FVec Ideal S3072x64 .bf16)
    (hc : Shape.Concatenates [S3072x64, S3072x64] S3072x128 1) (r : Fin 3072) (d : Fin 128) :
    concatenate S3072x128 1 [⟨S3072x64, x0⟩, ⟨S3072x64, x1⟩] hc (ix2 r d)
      = Cert.Sage.catOf (fun d => x0 (ix2 r d)) (fun d => x1 (ix2 r d)) d := by
  unfold Cert.Sage.catOf
  split
  · rename_i hd
    exact concatenate_pair_apply_left 1 x0 x1 hc (ix2 r d) rfl (ix2 r ⟨d.val, hd⟩) (fun b => by
      match b with
      | ⟨0, _⟩ => rfl
      | ⟨1, _⟩ => rfl)
  · rename_i hd
    exact concatenate_pair_apply_right 1 x0 x1 hc (ix2 r d) rfl rfl (ix2 r ⟨d.val - 64, by omega⟩) (fun b hb => by
      match b, hb with
      | ⟨0, _⟩, _ => rfl
      | ⟨1, _⟩, hb => exact absurd rfl hb) (by show (d.val - 64) + 64 = d.val; omega)

/-- Entry `(r, c)` of the first hidden layer over the 3072 rows of a block: the affine map of the row's 128
    side-by-side numbers, then the positive part. -/
theorem pay2_entry (x0 x1 : Vec Ideal S3072x64 .bf16) (x2 : Vec Ideal S128x64 .bf16) (x3 : Vec Ideal S1x64 .f32)
    (r : Fin 3072) (c : Fin 64) :
    Gen.k2_pay2 (F := Ideal) x0 x1 x2 x3 (ix2 r c)
      = Cert.Sage.h1Of (Cert.Sage.catOf (fun d => x0 (ix2 r d)) (fun d => x1 (ix2 r d)))
          (fun h d => x2 (ix2 d h)) (fun h => x3 (ix2 (0 : Fin 1) h)) c := by
  unfold Gen.k2_pay2
  rw [truncf_apply, maximumf_apply, broadcast_apply, addf_apply, shapeCast_self, shapeCast_self, shapeCast_self,
    shapeCast_self]
  have hd : dot_S3072x128_S128x64_S3072x64_1_0_0_1_n_n = DotDims.plain 3072 128 64 := rfl
  rw [hd]
  unfold Cert.Sage.h1Of
  refine congrArg₂ max (congrArg₂ (· + ·) ?_ (bcastRows_apply 3072 64 x3 _ r c)) Ideal.ofBits_zero_f32
  refine (Cert.Lib.RowOps.matmul_zero_apply 3072 128 64 (φ₁ := .bf16) (φ₂ := .bf16) none _ x2 r c).trans ?_
  exact Finset.sum_congr rfl fun d _ => congrArg (· * x2 (ix2 d c)) (cat_entry x0 x1 _ r d)

/-- Entry `(b, o)` of the head after the first hidden layer `v` (3072 rows of 64): the rows of group `b` averaged,
    the second hidden layer, the output layer. -/
theorem pay1_entry (v : FVec Ideal S3072x64 .bf16) (m : IVec S256x3072 1)
    (hm : ∀ (g : Fin 256) (r : Fin 3072), m (ix2 g r) = if r.val / 12 = g.val then 1#1 else 0#1)
    (x4 : Vec Ideal S64x64 .bf16) (x5 : Vec Ideal S1x64 .f32) (x6 : Vec Ideal S64x16 .bf16) (x7 : Vec Ideal S1x16 .f32)
    (b : Fin 256) (o : Fin 16) :
    Gen.k2_pay1 (F := Ideal) v m x4 x5 x6 x7 (ix2 b o)
      = Cert.Sage.outOf
          (Cert.Sage.h0Of (fun c' => Cert.Sage.mean12 fun k => v (ix2 (⟨12 * b.val + k.val, by omega⟩ : Fin 3072) c'))
            (fun c c' => x4 (ix2 c' c)) (fun c => x5 (ix2 (0 : Fin 1) c)))
          (fun o c => x6 (ix2 c o)) (fun o => x7 (ix2 (0 : Fin 1) o)) o := by
  unfold Gen.k2_pay1
  rw [addf_apply, shapeCast_self, shapeCast_self, shapeCast_self, shapeCast_self]
  have hd1 : dot_S256x64_S64x16_S256x16_1_0_0_1_n_n = DotDims.plain 256 64 16 := rfl
  have hd2 : dot_S256x64_S64x64_S256x64_1_0_0_1_n_n = DotDims.plain 256 64 64 := rfl
  rw [hd1, hd2]
  unfold Cert.Sage.outOf
  refine congrArg₂ (· + ·) ?_ (bcastRows_apply 256 16 x7 _ b o)
  refine (Cert.Lib.RowOps.matmul_zero_apply 256 64 16 (φ₁ := .bf16) (φ₂ := .bf16) none _ x6 b o).trans ?_
  refine Finset.sum_congr rfl fun c _ => congrArg (· * x6 (ix2 c o)) ?_
  -- the second hidden layer at (b, c)
  rw [truncf_apply, maximumf_apply, broadcast_apply, addf_apply]
  unfold Cert.Sage.h0Of
  refine congrArg₂ max (congrArg₂ (· + ·) ?_ (bcastRows_apply 256 64 x5 _ b c)) Ideal.ofBits_zero_f32
  refine (Cert.Lib.RowOps.matmul_zero_apply 256 64 64 (φ₁ := .bf16) (φ₂ := .bf16) none _ x4 b c).trans ?_
  refine Finset.sum_congr rfl fun c' _ => congrArg (· * x4 (ix2 c' c)) ?_
  -- the group mean at (b, c')
  rw [truncf_apply, mulf_apply, broadcast_apply]
  unfold Cert.Sage.mean12
  exact congrArg₂ (· * ·) (pool_matmul m hm v b c') inv_12

/-- Entry `(b, o)` of the head body's output block: output `o` of the batch node whose twelve first-hop rows are
    rows `12 b, …, 12 b + 11` of the two input blocks. -/
theorem out2_8_apply (x0 x1 : Vec Ideal S3072x64 .bf16) (x2 : Vec Ideal S128x64 .bf16) (x3 : Vec Ideal S1x64 .f32)
    (x4 : Vec Ideal S64x64 .bf16) (x5 : Vec Ideal S1x64 .f32) (x6 : Vec Ideal S64x16 .bf16) (x7 : Vec Ideal S1x16 .f32)
    (b : Fin 256) (o : Fin 16) :
    Gen.out2_8 (F := Ideal) x0 x1 x2 x3 x4 x5 x6 x7 (ix2 b o)
      = Cert.Sage.headOf (fun k d => x0 (ix2 (⟨12 * b.val + k.val, by omega⟩ : Fin 3072) d))
          (fun k d => x1 (ix2 (⟨12 * b.val + k.val, by omega⟩ : Fin 3072) d))
          (fun h d => x2 (ix2 d h)) (fun h => x3 (ix2 (0 : Fin 1) h)) (fun c c' => x4 (ix2 c' c))
          (fun c => x5 (ix2 (0 : Fin 1) c)) (fun o c => x6 (ix2 c o)) (fun o => x7 (ix2 (0 : Fin 1) o)) o := by
  unfold Gen.out2_8
  rw [View.canon_unit_zero zero_offsets2]
  simp only [View.ld_unit_zero (S := S3072x64) zero_offsets2, View.ld_unit_zero (S := S128x64) zero_offsets2,
    View.ld_unit_zero (S := S1x64) zero_offsets2, View.ld_unit_zero (S := S64x64) zero_offsets2,
    View.ld_unit_zero (S := S64x16) zero_offsets2, View.ld_unit_zero (S := S1x16) zero_offsets2]
  rw [pay1_entry _ Gen.k2_pay3 mask_entry x4 x5 x6 x7 b o]
  unfold Cert.Sage.headOf
  simp only [pay2_entry]

end Cert.KernelIdeal.Pay

end
-- ==== Proof.RegHead.lean ====
/-
  The head region: what its output array holds after the run. Grid point `t` reads rows 3072·t … 3072·t + 3071 of the
  first-hop encodings and of the second-hop means (twelve consecutive rows per batch node), the three weight
  matrices and the three bias rows whole, and writes rows 256·t … 256·t + 255 of the output: output row `b` is the
  head of the common function on rows 12·b … 12·b + 11. The 16 blocks together are one function of the arrays as
  the region finds them.
-/
import proofs.«174830_j1030792151555_1_alg».proof.Proof.Gen.KernelIdeal.Frame
import proofs.«174830_j1030792151555_1_alg».proof.Proof.PayHead
import proofs.«174830_j1030792151555_1_alg».proof.Proof.Spec
import proofs.«174830_j1030792151555_1_alg».proof.Proof.RowCol
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- Row `b` of the result: the head on rows `12 b … 12 b + 11` of the encodings `e` and the means `a`, with the
    weights stored transposed and the biases as single rows. -/
def headRows (e a : S49152x64.Idx → EReal) (w2 : S128x64.Idx → EReal) (b3 : S1x64.Idx → EReal) (w4 : S64x64.Idx → EReal)
    (b5 : S1x64.Idx → EReal) (w6 : S64x16.Idx → EReal) (b7 : S1x16.Idx → EReal) : S4096x16.Idx → EReal :=
  fun i => Cert.Sage.headOf
    (fun k d => e (ix2 (⟨12 * (row i).val + k.val, by have := (row i).isLt; have := k.isLt; omega⟩ : Fin 49152) d))
    (fun k d => a (ix2 (⟨12 * (row i).val + k.val, by have := (row i).isLt; have := k.isLt; omega⟩ : Fin 49152) d))
    (fun h d => w2 (ix2 d h)) (fun h => b3 (ix2 (0 : Fin 1) h)) (fun c c' => w4 (ix2 c' c)) (fun c => b5 (ix2 (0 : Fin 1) c))
    (fun o c => w6 (ix2 c o)) (fun o => b7 (ix2 (0 : Fin 1) o)) (col i)

/-- One block of the body's result is the corresponding block of `headRows`, over plain blocks known to be rows
    `12·gbase …` of `E` and `A` and all of the weights and biases. -/
theorem headRows_point (x0 x1 : Vec Ideal S3072x64 .bf16) (x2 : Vec Ideal S128x64 .bf16) (x3 : Vec Ideal S1x64 .f32)
    (x4 : Vec Ideal S64x64 .bf16) (x5 : Vec Ideal S1x64 .f32) (x6 : Vec Ideal S64x16 .bf16) (x7 : Vec Ideal S1x16 .f32)
    (E A : S49152x64.Idx → EReal) (W2 : S128x64.Idx → EReal) (B3 : S1x64.Idx → EReal) (W4 : S64x64.Idx → EReal)
    (B5 : S1x64.Idx → EReal) (W6 : S64x16.Idx → EReal) (B7 : S1x16.Idx → EReal) (gbase : Nat)
    (hx0 : ∀ (r : Fin 3072) (d : Fin 64) (hr : 12 * gbase + r.val < 49152), x0 (ix2 r d) = E (ix2 ⟨12 * gbase + r.val, hr⟩ d))
    (hx1 : ∀ (r : Fin 3072) (d : Fin 64) (hr : 12 * gbase + r.val < 49152), x1 (ix2 r d) = A (ix2 ⟨12 * gbase + r.val, hr⟩ d))
    (hx2 : ∀ (d : Fin 128) (h : Fin 64), x2 (ix2 d h) = W2 (ix2 d h))
    (hx3 : ∀ (h : Fin 64), x3 (ix2 (0 : Fin 1) h) = B3 (ix2 (0 : Fin 1) h))
    (hx4 : ∀ (c' c : Fin 64), x4 (ix2 c' c) = W4 (ix2 c' c))
    (hx5 : ∀ (c : Fin 64), x5 (ix2 (0 : Fin 1) c) = B5 (ix2 (0 : Fin 1) c))
    (hx6 : ∀ (c : Fin 64) (o : Fin 16), x6 (ix2 c o) = W6 (ix2 c o))
    (hx7 : ∀ (o : Fin 16), x7 (ix2 (0 : Fin 1) o) = B7 (ix2 (0 : Fin 1) o))
    (y : S256x16.Idx) (I : S4096x16.Idx) (hI0 : (I 0).val = gbase + (y 0).val) (hI1 : (I 1).val = (y 1).val) :
    Gen.out2_8 (F := Ideal) x0 x1 x2 x3 x4 x5 x6 x7 y = headRows E A W2 B3 W4 B5 W6 B7 I := by
  obtain ⟨g, q, rfl⟩ : ∃ (g : Fin 256) (q : Fin 16), y = ix2 g q := ⟨y 0, y 1, eq_ix2 y⟩
  have h40 : (I 0).val < 4096 := (I 0).isLt
  have h0 : (I 0).val = gbase + g.val := hI0
  have hr : gbase + g.val < 4096 := by omega
  have hI : I = ix2 (⟨gbase + g.val, hr⟩ : Fin 4096) q :=
    funext fun a => Fin.ext (by
      match a with
      | ⟨0, _⟩ => exact hI0
      | ⟨1, _⟩ => exact hI1)
  rw [Pay.out2_8_apply, hI]
  have e2 : (fun (h : Fin 64) (d : Fin 128) => x2 (ix2 d h)) = fun h d => W2 (ix2 d h) := funext fun h => funext fun d => hx2 d h
  have e3 : (fun (h : Fin 64) => x3 (ix2 (0 : Fin 1) h)) = fun h => B3 (ix2 (0 : Fin 1) h) := funext fun h => hx3 h
  have e4 : (fun (c c' : Fin 64) => x4 (ix2 c' c)) = fun c c' => W4 (ix2 c' c) := funext fun c => funext fun c' => hx4 c' c
  have e5 : (fun (c : Fin 64) => x5 (ix2 (0 : Fin 1) c)) = fun c => B5 (ix2 (0 : Fin 1) c) := funext fun c => hx5 c
  have e6 : (fun (o : Fin 16) (c : Fin 64) => x6 (ix2 c o)) = fun o c => W6 (ix2 c o) := funext fun o => funext fun c => hx6 c o
  have e7 : (fun (o : Fin 16) => x7 (ix2 (0 : Fin 1) o)) = fun o => B7 (ix2 (0 : Fin 1) o) := funext fun o => hx7 o
  have hg : g.val < 256 := g.isLt
  have e0 : (fun (k : Fin 12) (d : Fin 64) => x0 (ix2 (⟨12 * g.val + k.val, by have := k.isLt; omega⟩ : Fin 3072) d))
      = fun k d => E (ix2 (⟨12 * (gbase + g.val) + k.val, by have := k.isLt; omega⟩ : Fin 49152) d) :=
    funext fun k => funext fun d => by
      have hk : k.val < 12 := k.isLt
      rw [hx0 ⟨12 * g.val + k.val, by omega⟩ d (by show 12 * gbase + (12 * g.val + k.val) < 49152; omega)]
      refine congrArg E (funext fun a => Fin.ext ?_)
      match a with
      | ⟨0, _⟩ => show 12 * gbase + (12 * g.val + k.val) = 12 * (gbase + g.val) + k.val; omega
      | ⟨1, _⟩ => rfl
  have e1 : (fun (k : Fin 12) (d : Fin 64) => x1 (ix2 (⟨12 * g.val + k.val, by have := k.isLt; omega⟩ : Fin 3072) d))
      = fun k d => A (ix2 (⟨12 * (gbase + g.val) + k.val, by have := k.isLt; omega⟩ : Fin 49152) d) :=
    funext fun k => funext fun d => by
      have hk : k.val < 12 := k.isLt
      rw [hx1 ⟨12 * g.val + k.val, by omega⟩ d (by show 12 * gbase + (12 * g.val + k.val) < 49152; omega)]
      refine congrArg A (funext fun a => Fin.ext ?_)
      match a with
      | ⟨0, _⟩ => show 12 * gbase + (12 * g.val + k.val) = 12 * (gbase + g.val) + k.val; omega
      | ⟨1, _⟩ => rfl
  rw [e0, e1, e2, e3, e4, e5, e6, e7]
  rfl

variable (V : (c : Dev nD) → (b : Ref sig .tc) → Buf (Elt Ideal) ((c : Thread nD τ).loc b))

/-- The printed index maps over the grid: the two row blocks and the output block move with the point, the rest stay. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- What point `t` writes back is block `t` of the head's rows. -/
theorem flushed2 (c : Dev nD) (t : Fin cfg2.N) :
    (dat2 V c).flushed 8 t = ((cfg2.win 8).blk t).view.read (Elt Ideal)
      (headRows (V c main_v84) (V c main_v85) (V c main_v74) (V c main_v79) (V c main_v76) (V c main_v80) (V c main_v78) (V c main_v81)) := by
  show (cfg2.win 8).cut (grid2.coords t) ((dat2 V c).after 8 t) = _
  rw [after2_8]
  obtain ⟨e00, e01, e10, e11, e20, e21, e30, e31, e40, e41, e50, e51, e60, e61, e70, e71, e80, e81⟩ := idx_facts2 t
  funext j
  show Gen.out2_8 (F := Ideal) (iblk2 V c 0 t) (iblk2 V c 1 t) (iblk2 V c 2 t) (iblk2 V c 3 t) (iblk2 V c 4 t) (iblk2 V c 5 t) (iblk2 V c 6 t) (iblk2 V c 7 t) j
    = headRows (V c main_v84) (V c main_v85) (V c main_v74) (V c main_v79) (V c main_v76) (V c main_v80) (V c main_v78) (V c main_v81) (((cfg2.win 8).blk t).view.emb j)
  refine headRows_point (iblk2 V c 0 t) (iblk2 V c 1 t) (iblk2 V c 2 t) (iblk2 V c 3 t) (iblk2 V c 4 t) (iblk2 V c 5 t) (iblk2 V c 6 t) (iblk2 V c 7 t)
    (V c main_v84) (V c main_v85) (V c main_v74) (V c main_v79) (V c main_v76) (V c main_v80) (V c main_v78) (V c main_v81) (t.val * 256)
    ?_ ?_ ?_ ?_ ?_ ?_ ?_ ?_ j _ ?_ ?_
  · intro r d hr
    show V c main_v84 (((cfg2.win 0).blk t).view.emb (ix2 r d)) = V c main_v84 (ix2 ⟨12 * (t.val * 256) + r.val, hr⟩ d)
    refine congrArg (V c main_v84) (funext fun a => Fin.ext ?_)
    match a with
    | ⟨0, _⟩ => show win2_0.index t (0 : Fin 2) * 3072 + 1 * r.val = 12 * (t.val * 256) + r.val; omega
    | ⟨1, _⟩ => show win2_0.index t (1 : Fin 2) * 64 + 1 * d.val = d.val; omega
  · intro r d hr
    show V c main_v85 (((cfg2.win 1).blk t).view.emb (ix2 r d)) = V c main_v85 (ix2 ⟨12 * (t.val * 256) + r.val, hr⟩ d)
    refine congrArg (V c main_v85) (funext fun a => Fin.ext ?_)
    match a with
    | ⟨0, _⟩ => show win2_1.index t (0 : Fin 2) * 3072 + 1 * r.val = 12 * (t.val * 256) + r.val; omega
    | ⟨1, _⟩ => show win2_1.index t (1 : Fin 2) * 64 + 1 * d.val = d.val; omega
  · intro d h
    show V c main_v74 (((cfg2.win 2).blk t).view.emb (ix2 d h)) = V c main_v74 (ix2 d h)
    refine congrArg (V c main_v74) (funext fun a => Fin.ext ?_)
    match a with
    | ⟨0, _⟩ => show win2_2.index t (0 : Fin 2) * 128 + 1 * d.val = d.val; omega
    | ⟨1, _⟩ => show win2_2.index t (1 : Fin 2) * 64 + 1 * h.val = h.val; omega
  · intro h
    show V c main_v79 (((cfg2.win 3).blk t).view.emb (ix2 (0 : Fin 1) h)) = V c main_v79 (ix2 (0 : Fin 1) h)
    refine congrArg (V c main_v79) (funext fun a => Fin.ext ?_)
    match a with
    | ⟨0, _⟩ => show win2_3.index t (0 : Fin 2) * 1 + 1 * 0 = 0; omega
    | ⟨1, _⟩ => show win2_3.index t (1 : Fin 2) * 64 + 1 * h.val = h.val; omega
  · intro c' c2
    show V c main_v76 (((cfg2.win 4).blk t).view.emb (ix2 c' c2)) = V c main_v76 (ix2 c' c2)
    refine congrArg (V c main_v76) (funext fun a => Fin.ext ?_)
    match a with
    | ⟨0, _⟩ => show win2_4.index t (0 : Fin 2) * 64 + 1 * c'.val = c'.val; omega
    | ⟨1, _⟩ => show win2_4.index t (1 : Fin 2) * 64 + 1 * c2.val = c2.val; omega
  · intro c2
    show V c main_v80 (((cfg2.win 5).blk t).view.emb (ix2 (0 : Fin 1) c2)) = V c main_v80 (ix2 (0 : Fin 1) c2)
    refine congrArg (V c main_v80) (funext fun a => Fin.ext ?_)
    match a with
    | ⟨0, _⟩ => show win2_5.index t (0 : Fin 2) * 1 + 1 * 0 = 0; omega
    | ⟨1, _⟩ => show win2_5.index t (1 : Fin 2) * 64 + 1 * c2.val = c2.val; omega
  · intro c2 o
    show V c main_v78 (((cfg2.win 6).blk t).view.emb (ix2 c2 o)) = V c main_v78 (ix2 c2 o)
    refine congrArg (V c main_v78) (funext fun a => Fin.ext ?_)
    match a with
    | ⟨0, _⟩ => show win2_6.index t (0 : Fin 2) * 64 + 1 * c2.val = c2.val; omega
    | ⟨1, _⟩ => show win2_6.index t (1 : Fin 2) * 16 + 1 * o.val = o.val; omega
  · intro o
    show V c main_v81 (((cfg2.win 7).blk t).view.emb (ix2 (0 : Fin 1) o)) = V c main_v81 (ix2 (0 : Fin 1) o)
    refine congrArg (V c main_v81) (funext fun a => Fin.ext ?_)
    match a with
    | ⟨0, _⟩ => show win2_7.index t (0 : Fin 2) * 1 + 1 * 0 = 0; omega
    | ⟨1, _⟩ => show win2_7.index t (1 : Fin 2) * 16 + 1 * o.val = o.val; omega
  · show win2_8.index t (0 : Fin 2) * 256 + 1 * (j 0).val = t.val * 256 + (j 0).val; omega
  · show win2_8.index t (1 : Fin 2) * 16 + 1 * (j 1).val = (j 1).val; omega

/-- An index of the output array is in point `t`'s block iff each coordinate is in the block's range. -/
theorem mem_blk2 (t : Fin cfg2.N) (i : S4096x16.Idx) :
    i ∈ ((cfg2.win 8).blk t).view.set ↔ ∀ a : Fin 2, win2_8.index t a * S256x16.size a ≤ (i a).val ∧ (i a).val < win2_8.index t a * S256x16.size a + S256x16.size a := by
  show i ∈ ((View.whole main_v86).slice (win2_8.rect t)).set ↔ _
  rw [View.set_slice_whole, Rect.mem_set_unit]
  exact Iff.rfl

/-- Every index of the output array is in some point's block: row `b` in the block of point `b / 256`. -/
theorem cover2 (i : S4096x16.Idx) : ∃ t : Fin cfg2.N, (cfg2.win 8).flush t = true ∧ i ∈ ((cfg2.win 8).blk t).view.set := by
  have hi0 : (i 0).val < 4096 := (i 0).isLt
  have hi1 : (i 1).val < 16 := (i 1).isLt
  let t : Fin cfg2.N := ⟨(i 0).val / 256, by rw [show cfg2.N = 16 from N_2]; omega⟩
  obtain ⟨e00, e01, e10, e11, e20, e21, e30, e31, e40, e41, e50, e51, e60, e61, e70, e71, e80, e81⟩ := idx_facts2 t
  have tv : t.val = (i 0).val / 256 := rfl
  refine ⟨t, flush2_8 t, ?_⟩
  rw [mem_blk2]
  intro a
  match a with
  | ⟨0, _⟩ => show win2_8.index t (0 : Fin 2) * 256 ≤ (i 0).val ∧ (i 0).val < win2_8.index t (0 : Fin 2) * 256 + 256; omega
  | ⟨1, _⟩ => show win2_8.index t (1 : Fin 2) * 16 ≤ (i 1).val ∧ (i 1).val < win2_8.index t (1 : Fin 2) * 16 + 16; omega

/-- The output array after the region: the head on every batch node's twelve rows. -/
theorem final2 (c : Dev nD) : (dat2 V c).arrAt 8 cfg2.N
    = headRows (V c main_v84) (V c main_v85) (V c main_v74) (V c main_v79) (V c main_v76) (V c main_v80) (V c main_v78) (V c main_v81) :=
  (dat2 V c).arrAt_eq_of_cover 8 _ (fun t _ => flushed2 V c t) cover2

end Cert.KernelIdeal.RegionValue

end
-- ==== Proof.KChain.lean ====
/-
  The idealized kernel program's buffers as functions of the argument arrays, boundary by boundary: the host
  stretches before the regions (the sampled indices, the gathered rows, the transposed weights), then the two
  encoder regions, the two format changes between them and the head region (the identity at the ideal values),
  and the head region's output array.
-/
import proofs.«174830_j1030792151555_1_alg».proof.Proof.KHost
import proofs.«174830_j1030792151555_1_alg».proof.Proof.KHost4
import proofs.«174830_j1030792151555_1_alg».proof.Proof.RegOneHop
import proofs.«174830_j1030792151555_1_alg».proof.Proof.RegTwoHop
import proofs.«174830_j1030792151555_1_alg».proof.Proof.RegHead

set_option maxRecDepth 16384

noncomputable section

namespace Cert.KernelIdeal.Chain

open Cert.KernelIdeal Cert.KernelIdeal.Gen Cert.KernelIdeal.HostValue Cert.KernelIdeal.RegionValue
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## The host stretches before the regions -/

theorem W1_of (r : Ref sig .tc) (h : r ∉ wr0) : W1 m ρ c (Proc.devRef .tc r) = W0 m ρ c (Proc.devRef .tc r) := keep0 _ r h
theorem W2_of (r : Ref sig .tc) (h : r ∉ wr1) : W2 m ρ c (Proc.devRef .tc r) = W1 m ρ c (Proc.devRef .tc r) := keep1 _ r h
theorem W3_of (r : Ref sig .tc) (h : r ∉ wr2) : W3 m ρ c (Proc.devRef .tc r) = W2 m ρ c (Proc.devRef .tc r) := keep2 _ r h
theorem W4_of (r : Ref sig .tc) (h : r ∉ wr3) : W4 m ρ c (Proc.devRef .tc r) = W3 m ρ c (Proc.devRef .tc r) := keep3 _ r h
theorem W5_of (r : Ref sig .tc) (h : r ∉ wr4) : W5 m ρ c (Proc.devRef .tc r) = W4 m ρ c (Proc.devRef .tc r) := keep4 _ r h

theorem W0_arg (r : Ref sig .tc) : W0 m ρ c (Proc.devRef .tc r) = m ((c : Thread nD τ).loc r) := rfl

/-- An argument array is as launched at every boundary before the regions. -/
theorem W1_arg (r : Ref sig .tc) (h0 : r ∉ wr0) : W1 m ρ c (Proc.devRef .tc r) = m ((c : Thread nD τ).loc r) :=
  (W1_of m ρ c r h0).trans (W0_arg m ρ c r)
theorem W2_arg (r : Ref sig .tc) (h0 : r ∉ wr0) (h1 : r ∉ wr1) : W2 m ρ c (Proc.devRef .tc r) = m ((c : Thread nD τ).loc r) :=
  (W2_of m ρ c r h1).trans (W1_arg m ρ c r h0)
theorem W3_arg (r : Ref sig .tc) (h0 : r ∉ wr0) (h1 : r ∉ wr1) (h2 : r ∉ wr2) : W3 m ρ c (Proc.devRef .tc r) = m ((c : Thread nD τ).loc r) :=
  (W3_of m ρ c r h2).trans (W2_arg m ρ c r h0 h1)
theorem W4_arg (r : Ref sig .tc) (h0 : r ∉ wr0) (h1 : r ∉ wr1) (h2 : r ∉ wr2) (h3 : r ∉ wr3) :
    W4 m ρ c (Proc.devRef .tc r) = m ((c : Thread nD τ).loc r) :=
  (W4_of m ρ c r h3).trans (W3_arg m ρ c r h0 h1 h2)

theorem W1_v7 : W1 m ρ c (Proc.devRef .tc main_v7) = Cert.Idx.col1 (m ((c : Thread nD τ).loc main_arg5)) (m ((c : Thread nD τ).loc main_arg0)) :=
  st0 (W0 m ρ c)

theorem W2_v8 : W2 m ρ c (Proc.devRef .tc main_v8) = Cert.Idx.rem1 (m ((c : Thread nD τ).loc main_arg1)) (m ((c : Thread nD τ).loc main_arg5)) (m ((c : Thread nD τ).loc main_arg0)) := by
  show StableHlo.after hostOps0_1 (W1 m ρ c) (Proc.devRef .tc main_v8) = _
  rw [st1, W1_v7, W1_arg m ρ c main_arg1 (by decide)]
  rfl

theorem W3_v25 : W3 m ρ c (Proc.devRef .tc main_v25) = (Cert.Idx.hop1 (m ((c : Thread nD τ).loc main_arg0)) (m ((c : Thread nD τ).loc main_arg1)) (m ((c : Thread nD τ).loc main_arg3)) (m ((c : Thread nD τ).loc main_arg4)) (m ((c : Thread nD τ).loc main_arg5))) := by
  show StableHlo.after hostOps0_2 (W2 m ρ c) (Proc.devRef .tc main_v25) = _
  rw [st2a, W2_v8, W2_arg m ρ c main_arg3 (by decide) (by decide), W2_arg m ρ c main_arg4 (by decide) (by decide),
    W2_arg m ρ c main_arg0 (by decide) (by decide)]
  rfl

theorem W3_v26 : W3 m ρ c (Proc.devRef .tc main_v26) = Cert.Idx.flat1 (Cert.Idx.hop1 (m ((c : Thread nD τ).loc main_arg0)) (m ((c : Thread nD τ).loc main_arg1)) (m ((c : Thread nD τ).loc main_arg3)) (m ((c : Thread nD τ).loc main_arg4)) (m ((c : Thread nD τ).loc main_arg5))) := by
  show StableHlo.after hostOps0_2 (W2 m ρ c) (Proc.devRef .tc main_v26) = _
  rw [st2b, W2_v8, W2_arg m ρ c main_arg3 (by decide) (by decide), W2_arg m ρ c main_arg4 (by decide) (by decide),
    W2_arg m ρ c main_arg0 (by decide) (by decide)]
  rfl

theorem W3_v34 : W3 m ρ c (Proc.devRef .tc main_v34) = Cert.Idx.col2 (m ((c : Thread nD τ).loc main_arg5)) (Cert.Idx.flat1 (Cert.Idx.hop1 (m ((c : Thread nD τ).loc main_arg0)) (m ((c : Thread nD τ).loc main_arg1)) (m ((c : Thread nD τ).loc main_arg3)) (m ((c : Thread nD τ).loc main_arg4)) (m ((c : Thread nD τ).loc main_arg5)))) := by
  show StableHlo.after hostOps0_2 (W2 m ρ c) (Proc.devRef .tc main_v34) = _
  rw [st2c, W2_v8, W2_arg m ρ c main_arg3 (by decide) (by decide), W2_arg m ρ c main_arg4 (by decide) (by decide),
    W2_arg m ρ c main_arg0 (by decide) (by decide), W2_arg m ρ c main_arg5 (by decide) (by decide)]
  rfl

theorem W4_v35 : W4 m ρ c (Proc.devRef .tc main_v35) = Cert.Idx.rem2 (m ((c : Thread nD τ).loc main_arg2)) (m ((c : Thread nD τ).loc main_arg5)) (Cert.Idx.flat1 (Cert.Idx.hop1 (m ((c : Thread nD τ).loc main_arg0)) (m ((c : Thread nD τ).loc main_arg1)) (m ((c : Thread nD τ).loc main_arg3)) (m ((c : Thread nD τ).loc main_arg4)) (m ((c : Thread nD τ).loc main_arg5)))) := by
  show StableHlo.after hostOps0_3 (W3 m ρ c) (Proc.devRef .tc main_v35) = _
  rw [st3, W3_v34, W3_arg m ρ c main_arg2 (by decide) (by decide) (by decide)]
  rfl

theorem W4_v25 : W4 m ρ c (Proc.devRef .tc main_v25) = (Cert.Idx.hop1 (m ((c : Thread nD τ).loc main_arg0)) (m ((c : Thread nD τ).loc main_arg1)) (m ((c : Thread nD τ).loc main_arg3)) (m ((c : Thread nD τ).loc main_arg4)) (m ((c : Thread nD τ).loc main_arg5))) :=
  (W4_of m ρ c main_v25 (by decide)).trans (W3_v25 m ρ c)
theorem W4_v26 : W4 m ρ c (Proc.devRef .tc main_v26) = Cert.Idx.flat1 (Cert.Idx.hop1 (m ((c : Thread nD τ).loc main_arg0)) (m ((c : Thread nD τ).loc main_arg1)) (m ((c : Thread nD τ).loc main_arg3)) (m ((c : Thread nD τ).loc main_arg4)) (m ((c : Thread nD τ).loc main_arg5))) :=
  (W4_of m ρ c main_v26 (by decide)).trans (W3_v26 m ρ c)

/-- The matrix of first-hop feature rows, one node per row. -/
theorem W5_v62 : W5 m ρ c (Proc.devRef .tc main_v62)
    = fun i => shapeCast S49152x128 (Cert.Idx.rows1 (m ((c : Thread nD τ).loc main_arg6)) (Cert.Idx.hop1 (m ((c : Thread nD τ).loc main_arg0)) (m ((c : Thread nD τ).loc main_arg1)) (m ((c : Thread nD τ).loc main_arg3)) (m ((c : Thread nD τ).loc main_arg4)) (m ((c : Thread nD τ).loc main_arg5)))) shapeCasts_S4096x12x128_S49152x128 i := by
  show StableHlo.after hostOps0_4 (W4 m ρ c) (Proc.devRef .tc main_v62) = _
  rw [st4_rows1, W4_v25, W4_arg m ρ c main_arg6 (by decide) (by decide) (by decide) (by decide)]

/-- The matrix of second-hop feature rows, one node per row. -/
theorem W5_v70 : W5 m ρ c (Proc.devRef .tc main_v70)
    = fun i => shapeCast S589824x128 (Cert.Idx.rows2 (m ((c : Thread nD τ).loc main_arg6)) (Cert.Idx.hop2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))) shapeCasts_S4096x12x12x128_S589824x128 i := by
  show StableHlo.after hostOps0_4 (W4 m ρ c) (Proc.devRef .tc main_v70) = _
  rw [st4_rows2]
  unfold hop2From
  rw [W4_v35, W4_v26, W4_arg m ρ c main_arg6 (by decide) (by decide) (by decide) (by decide),
    W4_arg m ρ c main_arg3 (by decide) (by decide) (by decide) (by decide),
    W4_arg m ρ c main_arg4 (by decide) (by decide) (by decide) (by decide)]
  rfl

theorem W5_v72 : W5 m ρ c (Proc.devRef .tc main_v72) = transpose S128x64 [1, 0] (m ((c : Thread nD τ).loc main_arg7)) transposes_S64x128_S128x64_1_0 := by
  show StableHlo.after hostOps0_4 (W4 m ρ c) (Proc.devRef .tc main_v72) = _
  rw [st4_encw, W4_arg m ρ c main_arg7 (by decide) (by decide) (by decide) (by decide)]
theorem W5_v74 : W5 m ρ c (Proc.devRef .tc main_v74) = transpose S128x64 [1, 0] (m ((c : Thread nD τ).loc main_arg8)) transposes_S64x128_S128x64_1_0 := by
  show StableHlo.after hostOps0_4 (W4 m ρ c) (Proc.devRef .tc main_v74) = _
  rw [st4_h1w, W4_arg m ρ c main_arg8 (by decide) (by decide) (by decide) (by decide)]
theorem W5_v76 : W5 m ρ c (Proc.devRef .tc main_v76) = transpose S64x64 [1, 0] (m ((c : Thread nD τ).loc main_arg10)) transposes_S64x64_S64x64_1_0 := by
  show StableHlo.after hostOps0_4 (W4 m ρ c) (Proc.devRef .tc main_v76) = _
  rw [st4_h2w, W4_arg m ρ c main_arg10 (by decide) (by decide) (by decide) (by decide)]
theorem W5_v78 : W5 m ρ c (Proc.devRef .tc main_v78) = transpose S64x16 [1, 0] (m ((c : Thread nD τ).loc main_arg12)) transposes_S16x64_S64x16_1_0 := by
  show StableHlo.after hostOps0_4 (W4 m ρ c) (Proc.devRef .tc main_v78) = _
  rw [st4_outw, W4_arg m ρ c main_arg12 (by decide) (by decide) (by decide) (by decide)]
theorem W5_v79 : W5 m ρ c (Proc.devRef .tc main_v79) = fun i => shapeCast S1x64 (m ((c : Thread nD τ).loc main_arg9)) shapeCasts_S64_S1x64 i := by
  show StableHlo.after hostOps0_4 (W4 m ρ c) (Proc.devRef .tc main_v79) = _
  rw [st4_h1b, W4_arg m ρ c main_arg9 (by decide) (by decide) (by decide) (by decide)]
theorem W5_v80 : W5 m ρ c (Proc.devRef .tc main_v80) = fun i => shapeCast S1x64 (m ((c : Thread nD τ).loc main_arg11)) shapeCasts_S64_S1x64 i := by
  show StableHlo.after hostOps0_4 (W4 m ρ c) (Proc.devRef .tc main_v80) = _
  rw [st4_h2b, W4_arg m ρ c main_arg11 (by decide) (by decide) (by decide) (by decide)]
theorem W5_v81 : W5 m ρ c (Proc.devRef .tc main_v81) = fun i => shapeCast S1x16 (m ((c : Thread nD τ).loc main_arg13)) shapeCasts_S16_S1x16 i := by
  show StableHlo.after hostOps0_4 (W4 m ρ c) (Proc.devRef .tc main_v81) = _
  rw [st4_outb, W4_arg m ρ c main_arg13 (by decide) (by decide) (by decide) (by decide)]

end Cert.KernelIdeal.Chain

end
-- ==== Proof.LayoutIdx.lean ====
/-
  The host's layout operations read at an index.

  * A batch of 4096 nodes with 12 (or 12 × 12) sampled neighbours, each carrying 128 features, is flattened to rows:
    neighbour `k` of node `b` is row `12 b + k`, and neighbour `j` of that neighbour is row `12 (12 b + k) + j` —
    row-major order.
  * A transposed weight matrix read at `(p, q)` is the matrix at `(q, p)`.
  * A bias vector viewed as a single row, read at `(0, q)`, is the vector at `q`.
-/
import proofs.«174830_j1030792151555_1_alg».proof.KernelIdeal
import Idealize.ShloMosaic.Lib.ValueIdx
import Idealize.ShloMosaic.Lib.Pipeline.Value

noncomputable section

namespace Cert.KernelIdeal.Layout

open Cert.KernelIdeal Idealize.ShloMosaic Idealize.ShloMosaic.ValueIdx

variable {α : Type}

/-! ## Flattening the neighbour axes into rows -/

/-- First-hop rows: row `12 b + k` of the flattened array is neighbour `k` of node `b`. -/
theorem flatten1_apply (x : S4096x12x128.Idx → α) (hs : S4096x12x128.ShapeCasts S49152x128)
    (b : Fin 4096) (k : Fin 12) (f : Fin 128) :
    shapeCast S49152x128 x hs
        (ix2 (⟨12 * b.val + k.val, by have := b.isLt; have := k.isLt; omega⟩ : Fin 49152) f)
      = x (ix3 b k f) :=
  shapeCast_apply x hs _ (ix3 b k f) (by
    rw [Shape.rowMajor_val_three, Shape.rowMajor_val_two]
    show (b.val * 12 + k.val) * 128 + f.val = (12 * b.val + k.val) * 128 + f.val
    omega)

/-- Second-hop rows: row `12 (12 b + k) + j` of the flattened array is neighbour `j` of neighbour `k` of node `b`. -/
theorem flatten2_apply (x : S4096x12x12x128.Idx → α) (hs : S4096x12x12x128.ShapeCasts S589824x128)
    (b : Fin 4096) (k j : Fin 12) (f : Fin 128) :
    shapeCast S589824x128 x hs
        (ix2 (⟨12 * (12 * b.val + k.val) + j.val, by have := b.isLt; have := k.isLt; have := j.isLt; omega⟩ : Fin 589824) f)
      = x (ix4 b k j f) :=
  shapeCast_apply x hs _ (ix4 b k j f) (by
    rw [Shape.rowMajor_val_four, Shape.rowMajor_val_two]
    show ((b.val * 12 + k.val) * 12 + j.val) * 128 + f.val = (12 * (12 * b.val + k.val) + j.val) * 128 + f.val
    omega)

/-! ## Transposed weight matrices -/

/-- The 64 × 128 matrices (the encoder's and the first hidden layer's weights) transposed to 128 × 64. -/
theorem transpose_64x128_apply (x : S64x128.Idx → α) (ht : S64x128.Transposes [1, 0] S128x64)
    (f : Fin 128) (h : Fin 64) :
    transpose S128x64 [1, 0] x ht (ix2 f h) = x (ix2 h f) :=
  transpose_apply [1, 0] x ht (ix2 f h) (ix2 h f) (fun b => by
    match b with
    | ⟨0, _⟩ => rfl
    | ⟨1, _⟩ => rfl)

/-- The 64 × 64 matrix (the second hidden layer's weights) transposed. -/
theorem transpose_64x64_apply (x : S64x64.Idx → α) (ht : S64x64.Transposes [1, 0] S64x64)
    (c' c : Fin 64) :
    transpose S64x64 [1, 0] x ht (ix2 c' c) = x (ix2 c c') :=
  transpose_apply [1, 0] x ht (ix2 c' c) (ix2 c c') (fun b => by
    match b with
    | ⟨0, _⟩ => rfl
    | ⟨1, _⟩ => rfl)

/-- The 16 × 64 matrix (the output layer's weights) transposed to 64 × 16. -/
theorem transpose_16x64_apply (x : S16x64.Idx → α) (ht : S16x64.Transposes [1, 0] S64x16)
    (c : Fin 64) (o : Fin 16) :
    transpose S64x16 [1, 0] x ht (ix2 c o) = x (ix2 o c) :=
  transpose_apply [1, 0] x ht (ix2 c o) (ix2 o c) (fun b => by
    match b with
    | ⟨0, _⟩ => rfl
    | ⟨1, _⟩ => rfl)

/-! ## Bias vectors as single rows -/

/-- A vector of 64 entries viewed as one row of 64. -/
theorem row_64_apply (x : S64.Idx → α) (hs : S64.ShapeCasts S1x64) (h : Fin 64) :
    shapeCast S1x64 x hs (ix2 (0 : Fin 1) h) = x (ix1 h) :=
  shapeCast_apply x hs _ (ix1 h) (by
    rw [Shape.rowMajor_val_one, Shape.rowMajor_val_two]
    show h.val = 0 * 64 + h.val
    omega)

/-- A vector of 16 entries viewed as one row of 16. -/
theorem row_16_apply (x : S16.Idx → α) (hs : S16.ShapeCasts S1x16) (o : Fin 16) :
    shapeCast S1x16 x hs (ix2 (0 : Fin 1) o) = x (ix1 o) :=
  shapeCast_apply x hs _ (ix1 o) (by
    rw [Shape.rowMajor_val_one, Shape.rowMajor_val_two]
    show o.val = 0 * 16 + o.val
    omega)

end Cert.KernelIdeal.Layout

end
-- ==== Proof.Bridge.lean ====
/-
  The three regions' whole-array functions composed are the common function: with the matrices of gathered rows
  (one sampled node per row, twelve consecutive rows per parent), the transposed weights and the bias rows as the
  host operations leave them, row `12 b + k` of the encoder outputs is the encoding (or the second-hop mean) at
  first-hop neighbour `k` of batch node `b`, and row `b` of the head's output is the common function at `b`.
  Pure index bookkeeping: a reshape keeps the row-major position, a transpose swaps the two coordinates.
-/
import proofs.«174830_j1030792151555_1_alg».proof.Proof.RegOneHop
import proofs.«174830_j1030792151555_1_alg».proof.Proof.RegTwoHop
import proofs.«174830_j1030792151555_1_alg».proof.Proof.RegHead
import proofs.«174830_j1030792151555_1_alg».proof.Proof.IdxSpec
import proofs.«174830_j1030792151555_1_alg».proof.Proof.LayoutIdx

noncomputable section

namespace Cert.KernelIdeal.Bridge

open Cert.KernelIdeal Cert.KernelIdeal.RegionValue Idealize.ShloMosaic Idealize.ShloMosaic.ValueIdx
open Cert.KernelIdeal.Facts₀ Cert.KernelIdeal.Facts

variable [Cert.KernelIdeal.Facts]
variable (a0 : IVec S4096 32) (a1 : IVec S4096x12 32) (a2 : IVec S49152x12 32) (a3 : IVec S100000 32)
  (a4 : IVec S1600000 32) (a5 : IVec S100000 32) (a6 : FVec Ideal S100000x128 .f32) (a7 a8 : FVec Ideal S64x128 .f32)
  (a9 : FVec Ideal S64 .f32) (a10 : FVec Ideal S64x64 .f32) (a11 : FVec Ideal S64 .f32) (a12 : FVec Ideal S16x64 .f32)
  (a13 : FVec Ideal S16 .f32)

/-- The first-hop feature rows as a matrix, one node per row. -/
abbrev R1 : S49152x128.Idx → EReal :=
  fun i => shapeCast S49152x128 (Cert.Idx.rows1 a6 (Cert.Idx.hop1 a0 a1 a3 a4 a5)) shapeCasts_S4096x12x128_S49152x128 i
/-- The second-hop feature rows as a matrix, one node per row. -/
abbrev R2 : S589824x128.Idx → EReal :=
  fun i => shapeCast S589824x128 (Cert.Idx.rows2 a6 (Cert.Idx.hop2 a0 a1 a2 a3 a4 a5)) shapeCasts_S4096x12x12x128_S589824x128 i
/-- The encoder's weights, transposed. -/
abbrev We : S128x64.Idx → EReal := transpose S128x64 [1, 0] a7 transposes_S64x128_S128x64_1_0

theorem encw_eq : (fun (h : Fin 64) (f : Fin 128) => We a7 (ix2 f h)) = (Cert.Idx.paramsOf a0 a1 a2 a3 a4 a5 a6 a7 a8 a9 a10 a11 a12 a13).encw :=
  funext fun h => funext fun f => Layout.transpose_64x128_apply a7 _ f h

/-- Row `12 b + k` of the one-hop region's output is the encoding of first-hop neighbour `k` of batch node `b`. -/
theorem enc1_eq (b : Fin 4096) (k : Fin 12) (d : Fin 64) :
    encRows (R1 a0 a1 a3 a4 a5 a6) (We a7)
        (ix2 (⟨12 * b.val + k.val, by have := b.isLt; have := k.isLt; omega⟩ : Fin 49152) d)
      = Cert.Sage.enc1 (Cert.Idx.paramsOf a0 a1 a2 a3 a4 a5 a6 a7 a8 a9 a10 a11 a12 a13) b k d := by
  show Cert.Sage.enc (fun h f => We a7 (ix2 f h))
      (fun f => R1 a0 a1 a3 a4 a5 a6 (ix2 (⟨12 * b.val + k.val, by have := b.isLt; have := k.isLt; omega⟩ : Fin 49152) f)) d
    = Cert.Sage.enc (Cert.Idx.paramsOf a0 a1 a2 a3 a4 a5 a6 a7 a8 a9 a10 a11 a12 a13).encw ((Cert.Idx.paramsOf a0 a1 a2 a3 a4 a5 a6 a7 a8 a9 a10 a11 a12 a13).E1 b k) d
  rw [encw_eq a0 a1 a2 a3 a4 a5 a6 a7 a8 a9 a10 a11 a12 a13]
  refine congrArg (fun x => Cert.Sage.enc (Cert.Idx.paramsOf a0 a1 a2 a3 a4 a5 a6 a7 a8 a9 a10 a11 a12 a13).encw x d) (funext fun f => ?_)
  exact Layout.flatten1_apply _ _ b k f

/-- Row `12 b + k` of the two-hop region's output is the mean of the twelve second-hop encodings under first-hop
    neighbour `k` of batch node `b`. -/
theorem avg2_eq (b : Fin 4096) (k : Fin 12) (d : Fin 64) :
    meanRows (R2 a0 a1 a2 a3 a4 a5 a6) (We a7)
        (ix2 (⟨12 * b.val + k.val, by have := b.isLt; have := k.isLt; omega⟩ : Fin 49152) d)
      = Cert.Sage.avg2 (Cert.Idx.paramsOf a0 a1 a2 a3 a4 a5 a6 a7 a8 a9 a10 a11 a12 a13) b k d := by
  show Cert.Sage.mean12 (fun j => Cert.Sage.enc (fun h f => We a7 (ix2 f h))
      (fun f => R2 a0 a1 a2 a3 a4 a5 a6 (ix2 (⟨12 * (12 * b.val + k.val) + j.val, by have := b.isLt; have := k.isLt; have := j.isLt; omega⟩ : Fin 589824) f)) d)
    = Cert.Sage.mean12 (fun j => Cert.Sage.enc (Cert.Idx.paramsOf a0 a1 a2 a3 a4 a5 a6 a7 a8 a9 a10 a11 a12 a13).encw ((Cert.Idx.paramsOf a0 a1 a2 a3 a4 a5 a6 a7 a8 a9 a10 a11 a12 a13).E2 b k j) d)
  rw [encw_eq a0 a1 a2 a3 a4 a5 a6 a7 a8 a9 a10 a11 a12 a13]
  refine congrArg Cert.Sage.mean12 (funext fun j => ?_)
  refine congrArg (fun x => Cert.Sage.enc (Cert.Idx.paramsOf a0 a1 a2 a3 a4 a5 a6 a7 a8 a9 a10 a11 a12 a13).encw x d) (funext fun f => ?_)
  exact Layout.flatten2_apply _ _ b k j f

/-- Row `b` of the head region's output is the common function at batch node `b`. -/
theorem head_eq (b : Fin 4096) (o : Fin 16) :
    headRows (encRows (R1 a0 a1 a3 a4 a5 a6) (We a7)) (meanRows (R2 a0 a1 a2 a3 a4 a5 a6) (We a7))
        (transpose S128x64 [1, 0] a8 transposes_S64x128_S128x64_1_0) (fun i => shapeCast S1x64 a9 shapeCasts_S64_S1x64 i)
        (transpose S64x64 [1, 0] a10 transposes_S64x64_S64x64_1_0) (fun i => shapeCast S1x64 a11 shapeCasts_S64_S1x64 i)
        (transpose S64x16 [1, 0] a12 transposes_S16x64_S64x16_1_0) (fun i => shapeCast S1x16 a13 shapeCasts_S16_S1x16 i)
        (ix2 b o)
      = Cert.Sage.out (Cert.Idx.paramsOf a0 a1 a2 a3 a4 a5 a6 a7 a8 a9 a10 a11 a12 a13) b o := by
  have f0 : (fun (k : Fin 12) (d : Fin 64) => encRows (R1 a0 a1 a3 a4 a5 a6) (We a7)
        (ix2 (⟨12 * b.val + k.val, by have := b.isLt; have := k.isLt; omega⟩ : Fin 49152) d)) = Cert.Sage.enc1 (Cert.Idx.paramsOf a0 a1 a2 a3 a4 a5 a6 a7 a8 a9 a10 a11 a12 a13) b :=
    funext fun k => funext fun d => enc1_eq a0 a1 a2 a3 a4 a5 a6 a7 a8 a9 a10 a11 a12 a13 b k d
  have f1 : (fun (k : Fin 12) (d : Fin 64) => meanRows (R2 a0 a1 a2 a3 a4 a5 a6) (We a7)
        (ix2 (⟨12 * b.val + k.val, by have := b.isLt; have := k.isLt; omega⟩ : Fin 49152) d)) = Cert.Sage.avg2 (Cert.Idx.paramsOf a0 a1 a2 a3 a4 a5 a6 a7 a8 a9 a10 a11 a12 a13) b :=
    funext fun k => funext fun d => avg2_eq a0 a1 a2 a3 a4 a5 a6 a7 a8 a9 a10 a11 a12 a13 b k d
  have f2 : (fun (h : Fin 64) (d : Fin 128) => transpose S128x64 [1, 0] a8 transposes_S64x128_S128x64_1_0 (ix2 d h)) = (Cert.Idx.paramsOf a0 a1 a2 a3 a4 a5 a6 a7 a8 a9 a10 a11 a12 a13).h1w :=
    funext fun h => funext fun d => Layout.transpose_64x128_apply a8 _ d h
  have f3 : (fun (h : Fin 64) => (fun i => shapeCast S1x64 a9 shapeCasts_S64_S1x64 i) (ix2 (0 : Fin 1) h)) = (Cert.Idx.paramsOf a0 a1 a2 a3 a4 a5 a6 a7 a8 a9 a10 a11 a12 a13).h1b :=
    funext fun h => Layout.row_64_apply a9 _ h
  have f4 : (fun (c c' : Fin 64) => transpose S64x64 [1, 0] a10 transposes_S64x64_S64x64_1_0 (ix2 c' c)) = (Cert.Idx.paramsOf a0 a1 a2 a3 a4 a5 a6 a7 a8 a9 a10 a11 a12 a13).h2w :=
    funext fun c => funext fun c' => Layout.transpose_64x64_apply a10 _ c' c
  have f5 : (fun (c : Fin 64) => (fun i => shapeCast S1x64 a11 shapeCasts_S64_S1x64 i) (ix2 (0 : Fin 1) c)) = (Cert.Idx.paramsOf a0 a1 a2 a3 a4 a5 a6 a7 a8 a9 a10 a11 a12 a13).h2b :=
    funext fun c => Layout.row_64_apply a11 _ c
  have f6 : (fun (o : Fin 16) (c : Fin 64) => transpose S64x16 [1, 0] a12 transposes_S16x64_S64x16_1_0 (ix2 c o)) = (Cert.Idx.paramsOf a0 a1 a2 a3 a4 a5 a6 a7 a8 a9 a10 a11 a12 a13).outw :=
    funext fun o => funext fun c => Layout.transpose_16x64_apply a12 _ c o
  have f7 : (fun (o : Fin 16) => (fun i => shapeCast S1x16 a13 shapeCasts_S16_S1x16 i) (ix2 (0 : Fin 1) o)) = (Cert.Idx.paramsOf a0 a1 a2 a3 a4 a5 a6 a7 a8 a9 a10 a11 a12 a13).outb :=
    funext fun o => Layout.row_16_apply a13 _ o
  show Cert.Sage.headOf
      (fun k d => encRows (R1 a0 a1 a3 a4 a5 a6) (We a7) (ix2 (⟨12 * b.val + k.val, by have := b.isLt; have := k.isLt; omega⟩ : Fin 49152) d))
      (fun k d => meanRows (R2 a0 a1 a2 a3 a4 a5 a6) (We a7) (ix2 (⟨12 * b.val + k.val, by have := b.isLt; have := k.isLt; omega⟩ : Fin 49152) d))
      (fun h d => transpose S128x64 [1, 0] a8 transposes_S64x128_S128x64_1_0 (ix2 d h))
      (fun h => (fun i => shapeCast S1x64 a9 shapeCasts_S64_S1x64 i) (ix2 (0 : Fin 1) h))
      (fun c c' => transpose S64x64 [1, 0] a10 transposes_S64x64_S64x64_1_0 (ix2 c' c))
      (fun c => (fun i => shapeCast S1x64 a11 shapeCasts_S64_S1x64 i) (ix2 (0 : Fin 1) c))
      (fun o c => transpose S64x16 [1, 0] a12 transposes_S16x64_S64x16_1_0 (ix2 c o))
      (fun o => (fun i => shapeCast S1x16 a13 shapeCasts_S16_S1x16 i) (ix2 (0 : Fin 1) o)) o
    = Cert.Sage.headOf (Cert.Sage.enc1 (Cert.Idx.paramsOf a0 a1 a2 a3 a4 a5 a6 a7 a8 a9 a10 a11 a12 a13) b) (Cert.Sage.avg2 (Cert.Idx.paramsOf a0 a1 a2 a3 a4 a5 a6 a7 a8 a9 a10 a11 a12 a13) b) (Cert.Idx.paramsOf a0 a1 a2 a3 a4 a5 a6 a7 a8 a9 a10 a11 a12 a13).h1w (Cert.Idx.paramsOf a0 a1 a2 a3 a4 a5 a6 a7 a8 a9 a10 a11 a12 a13).h1b (Cert.Idx.paramsOf a0 a1 a2 a3 a4 a5 a6 a7 a8 a9 a10 a11 a12 a13).h2w (Cert.Idx.paramsOf a0 a1 a2 a3 a4 a5 a6 a7 a8 a9 a10 a11 a12 a13).h2b (Cert.Idx.paramsOf a0 a1 a2 a3 a4 a5 a6 a7 a8 a9 a10 a11 a12 a13).outw (Cert.Idx.paramsOf a0 a1 a2 a3 a4 a5 a6 a7 a8 a9 a10 a11 a12 a13).outb o
  rw [f0, f1, f2, f3, f4, f5, f6, f7]

end Cert.KernelIdeal.Bridge

end
-- ==== Proof.KRun.lean ====
/-
  The idealized kernel program's run with its RESULT named: every weakly fair execution ends with the result
  array at the contents the last region's write-backs leave, and every argument as launched. The run is the
  chain of host stretches and the three regions; what each boundary holds is the fold of the contents through
  the stretches and the regions' arrays.
-/
import proofs.«174830_j1030792151555_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F] [Cert.KernelIdeal.Facts]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array read off the last boundary's contents. -/
theorem run_value : θ_run defs (onTc (τ := τ) (main (F := F))) ⟨m, fun _ => 0, ρ⟩ (fun r => ∀ c : Dev nD,
      r.2.mem ((c.tc : Thread nD τ).loc main_v86) = W9 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v86 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c)⟩)

end Cert.KernelIdeal.RunValue

end
-- ==== Proof.KValue.lean ====
/-
  The idealized kernel program's result: the head region's output array, through the three regions and the host
  operations between them, is the common function of the argument arrays, entry by entry.
-/
import proofs.«174830_j1030792151555_1_alg».proof.Proof.KChain
import proofs.«174830_j1030792151555_1_alg».proof.Proof.Bridge
import proofs.«174830_j1030792151555_1_alg».proof.Proof.KRun

set_option maxRecDepth 16384

noncomputable section

namespace Cert.KernelIdeal.KValue

open Cert.KernelIdeal Cert.KernelIdeal.Gen Cert.KernelIdeal.HostValue Cert.KernelIdeal.RegionValue Cert.KernelIdeal.Chain
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## Through the two encoder regions -/

theorem W6_v62 : W6 m ρ c (Proc.devRef .tc main_v62) = W5 m ρ c (Proc.devRef .tc main_v62) :=
  W6_of_ne m ρ c main_v62 (by decide)

/-- The encoder's weights are an input of the two-hop region: it leaves them as it finds them. -/
theorem W6_v72 : W6 m ρ c (Proc.devRef .tc main_v72) = W5 m ρ c (Proc.devRef .tc main_v72) :=
  ((W6_arr m ρ c 1).trans ((dat0 (V5 m ρ) c).arrAt_in 1 rfl cfg0.N)).trans (A_eq0 (V5 m ρ) c 1)

theorem W6_v82 : W6 m ρ c (Proc.devRef .tc main_v82)
    = meanRows (W5 m ρ c (Proc.devRef .tc main_v70)) (W5 m ρ c (Proc.devRef .tc main_v72)) :=
  (W6_arr m ρ c 2).trans (final0 (V5 m ρ) c)

theorem W7_v83 : W7 m ρ c (Proc.devRef .tc main_v83)
    = encRows (W6 m ρ c (Proc.devRef .tc main_v62)) (W6 m ρ c (Proc.devRef .tc main_v72)) :=
  (W7_arr m ρ c 2).trans (final1 (V6 m ρ) c)

theorem W7_v82 : W7 m ρ c (Proc.devRef .tc main_v82) = W6 m ρ c (Proc.devRef .tc main_v82) :=
  W7_of_ne m ρ c main_v82 (by decide)

/-! ## The two format changes before the head region: the identity at the ideal values -/

theorem W8_v84 : W8 m ρ c (Proc.devRef .tc main_v84) = W7 m ρ c (Proc.devRef .tc main_v83) := by
  show StableHlo.after hostOps2 (W7 m ρ c) (Proc.devRef .tc main_v84) = _
  after_results
  rfl

theorem W8_v85 : W8 m ρ c (Proc.devRef .tc main_v85) = W7 m ρ c (Proc.devRef .tc main_v82) := by
  show StableHlo.after hostOps2 (W7 m ρ c) (Proc.devRef .tc main_v85) = _
  after_results
  rfl

/-- A buffer none of the regions' arrays and not written by the format changes is, at the head region's entry,
    what the host operations before the regions left. -/
theorem W8_keep (r : Ref sig .tc) (h2 : r ∉ wrh2) (h1 : ∀ w, Pipeline.arrRef spec1 w ≠ r) (h0 : ∀ w, Pipeline.arrRef spec0 w ≠ r) :
    W8 m ρ c (Proc.devRef .tc r) = W5 m ρ c (Proc.devRef .tc r) :=
  ((keeph2 (W7 m ρ c) r h2).trans (W7_of_ne m ρ c r h1)).trans (W6_of_ne m ρ c r h0)

/-! ## The head region's output -/

theorem W9_v86 : W9 m ρ c (Proc.devRef .tc main_v86)
    = headRows (W8 m ρ c (Proc.devRef .tc main_v84)) (W8 m ρ c (Proc.devRef .tc main_v85))
        (W8 m ρ c (Proc.devRef .tc main_v74)) (W8 m ρ c (Proc.devRef .tc main_v79)) (W8 m ρ c (Proc.devRef .tc main_v76))
        (W8 m ρ c (Proc.devRef .tc main_v80)) (W8 m ρ c (Proc.devRef .tc main_v78)) (W8 m ρ c (Proc.devRef .tc main_v81)) :=
  (W9_arr m ρ c 8).trans (final2 (V8 m ρ) c)

/-- The result array, entry by entry, is the common function of the argument arrays. -/
theorem out_apply (b : Fin 4096) (o : Fin 16) :
    W9 m ρ c (Proc.devRef .tc main_v86) (ix2 b o) = Cert.Sage.out (Cert.Idx.paramsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) b o := by
  rw [W9_v86, W8_v84, W8_v85, W7_v83, W7_v82, W6_v82, W6_v62, W6_v72, W5_v62, W5_v70, W5_v72,
    W8_keep m ρ c main_v74 (by decide) (by decide) (by decide), W8_keep m ρ c main_v79 (by decide) (by decide) (by decide),
    W8_keep m ρ c main_v76 (by decide) (by decide) (by decide), W8_keep m ρ c main_v80 (by decide) (by decide) (by decide),
    W8_keep m ρ c main_v78 (by decide) (by decide) (by decide), W8_keep m ρ c main_v81 (by decide) (by decide) (by decide),
    W5_v74, W5_v79, W5_v76, W5_v80, W5_v78, W5_v81]
  exact Bridge.head_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) b o

/-- The run: every weakly fair execution ends with the result array at the common function of the arguments, entry
    by entry, and the arguments as launched. -/
theorem run : θ_run (defs (F := Ideal)) (onTc (τ := τ) (main (F := Ideal))) ⟨m, fun _ => 0, ρ⟩ (fun r => ∀ c : Dev nD,
      (∀ (b : Fin 4096) (o : Fin 16), r.2.mem ((c.tc : Thread nD τ).loc main_v86) (ix2 b o)
        = Cert.Sage.out (Cert.Idx.paramsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) b o)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (defs (F := Ideal)) _ _).mono (fun r h c => ⟨fun b o => by rw [(h c).1]; exact out_apply m ρ c b o, (h c).2⟩)
    (Cert.KernelIdeal.RunValue.run_value (F := Ideal) m ρ)

end Cert.KernelIdeal.KValue

end
-- ==== Proof.RefRun.lean ====
/-
  The reference program run as one straight line.

  The program is 116 statements in two windows, six of which call a module-local function (two floored
  remainders, each calling a three-way select, and four positive parts). A call executes the callee's body on
  the caller's buffers, so the whole program is one list of 167 primitive operations: each call replaced by
  the callee's operations over that call's record of buffers. The list is cut into stretches at the values
  the later stages read, so that each stretch can be studied on its own as a pure function of the buffers it
  reads.

  `main_eq`: the program is the sequence of that list. `run_all`: every weakly fair execution terminates
  with each buffer at the fold of the operations' results over the launch contents.
-/
import proofs.«174830_j1030792151555_1_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem
open Cert.ReferenceIdeal.Facts₀ Cert.ReferenceIdeal.Facts

variable {F : FTy → Type} [FloatOps F] [Facts]

/-! ## The operations, stretch by stretch -/

/-- The first ten operations: the batch node ids wrapped into range and their degrees gathered (up to `main_v7`). -/
abbrev sA : List (HloOp τ sig (Elt F)) :=
  [ StableHlo.nullary main_c (constantI S_ 32 0#32),
    StableHlo.unary main_c main_v0 (broadcastInDim S4096 ![] bcast_S_S4096 : (⟨S_, .i32⟩ : BufTy).Contents (Elt F) → (⟨S4096, .i32⟩ : BufTy).Contents (Elt F)),
    StableHlo.binary main_arg0 main_v0 main_v1 (cmpi .slt : (⟨S4096, .i32⟩ : BufTy).Contents (Elt F) → (⟨S4096, .i32⟩ : BufTy).Contents (Elt F) → (⟨S4096, .i1⟩ : BufTy).Contents (Elt F)),
    StableHlo.nullary main_c_0 (constantI S_ 32 100000#32),
    StableHlo.unary main_c_0 main_v2 (broadcastInDim S4096 ![] bcast_S_S4096 : (⟨S_, .i32⟩ : BufTy).Contents (Elt F) → (⟨S4096, .i32⟩ : BufTy).Contents (Elt F)),
    StableHlo.binary main_arg0 main_v2 main_v3 (addi : (⟨S4096, .i32⟩ : BufTy).Contents (Elt F) → (⟨S4096, .i32⟩ : BufTy).Contents (Elt F) → (⟨S4096, .i32⟩ : BufTy).Contents (Elt F)),
    StableHlo.ternary main_v1 main_v3 main_arg0 main_v4 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v4 main_v5 (broadcastInDim S4096x1 ![0] bcast_S4096_S4096x1_0 : (⟨S4096, .i32⟩ : BufTy).Contents (Elt F) → (⟨S4096x1, .i32⟩ : BufTy).Contents (Elt F)),
    StableHlo.binary main_arg5 main_v5 main_v6 ((fun x i => Host.gather gather_S100000_S4096x1_S4096_n_0_n_n_0_1_1 x i) : (⟨S100000, .i32⟩ : BufTy).Contents (Elt F) → (⟨S4096x1, .i32⟩ : BufTy).Contents (Elt F) → (⟨S4096, .i32⟩ : BufTy).Contents (Elt F)),
    StableHlo.unary main_v6 main_v7 (broadcastInDim S4096x1 ![0] bcast_S4096_S4096x1_0 : (⟨S4096, .i32⟩ : BufTy).Contents (Elt F) → (⟨S4096x1, .i32⟩ : BufTy).Contents (Elt F)) ]

theorem sA_sub : (sA : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub ..⟩

theorem sA_fresh : (sA : List (HloOp τ sig (Elt F))).Forall fun op => op.fresh = ∅ :=
  ⟨rfl, rfl, rfl, rfl, rfl, rfl, rfl, rfl, rfl, rfl⟩

/-- The 23 operations of the first floored remainder (into `main_v8`): the sampled offsets modulo the degrees. -/
abbrev sB : List (HloOp τ sig (Elt F)) :=
  [ StableHlo.TRef.nullary main_call0.c (constantI S_ 32 0#32),
    StableHlo.TRef.unary main_call0.c main_call0.v0 (broadcastInDim S4096x1 ![] bcast_S_S4096x1),
    StableHlo.TRef.binary (.of main_v7 : StableHlo.TRef sig ⟨S4096x1, .i32⟩) main_call0.v0 main_call0.v1 (cmpi .eq),
    StableHlo.TRef.nullary main_call0.c_0 (constantI S_ 32 1#32),
    StableHlo.TRef.unary main_call0.c_0 main_call0.v2 (broadcastInDim S4096x1 ![] bcast_S_S4096x1),
    StableHlo.TRef.ternary main_call0.v1 main_call0.v2 (.of main_v7 : StableHlo.TRef sig ⟨S4096x1, .i32⟩) main_call0.call0.v0 select,
    StableHlo.TRef.unary main_call0.call0.v0 main_call0.v4 (broadcastInDim S4096x12 ![0, 1] bcast_S4096x1_S4096x12_0_1),
    StableHlo.TRef.binary (.of main_arg1 : StableHlo.TRef sig ⟨S4096x12, .i32⟩) main_call0.v4 main_call0.v5 Host.remsi,
    StableHlo.TRef.nullary main_call0.c_1 (constantI S_ 32 0#32),
    StableHlo.TRef.unary main_call0.c_1 main_call0.v6 (broadcastInDim S4096x12 ![] bcast_S_S4096x12),
    StableHlo.TRef.binary main_call0.v5 main_call0.v6 main_call0.v7 (cmpi .ne),
    StableHlo.TRef.nullary main_call0.c_2 (constantI S_ 32 0#32),
    StableHlo.TRef.unary main_call0.c_2 main_call0.v8 (broadcastInDim S4096x12 ![] bcast_S_S4096x12),
    StableHlo.TRef.binary main_call0.v5 main_call0.v8 main_call0.v9 (cmpi .slt),
    StableHlo.TRef.nullary main_call0.c_3 (constantI S_ 32 0#32),
    StableHlo.TRef.unary main_call0.c_3 main_call0.v10 (broadcastInDim S4096x1 ![] bcast_S_S4096x1),
    StableHlo.TRef.binary main_call0.call0.v0 main_call0.v10 main_call0.v11 (cmpi .slt),
    StableHlo.TRef.unary main_call0.v11 main_call0.v12 (broadcastInDim S4096x12 ![0, 1] bcast_S4096x1_S4096x12_0_1),
    StableHlo.TRef.binary main_call0.v9 main_call0.v12 main_call0.v13 (cmpi .ne),
    StableHlo.TRef.binary main_call0.v13 main_call0.v7 main_call0.v14 andi,
    StableHlo.TRef.unary main_call0.call0.v0 main_call0.v15 (broadcastInDim S4096x12 ![0, 1] bcast_S4096x1_S4096x12_0_1),
    StableHlo.TRef.binary main_call0.v5 main_call0.v15 main_call0.v16 addi,
    StableHlo.TRef.ternary main_call0.v14 main_call0.v16 main_call0.v5 main_call0.v17 select ]

theorem sB_sub : (sB : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

theorem sB_fresh : (sB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The next 32 operations: row pointers gathered, offsets added and wrapped, the first-hop node ids gathered (`main_v25`), flattened (`main_v26`), and their degrees gathered (`main_v34`). -/
abbrev sC : List (HloOp τ sig (Elt F)) :=
  [ StableHlo.nullary main_c_1 (constantI S_ 32 0#32),
    StableHlo.unary main_c_1 main_v9 (broadcastInDim S4096 ![] bcast_S_S4096 : (⟨S_, .i32⟩ : BufTy).Contents (Elt F) → (⟨S4096, .i32⟩ : BufTy).Contents (Elt F)),
    StableHlo.binary main_arg0 main_v9 main_v10 (cmpi .slt : (⟨S4096, .i32⟩ : BufTy).Contents (Elt F) → (⟨S4096, .i32⟩ : BufTy).Contents (Elt F) → (⟨S4096, .i1⟩ : BufTy).Contents (Elt F)),
    StableHlo.nullary main_c_2 (constantI S_ 32 100000#32),
    StableHlo.unary main_c_2 main_v11 (broadcastInDim S4096 ![] bcast_S_S4096 : (⟨S_, .i32⟩ : BufTy).Contents (Elt F) → (⟨S4096, .i32⟩ : BufTy).Contents (Elt F)),
    StableHlo.binary main_arg0 main_v11 main_v12 (addi : (⟨S4096, .i32⟩ : BufTy).Contents (Elt F) → (⟨S4096, .i32⟩ : BufTy).Contents (Elt F) → (⟨S4096, .i32⟩ : BufTy).Contents (Elt F)),
    StableHlo.ternary main_v10 main_v12 main_arg0 main_v13 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v13 main_v14 (broadcastInDim S4096x1 ![0] bcast_S4096_S4096x1_0 : (⟨S4096, .i32⟩ : BufTy).Contents (Elt F) → (⟨S4096x1, .i32⟩ : BufTy).Contents (Elt F)),
    StableHlo.binary main_arg3 main_v14 main_v15 ((fun x i => Host.gather gather_S100000_S4096x1_S4096_n_0_n_n_0_1_1 x i) : (⟨S100000, .i32⟩ : BufTy).Contents (Elt F) → (⟨S4096x1, .i32⟩ : BufTy).Contents (Elt F) → (⟨S4096, .i32⟩ : BufTy).Contents (Elt F)),
    StableHlo.unary main_v15 main_v16 (broadcastInDim S4096x1 ![0] bcast_S4096_S4096x1_0 : (⟨S4096, .i32⟩ : BufTy).Contents (Elt F) → (⟨S4096x1, .i32⟩ : BufTy).Contents (Elt F)),
    StableHlo.unary main_v16 main_v17 (broadcastInDim S4096x12 ![0, 1] bcast_S4096x1_S4096x12_0_1 : (⟨S4096x1, .i32⟩ : BufTy).Contents (Elt F) → (⟨S4096x12, .i32⟩ : BufTy).Contents (Elt F)),
    StableHlo.binary main_v17 main_v8 main_v18 (addi : (⟨S4096x12, .i32⟩ : BufTy).Contents (Elt F) → (⟨S4096x12, .i32⟩ : BufTy).Contents (Elt F) → (⟨S4096x12, .i32⟩ : BufTy).Contents (Elt F)),
    StableHlo.nullary main_c_3 (constantI S_ 32 0#32),
    StableHlo.unary main_c_3 main_v19 (broadcastInDim S4096x12 ![] bcast_S_S4096x12 : (⟨S_, .i32⟩ : BufTy).Contents (Elt F) → (⟨S4096x12, .i32⟩ : BufTy).Contents (Elt F)),
    StableHlo.binary main_v18 main_v19 main_v20 (cmpi .slt : (⟨S4096x12, .i32⟩ : BufTy).Contents (Elt F) → (⟨S4096x12, .i32⟩ : BufTy).Contents (Elt F) → (⟨S4096x12, .i1⟩ : BufTy).Contents (Elt F)),
    StableHlo.nullary main_c_4 (constantI S_ 32 1600000#32),
    StableHlo.unary main_c_4 main_v21 (broadcastInDim S4096x12 ![] bcast_S_S4096x12 : (⟨S_, .i32⟩ : BufTy).Contents (Elt F) → (⟨S4096x12, .i32⟩ : BufTy).Contents (Elt F)),
    StableHlo.binary main_v18 main_v21 main_v22 (addi : (⟨S4096x12, .i32⟩ : BufTy).Contents (Elt F) → (⟨S4096x12, .i32⟩ : BufTy).Contents (Elt F) → (⟨S4096x12, .i32⟩ : BufTy).Contents (Elt F)),
    StableHlo.ternary main_v20 main_v22 main_v18 main_v23 (select : (⟨S4096x12, .i1⟩ : BufTy).Contents (Elt F) → (⟨S4096x12, .i32⟩ : BufTy).Contents (Elt F) → (⟨S4096x12, .i32⟩ : BufTy).Contents (Elt F) → (⟨S4096x12, .i32⟩ : BufTy).Contents (Elt F)),
    StableHlo.unary main_v23 main_v24 (broadcastInDim S4096x12x1 ![0, 1] bcast_S4096x12_S4096x12x1_0_1 : (⟨S4096x12, .i32⟩ : BufTy).Contents (Elt F) → (⟨S4096x12x1, .i32⟩ : BufTy).Contents (Elt F)),
    StableHlo.binary main_arg4 main_v24 main_v25 ((fun x i => Host.gather gather_S1600000_S4096x12x1_S4096x12_n_0_n_n_0_2_1 x i) : (⟨S1600000, .i32⟩ : BufTy).Contents (Elt F) → (⟨S4096x12x1, .i32⟩ : BufTy).Contents (Elt F) → (⟨S4096x12, .i32⟩ : BufTy).Contents (Elt F)),
    StableHlo.reshape main_v25 main_v26 rfl shapeCasts_S4096x12_S49152,
    StableHlo.nullary main_c_5 (constantI S_ 32 0#32),
    StableHlo.unary main_c_5 main_v27 (broadcastInDim S49152 ![] bcast_S_S49152 : (⟨S_, .i32⟩ : BufTy).Contents (Elt F) → (⟨S49152, .i32⟩ : BufTy).Contents (Elt F)),
    StableHlo.binary main_v26 main_v27 main_v28 (cmpi .slt : (⟨S49152, .i32⟩ : BufTy).Contents (Elt F) → (⟨S49152, .i32⟩ : BufTy).Contents (Elt F) → (⟨S49152, .i1⟩ : BufTy).Contents (Elt F)),
    StableHlo.nullary main_c_6 (constantI S_ 32 100000#32),
    StableHlo.unary main_c_6 main_v29 (broadcastInDim S49152 ![] bcast_S_S49152 : (⟨S_, .i32⟩ : BufTy).Contents (Elt F) → (⟨S49152, .i32⟩ : BufTy).Contents (Elt F)),
    StableHlo.binary main_v26 main_v29 main_v30 (addi : (⟨S49152, .i32⟩ : BufTy).Contents (Elt F) → (⟨S49152, .i32⟩ : BufTy).Contents (Elt F) → (⟨S49152, .i32⟩ : BufTy).Contents (Elt F)),
    StableHlo.ternary main_v28 main_v30 main_v26 main_v31 (select : (⟨S49152, .i1⟩ : BufTy).Contents (Elt F) → (⟨S49152, .i32⟩ : BufTy).Contents (Elt F) → (⟨S49152, .i32⟩ : BufTy).Contents (Elt F) → (⟨S49152, .i32⟩ : BufTy).Contents (Elt F)),
    StableHlo.unary main_v31 main_v32 (broadcastInDim S49152x1 ![0] bcast_S49152_S49152x1_0 : (⟨S49152, .i32⟩ : BufTy).Contents (Elt F) → (⟨S49152x1, .i32⟩ : BufTy).Contents (Elt F)),
    StableHlo.binary main_arg5 main_v32 main_v33 ((fun x i => Host.gather gather_S100000_S49152x1_S49152_n_0_n_n_0_1_1 x i) : (⟨S100000, .i32⟩ : BufTy).Contents (Elt F) → (⟨S49152x1, .i32⟩ : BufTy).Contents (Elt F) → (⟨S49152, .i32⟩ : BufTy).Contents (Elt F)),
    StableHlo.unary main_v33 main_v34 (broadcastInDim S49152x1 ![0] bcast_S49152_S49152x1_0 : (⟨S49152, .i32⟩ : BufTy).Contents (Elt F) → (⟨S49152x1, .i32⟩ : BufTy).Contents (Elt F)) ]

theorem sC_sub : (sC : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub ..⟩

theorem sC_fresh : (sC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The 23 operations of the second floored remainder (into `main_v35`). -/
abbrev sD : List (HloOp τ sig (Elt F)) :=
  [ StableHlo.TRef.nullary main_call1.c (constantI S_ 32 0#32),
    StableHlo.TRef.unary main_call1.c main_call1.v0 (broadcastInDim S49152x1 ![] bcast_S_S49152x1),
    StableHlo.TRef.binary (.of main_v34 : StableHlo.TRef sig ⟨S49152x1, .i32⟩) main_call1.v0 main_call1.v1 (cmpi .eq),
    StableHlo.TRef.nullary main_call1.c_0 (constantI S_ 32 1#32),
    StableHlo.TRef.unary main_call1.c_0 main_call1.v2 (broadcastInDim S49152x1 ![] bcast_S_S49152x1),
    StableHlo.TRef.ternary main_call1.v1 main_call1.v2 (.of main_v34 : StableHlo.TRef sig ⟨S49152x1, .i32⟩) main_call1.call0.v0 select,
    StableHlo.TRef.unary main_call1.call0.v0 main_call1.v4 (broadcastInDim S49152x12 ![0, 1] bcast_S49152x1_S49152x12_0_1),
    StableHlo.TRef.binary (.of main_arg2 : StableHlo.TRef sig ⟨S49152x12, .i32⟩) main_call1.v4 main_call1.v5 Host.remsi,
    StableHlo.TRef.nullary main_call1.c_1 (constantI S_ 32 0#32),
    StableHlo.TRef.unary main_call1.c_1 main_call1.v6 (broadcastInDim S49152x12 ![] bcast_S_S49152x12),
    StableHlo.TRef.binary main_call1.v5 main_call1.v6 main_call1.v7 (cmpi .ne),
    StableHlo.TRef.nullary main_call1.c_2 (constantI S_ 32 0#32),
    StableHlo.TRef.unary main_call1.c_2 main_call1.v8 (broadcastInDim S49152x12 ![] bcast_S_S49152x12),
    StableHlo.TRef.binary main_call1.v5 main_call1.v8 main_call1.v9 (cmpi .slt),
    StableHlo.TRef.nullary main_call1.c_3 (constantI S_ 32 0#32),
    StableHlo.TRef.unary main_call1.c_3 main_call1.v10 (broadcastInDim S49152x1 ![] bcast_S_S49152x1),
    StableHlo.TRef.binary main_call1.call0.v0 main_call1.v10 main_call1.v11 (cmpi .slt),
    StableHlo.TRef.unary main_call1.v11 main_call1.v12 (broadcastInDim S49152x12 ![0, 1] bcast_S49152x1_S49152x12_0_1),
    StableHlo.TRef.binary main_call1.v9 main_call1.v12 main_call1.v13 (cmpi .ne),
    StableHlo.TRef.binary main_call1.v13 main_call1.v7 main_call1.v14 andi,
    StableHlo.TRef.unary main_call1.call0.v0 main_call1.v15 (broadcastInDim S49152x12 ![0, 1] bcast_S49152x1_S49152x12_0_1),
    StableHlo.TRef.binary main_call1.v5 main_call1.v15 main_call1.v16 addi,
    StableHlo.TRef.ternary main_call1.v14 main_call1.v16 main_call1.v5 main_call1.v17 select ]

theorem sD_sub : (sD : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

theorem sD_fresh : (sD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The 16 operations that follow, up to the constant `main_c_10` (the first window of the program ends here). -/
abbrev sE0 : List (HloOp τ sig (Elt F)) :=
  [ StableHlo.nullary main_c_7 (constantI S_ 32 0#32),
    StableHlo.unary main_c_7 main_v36 (broadcastInDim S49152 ![] bcast_S_S49152 : (⟨S_, .i32⟩ : BufTy).Contents (Elt F) → (⟨S49152, .i32⟩ : BufTy).Contents (Elt F)),
    StableHlo.binary main_v26 main_v36 main_v37 (cmpi .slt : (⟨S49152, .i32⟩ : BufTy).Contents (Elt F) → (⟨S49152, .i32⟩ : BufTy).Contents (Elt F) → (⟨S49152, .i1⟩ : BufTy).Contents (Elt F)),
    StableHlo.nullary main_c_8 (constantI S_ 32 100000#32),
    StableHlo.unary main_c_8 main_v38 (broadcastInDim S49152 ![] bcast_S_S49152 : (⟨S_, .i32⟩ : BufTy).Contents (Elt F) → (⟨S49152, .i32⟩ : BufTy).Contents (Elt F)),
    StableHlo.binary main_v26 main_v38 main_v39 (addi : (⟨S49152, .i32⟩ : BufTy).Contents (Elt F) → (⟨S49152, .i32⟩ : BufTy).Contents (Elt F) → (⟨S49152, .i32⟩ : BufTy).Contents (Elt F)),
    StableHlo.ternary main_v37 main_v39 main_v26 main_v40 (select : (⟨S49152, .i1⟩ : BufTy).Contents (Elt F) → (⟨S49152, .i32⟩ : BufTy).Contents (Elt F) → (⟨S49152, .i32⟩ : BufTy).Contents (Elt F) → (⟨S49152, .i32⟩ : BufTy).Contents (Elt F)),
    StableHlo.unary main_v40 main_v41 (broadcastInDim S49152x1 ![0] bcast_S49152_S49152x1_0 : (⟨S49152, .i32⟩ : BufTy).Contents (Elt F) → (⟨S49152x1, .i32⟩ : BufTy).Contents (Elt F)),
    StableHlo.binary main_arg3 main_v41 main_v42 ((fun x i => Host.gather gather_S100000_S49152x1_S49152_n_0_n_n_0_1_1 x i) : (⟨S100000, .i32⟩ : BufTy).Contents (Elt F) → (⟨S49152x1, .i32⟩ : BufTy).Contents (Elt F) → (⟨S49152, .i32⟩ : BufTy).Contents (Elt F)),
    StableHlo.unary main_v42 main_v43 (broadcastInDim S49152x1 ![0] bcast_S49152_S49152x1_0 : (⟨S49152, .i32⟩ : BufTy).Contents (Elt F) → (⟨S49152x1, .i32⟩ : BufTy).Contents (Elt F)),
    StableHlo.unary main_v43 main_v44 (broadcastInDim S49152x12 ![0, 1] bcast_S49152x1_S49152x12_0_1 : (⟨S49152x1, .i32⟩ : BufTy).Contents (Elt F) → (⟨S49152x12, .i32⟩ : BufTy).Contents (Elt F)),
    StableHlo.binary main_v44 main_v35 main_v45 (addi : (⟨S49152x12, .i32⟩ : BufTy).Contents (Elt F) → (⟨S49152x12, .i32⟩ : BufTy).Contents (Elt F) → (⟨S49152x12, .i32⟩ : BufTy).Contents (Elt F)),
    StableHlo.nullary main_c_9 (constantI S_ 32 0#32),
    StableHlo.unary main_c_9 main_v46 (broadcastInDim S49152x12 ![] bcast_S_S49152x12 : (⟨S_, .i32⟩ : BufTy).Contents (Elt F) → (⟨S49152x12, .i32⟩ : BufTy).Contents (Elt F)),
    StableHlo.binary main_v45 main_v46 main_v47 (cmpi .slt : (⟨S49152x12, .i32⟩ : BufTy).Contents (Elt F) → (⟨S49152x12, .i32⟩ : BufTy).Contents (Elt F) → (⟨S49152x12, .i1⟩ : BufTy).Contents (Elt F)),
    StableHlo.nullary main_c_10 (constantI S_ 32 1600000#32) ]

theorem sE0_sub : (sE0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub ..⟩

theorem sE0_fresh : (sE0 : List (HloOp τ sig (Elt F))).Forall fun op => op.fresh = ∅ :=
  ⟨rfl, rfl, rfl, rfl, rfl, rfl, rfl, rfl, rfl, rfl, rfl, rfl, rfl, rfl, rfl, rfl⟩

/-- Six operations: the second-hop offsets wrapped, the second-hop node ids gathered and reshaped (`main_v53`). -/
abbrev sE1 : List (HloOp τ sig (Elt F)) :=
  [ StableHlo.unary main_c_10 main_v48 (broadcastInDim S49152x12 ![] bcast_S_S49152x12 : (⟨S_, .i32⟩ : BufTy).Contents (Elt F) → (⟨S49152x12, .i32⟩ : BufTy).Contents (Elt F)),
    StableHlo.binary main_v45 main_v48 main_v49 (addi : (⟨S49152x12, .i32⟩ : BufTy).Contents (Elt F) → (⟨S49152x12, .i32⟩ : BufTy).Contents (Elt F) → (⟨S49152x12, .i32⟩ : BufTy).Contents (Elt F)),
    StableHlo.ternary main_v47 main_v49 main_v45 main_v50 (select : (⟨S49152x12, .i1⟩ : BufTy).Contents (Elt F) → (⟨S49152x12, .i32⟩ : BufTy).Contents (Elt F) → (⟨S49152x12, .i32⟩ : BufTy).Contents (Elt F) → (⟨S49152x12, .i32⟩ : BufTy).Contents (Elt F)),
    StableHlo.unary main_v50 main_v51 (broadcastInDim S49152x12x1 ![0, 1] bcast_S49152x12_S49152x12x1_0_1 : (⟨S49152x12, .i32⟩ : BufTy).Contents (Elt F) → (⟨S49152x12x1, .i32⟩ : BufTy).Contents (Elt F)),
    StableHlo.binary main_arg4 main_v51 main_v52 ((fun x i => Host.gather gather_S1600000_S49152x12x1_S49152x12_n_0_n_n_0_2_1 x i) : (⟨S1600000, .i32⟩ : BufTy).Contents (Elt F) → (⟨S49152x12x1, .i32⟩ : BufTy).Contents (Elt F) → (⟨S49152x12, .i32⟩ : BufTy).Contents (Elt F)),
    StableHlo.reshape main_v52 main_v53 rfl shapeCasts_S49152x12_S4096x12x12 ]

theorem sE1_sub : (sE1 : List (HloOp τ sig (Elt F))).Forall fun op => op.bufs ⊆ StableHlo.tcRefs τ sig :=
  ⟨StableHlo.unary_bufs_sub .., StableHlo.binary_bufs_sub .., StableHlo.ternary_bufs_sub .., StableHlo.unary_bufs_sub .., StableHlo.binary_bufs_sub .., StableHlo.reshape_bufs_sub ..⟩

theorem sE1_fresh : (sE1 : List (HloOp τ sig (Elt F))).Forall fun op => op.fresh = ∅ :=
  ⟨rfl, rfl, rfl, rfl, rfl, rfl⟩

/-- Eight operations: the first-hop node ids wrapped into range, as a `4096×12×1` index array (`main_v59`). -/
abbrev sF : List (HloOp τ sig (Elt F)) :=
  [ StableHlo.nullary main_c_11 (constantI S_ 32 0#32),
    StableHlo.unary main_c_11 main_v54 (broadcastInDim S4096x12 ![] bcast_S_S4096x12 : (⟨S_, .i32⟩ : BufTy).Contents (Elt F) → (⟨S4096x12, .i32⟩ : BufTy).Contents (Elt F)),
    StableHlo.binary main_v25 main_v54 main_v55 (cmpi .slt : (⟨S4096x12, .i32⟩ : BufTy).Contents (Elt F) → (⟨S4096x12, .i32⟩ : BufTy).Contents (Elt F) → (⟨S4096x12, .i1⟩ : BufTy).Contents (Elt F)),
    StableHlo.nullary main_c_12 (constantI S_ 32 100000#32),
    StableHlo.unary main_c_12 main_v56 (broadcastInDim S4096x12 ![] bcast_S_S4096x12 : (⟨S_, .i32⟩ : BufTy).Contents (Elt F) → (⟨S4096x12, .i32⟩ : BufTy).Contents (Elt F)),
    StableHlo.binary main_v25 main_v56 main_v57 (addi : (⟨S4096x12, .i32⟩ : BufTy).Contents (Elt F) → (⟨S4096x12, .i32⟩ : BufTy).Contents (Elt F) → (⟨S4096x12, .i32⟩ : BufTy).Contents (Elt F)),
    StableHlo.ternary main_v55 main_v57 main_v25 main_v58 (select : (⟨S4096x12, .i1⟩ : BufTy).Contents (Elt F) → (⟨S4096x12, .i32⟩ : BufTy).Contents (Elt F) → (⟨S4096x12, .i32⟩ : BufTy).Contents (Elt F) → (⟨S4096x12, .i32⟩ : BufTy).Contents (Elt F)),
    StableHlo.unary main_v58 main_v59 (broadcastInDim S4096x12x1 ![0, 1] bcast_S4096x12_S4096x12x1_0_1 : (⟨S4096x12, .i32⟩ : BufTy).Contents (Elt F) → (⟨S4096x12x1, .i32⟩ : BufTy).Contents (Elt F)) ]

theorem sF_sub : (sF : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub ..⟩

theorem sF_fresh : (sF : List (HloOp τ sig (Elt F))).Forall fun op => op.fresh = ∅ :=
  ⟨rfl, rfl, rfl, rfl, rfl, rfl, rfl, rfl⟩

/-- Five operations: the first-hop feature rows gathered, encoded by the linear map, and their positive part (`main_v62`). -/
abbrev sG : List (HloOp τ sig (Elt F)) :=
  [ StableHlo.binary main_arg6 main_v59 main_v60 ((fun x i => Host.gather gather_S100000x128_S4096x12x1_S4096x12x128_2_0_n_n_0_2_1128 x i) : (⟨S100000x128, .f32⟩ : BufTy).Contents (Elt F) → (⟨S4096x12x1, .i32⟩ : BufTy).Contents (Elt F) → (⟨S4096x12x128, .f32⟩ : BufTy).Contents (Elt F)),
    StableHlo.binary main_v60 main_arg7 main_v61 ((fun l r => Host.dotGeneral dot_S4096x12x128_S64x128_S4096x12x64_2_1_01_0_n_n none l r) : (⟨S4096x12x128, .f32⟩ : BufTy).Contents (Elt F) → (⟨S64x128, .f32⟩ : BufTy).Contents (Elt F) → (⟨S4096x12x64, .f32⟩ : BufTy).Contents (Elt F)),
    StableHlo.TRef.nullary main_call2.cst (constant S_ .f32 0x00000000#32),
    StableHlo.TRef.unary main_call2.cst main_call2.v0 (broadcastInDim S4096x12x64 ![] bcast_S_S4096x12x64),
    StableHlo.TRef.binary (.of main_v61 : StableHlo.TRef sig ⟨S4096x12x64, .f32⟩) main_call2.v0 main_call2.v1 maximumf ]

theorem sG_sub : (sG : List (HloOp τ sig (Elt F))).Forall fun op => op.bufs ⊆ StableHlo.tcRefs τ sig :=
  ⟨StableHlo.binary_bufs_sub .., StableHlo.binary_bufs_sub .., StableHlo.nullary_bufs_sub .., StableHlo.unary_bufs_sub .., StableHlo.binary_bufs_sub ..⟩

theorem sG_fresh : (sG : List (HloOp τ sig (Elt F))).Forall fun op => op.fresh = ∅ :=
  ⟨rfl, rfl, rfl, rfl, rfl⟩

/-- Eight operations: the second-hop node ids wrapped into range, as a `4096×12×12×1` index array (`main_v68`). -/
abbrev sH : List (HloOp τ sig (Elt F)) :=
  [ StableHlo.nullary main_c_13 (constantI S_ 32 0#32),
    StableHlo.unary main_c_13 main_v63 (broadcastInDim S4096x12x12 ![] bcast_S_S4096x12x12 : (⟨S_, .i32⟩ : BufTy).Contents (Elt F) → (⟨S4096x12x12, .i32⟩ : BufTy).Contents (Elt F)),
    StableHlo.binary main_v53 main_v63 main_v64 (cmpi .slt : (⟨S4096x12x12, .i32⟩ : BufTy).Contents (Elt F) → (⟨S4096x12x12, .i32⟩ : BufTy).Contents (Elt F) → (⟨S4096x12x12, .i1⟩ : BufTy).Contents (Elt F)),
    StableHlo.nullary main_c_14 (constantI S_ 32 100000#32),
    StableHlo.unary main_c_14 main_v65 (broadcastInDim S4096x12x12 ![] bcast_S_S4096x12x12 : (⟨S_, .i32⟩ : BufTy).Contents (Elt F) → (⟨S4096x12x12, .i32⟩ : BufTy).Contents (Elt F)),
    StableHlo.binary main_v53 main_v65 main_v66 (addi : (⟨S4096x12x12, .i32⟩ : BufTy).Contents (Elt F) → (⟨S4096x12x12, .i32⟩ : BufTy).Contents (Elt F) → (⟨S4096x12x12, .i32⟩ : BufTy).Contents (Elt F)),
    StableHlo.ternary main_v64 main_v66 main_v53 main_v67 (select : (⟨S4096x12x12, .i1⟩ : BufTy).Contents (Elt F) → (⟨S4096x12x12, .i32⟩ : BufTy).Contents (Elt F) → (⟨S4096x12x12, .i32⟩ : BufTy).Contents (Elt F) → (⟨S4096x12x12, .i32⟩ : BufTy).Contents (Elt F)),
    StableHlo.unary main_v67 main_v68 (broadcastInDim S4096x12x12x1 ![0, 1, 2] bcast_S4096x12x12_S4096x12x12x1_0_1_2 : (⟨S4096x12x12, .i32⟩ : BufTy).Contents (Elt F) → (⟨S4096x12x12x1, .i32⟩ : BufTy).Contents (Elt F)) ]

theorem sH_sub : (sH : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub ..⟩

theorem sH_fresh : (sH : List (HloOp τ sig (Elt F))).Forall fun op => op.fresh = ∅ :=
  ⟨rfl, rfl, rfl, rfl, rfl, rfl, rfl, rfl⟩

/-- Five operations: the second-hop feature rows gathered, encoded, and their positive part (`main_v71`). -/
abbrev sI : List (HloOp τ sig (Elt F)) :=
  [ StableHlo.binary main_arg6 main_v68 main_v69 ((fun x i => Host.gather gather_S100000x128_S4096x12x12x1_S4096x12x12x128_3_0_n_n_0_3_1128 x i) : (⟨S100000x128, .f32⟩ : BufTy).Contents (Elt F) → (⟨S4096x12x12x1, .i32⟩ : BufTy).Contents (Elt F) → (⟨S4096x12x12x128, .f32⟩ : BufTy).Contents (Elt F)),
    StableHlo.binary main_v69 main_arg7 main_v70 ((fun l r => Host.dotGeneral dot_S4096x12x12x128_S64x128_S4096x12x12x64_3_1_012_0_n_n none l r) : (⟨S4096x12x12x128, .f32⟩ : BufTy).Contents (Elt F) → (⟨S64x128, .f32⟩ : BufTy).Contents (Elt F) → (⟨S4096x12x12x64, .f32⟩ : BufTy).Contents (Elt F)),
    StableHlo.TRef.nullary main_call3.cst (constant S_ .f32 0x00000000#32),
    StableHlo.TRef.unary main_call3.cst main_call3.v0 (broadcastInDim S4096x12x12x64 ![] bcast_S_S4096x12x12x64),
    StableHlo.TRef.binary (.of main_v70 : StableHlo.TRef sig ⟨S4096x12x12x64, .f32⟩) main_call3.v0 main_call3.v1 maximumf ]

theorem sI_sub : (sI : List (HloOp τ sig (Elt F))).Forall fun op => op.bufs ⊆ StableHlo.tcRefs τ sig :=
  ⟨StableHlo.binary_bufs_sub .., StableHlo.binary_bufs_sub .., StableHlo.nullary_bufs_sub .., StableHlo.unary_bufs_sub .., StableHlo.binary_bufs_sub ..⟩

theorem sI_fresh : (sI : List (HloOp τ sig (Elt F))).Forall fun op => op.fresh = ∅ :=
  ⟨rfl, rfl, rfl, rfl, rfl⟩

/-- The 31 operations of the head: the mean over the second hop, the side-by-side rows, the three affine layers and the mean over the first hop (`main_v94`). -/
abbrev sJ : List (HloOp τ sig (Elt F)) :=
  [ StableHlo.nullary main_cst (constant S_ .f32 0x00000000#32),
    StableHlo.binary main_v71 main_cst main_v72 ((fun x v => Host.reduceAdd x v reducesTo_S4096x12x12x64_S4096x12x64_d2 h_S_) : (⟨S4096x12x12x64, .f32⟩ : BufTy).Contents (Elt F) → (⟨S_, .f32⟩ : BufTy).Contents (Elt F) → (⟨S4096x12x64, .f32⟩ : BufTy).Contents (Elt F)),
    StableHlo.nullary main_cst_15 (constant S_ .f32 0x41400000#32),
    StableHlo.unary main_cst_15 main_v73 (broadcastInDim S4096x12x64 ![] bcast_S_S4096x12x64 : (⟨S_, .f32⟩ : BufTy).Contents (Elt F) → (⟨S4096x12x64, .f32⟩ : BufTy).Contents (Elt F)),
    StableHlo.binary main_v72 main_v73 main_v74 (Host.divf : (⟨S4096x12x64, .f32⟩ : BufTy).Contents (Elt F) → (⟨S4096x12x64, .f32⟩ : BufTy).Contents (Elt F) → (⟨S4096x12x64, .f32⟩ : BufTy).Contents (Elt F)),
    StableHlo.binary main_v62 main_v74 main_v75 ((fun a b => concatenate S4096x12x128 2 [⟨S4096x12x64, a⟩, ⟨S4096x12x64, b⟩] concatenates_S4096x12x64_S4096x12x64_S4096x12x128_d2) : (⟨S4096x12x64, .f32⟩ : BufTy).Contents (Elt F) → (⟨S4096x12x64, .f32⟩ : BufTy).Contents (Elt F) → (⟨S4096x12x128, .f32⟩ : BufTy).Contents (Elt F)),
    StableHlo.binary main_v75 main_arg8 main_v76 ((fun l r => Host.dotGeneral dot_S4096x12x128_S64x128_S4096x12x64_2_1_01_0_n_n none l r) : (⟨S4096x12x128, .f32⟩ : BufTy).Contents (Elt F) → (⟨S64x128, .f32⟩ : BufTy).Contents (Elt F) → (⟨S4096x12x64, .f32⟩ : BufTy).Contents (Elt F)),
    StableHlo.unary main_arg9 main_v77 (broadcastInDim S1x1x64 ![2] bcast_S64_S1x1x64_2 : (⟨S64, .f32⟩ : BufTy).Contents (Elt F) → (⟨S1x1x64, .f32⟩ : BufTy).Contents (Elt F)),
    StableHlo.unary main_v77 main_v78 (broadcastInDim S4096x12x64 ![0, 1, 2] bcast_S1x1x64_S4096x12x64_0_1_2 : (⟨S1x1x64, .f32⟩ : BufTy).Contents (Elt F) → (⟨S4096x12x64, .f32⟩ : BufTy).Contents (Elt F)),
    StableHlo.binary main_v76 main_v78 main_v79 (addf : (⟨S4096x12x64, .f32⟩ : BufTy).Contents (Elt F) → (⟨S4096x12x64, .f32⟩ : BufTy).Contents (Elt F) → (⟨S4096x12x64, .f32⟩ : BufTy).Contents (Elt F)),
    StableHlo.TRef.nullary main_call4.cst (constant S_ .f32 0x00000000#32),
    StableHlo.TRef.unary main_call4.cst main_call4.v0 (broadcastInDim S4096x12x64 ![] bcast_S_S4096x12x64),
    StableHlo.TRef.binary (.of main_v79 : StableHlo.TRef sig ⟨S4096x12x64, .f32⟩) main_call4.v0 main_call4.v1 maximumf,
    StableHlo.nullary main_cst_16 (constant S_ .f32 0x00000000#32),
    StableHlo.binary main_v80 main_cst_16 main_v81 ((fun x v => Host.reduceAdd x v reducesTo_S4096x12x64_S4096x64_d1 h_S_) : (⟨S4096x12x64, .f32⟩ : BufTy).Contents (Elt F) → (⟨S_, .f32⟩ : BufTy).Contents (Elt F) → (⟨S4096x64, .f32⟩ : BufTy).Contents (Elt F)),
    StableHlo.nullary main_cst_17 (constant S_ .f32 0x41400000#32),
    StableHlo.unary main_cst_17 main_v82 (broadcastInDim S4096x64 ![] bcast_S_S4096x64 : (⟨S_, .f32⟩ : BufTy).Contents (Elt F) → (⟨S4096x64, .f32⟩ : BufTy).Contents (Elt F)),
    StableHlo.binary main_v81 main_v82 main_v83 (Host.divf : (⟨S4096x64, .f32⟩ : BufTy).Contents (Elt F) → (⟨S4096x64, .f32⟩ : BufTy).Contents (Elt F) → (⟨S4096x64, .f32⟩ : BufTy).Contents (Elt F)),
    StableHlo.unary main_arg10 main_v84 ((transpose S64x64 [1, 0] · transposes_S64x64_S64x64_1_0) : (⟨S64x64, .f32⟩ : BufTy).Contents (Elt F) → (⟨S64x64, .f32⟩ : BufTy).Contents (Elt F)),
    StableHlo.binary main_v83 main_v84 main_v85 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    StableHlo.unary main_arg11 main_v86 (broadcastInDim S1x64 ![1] bcast_S64_S1x64_1 : (⟨S64, .f32⟩ : BufTy).Contents (Elt F) → (⟨S1x64, .f32⟩ : BufTy).Contents (Elt F)),
    StableHlo.unary main_v86 main_v87 (broadcastInDim S4096x64 ![0, 1] bcast_S1x64_S4096x64_0_1 : (⟨S1x64, .f32⟩ : BufTy).Contents (Elt F) → (⟨S4096x64, .f32⟩ : BufTy).Contents (Elt F)),
    StableHlo.binary main_v85 main_v87 main_v88 (addf : (⟨S4096x64, .f32⟩ : BufTy).Contents (Elt F) → (⟨S4096x64, .f32⟩ : BufTy).Contents (Elt F) → (⟨S4096x64, .f32⟩ : BufTy).Contents (Elt F)),
    StableHlo.TRef.nullary main_call5.cst (constant S_ .f32 0x00000000#32),
    StableHlo.TRef.unary main_call5.cst main_call5.v0 (broadcastInDim S4096x64 ![] bcast_S_S4096x64),
    StableHlo.TRef.binary (.of main_v88 : StableHlo.TRef sig ⟨S4096x64, .f32⟩) main_call5.v0 main_call5.v1 maximumf,
    StableHlo.unary main_arg12 main_v90 ((transpose S64x16 [1, 0] · transposes_S16x64_S64x16_1_0) : (⟨S16x64, .f32⟩ : BufTy).Contents (Elt F) → (⟨S64x16, .f32⟩ : BufTy).Contents (Elt F)),
    StableHlo.binary main_v89 main_v90 main_v91 ((fun l r => Host.dotGeneral dot_S4096x64_S64x16_S4096x16_1_0_0_1_n_n none l r) : (⟨S4096x64, .f32⟩ : BufTy).Contents (Elt F) → (⟨S64x16, .f32⟩ : BufTy).Contents (Elt F) → (⟨S4096x16, .f32⟩ : BufTy).Contents (Elt F)),
    StableHlo.unary main_arg13 main_v92 (broadcastInDim S1x16 ![1] bcast_S16_S1x16_1 : (⟨S16, .f32⟩ : BufTy).Contents (Elt F) → (⟨S1x16, .f32⟩ : BufTy).Contents (Elt F)),
    StableHlo.unary main_v92 main_v93 (broadcastInDim S4096x16 ![0, 1] bcast_S1x16_S4096x16_0_1 : (⟨S1x16, .f32⟩ : BufTy).Contents (Elt F) → (⟨S4096x16, .f32⟩ : BufTy).Contents (Elt F)),
    StableHlo.binary main_v91 main_v93 main_v94 (addf : (⟨S4096x16, .f32⟩ : BufTy).Contents (Elt F) → (⟨S4096x16, .f32⟩ : BufTy).Contents (Elt F) → (⟨S4096x16, .f32⟩ : BufTy).Contents (Elt F)) ]

theorem sJ_sub : (sJ : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩

theorem sJ_fresh : (sJ : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ## The program is the sequence of the list -/

/-- The first window's 104 operations. -/
abbrev ops0 : List (HloOp τ sig (Elt F)) := sA ++ (sB ++ (sC ++ (sD ++ sE0)))
/-- The second window's 63 operations. -/
abbrev ops1 : List (HloOp τ sig (Elt F)) := sE1 ++ (sF ++ (sG ++ (sH ++ (sI ++ sJ))))
/-- All 167 operations, in order. -/
abbrev ops : List (HloOp τ sig (Elt F)) := ops0 ++ ops1

/-- A property of every entry of two lists holds of every entry of their concatenation. -/
theorem forall_append {α : Type _} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

set_option maxRecDepth 8192 in
set_option maxHeartbeats 4000000 in
/-- The first window is its five stretches run in order: the two calls unfolded at their bodies and the
    records at their fields, both sides are one chain of steps once sequencing is reassociated. -/
theorem main_part0_chain (c : Dev nD) : main_part0 (F := F) c
    = (StableHlo.seq sA >>= fun _ => StableHlo.seq sB >>= fun _ => StableHlo.seq sC >>= fun _ =>
        StableHlo.seq sD >>= fun _ => StableHlo.seq sE0) := by
  simp only [main_part0, fn_remainder.body, fn_where.body, fn_remainder_0.body, fn_where_1.body, StableHlo.seq,
    bind_assoc, pure_bind]
  rfl

set_option maxRecDepth 8192 in
set_option maxHeartbeats 4000000 in
/-- The second window is its six stretches run in order. -/
theorem main_part1_chain (c : Dev nD) : main_part1 (F := F) c
    = (StableHlo.seq sE1 >>= fun _ => StableHlo.seq sF >>= fun _ => StableHlo.seq sG >>= fun _ =>
        StableHlo.seq sH >>= fun _ => StableHlo.seq sI >>= fun _ => StableHlo.seq sJ) := by
  simp only [main_part1, fn_relu.body, fn_relu_2.body, fn_relu_3.body, StableHlo.seq, bind_assoc, pure_bind]

theorem main_part0_eq (c : Dev nD) : main_part0 (F := F) c = StableHlo.seq ops0 := by
  rw [main_part0_chain c]
  simp only [ops0, StableHlo.seq_append]

theorem main_part1_eq (c : Dev nD) : main_part1 (F := F) c = StableHlo.seq ops1 := by
  rw [main_part1_chain c]
  simp only [ops1, StableHlo.seq_append]

/-- The program is the sequence of all its operations: the two windows run one after the other are their
    concatenation run as one. -/
theorem main_eq (c : Dev nD) : main (F := F) c = StableHlo.seq ops := by
  show (main_part0 c >>= fun _ => main_part1 c) = _
  rw [main_part0_eq c, main_part1_eq c, ← StableHlo.seq_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ StableHlo.tcRefs τ sig :=
  forall_append
    (forall_append sA_sub (forall_append sB_sub (forall_append sC_sub (forall_append sD_sub sE0_sub))))
    (forall_append sE1_sub (forall_append sF_sub (forall_append sG_sub (forall_append sH_sub (forall_append sI_sub sJ_sub)))))

theorem ops_fresh : (ops : List (HloOp τ sig (Elt F))).Forall fun op => op.fresh = ∅ :=
  forall_append
    (forall_append sA_fresh (forall_append sB_fresh (forall_append sC_fresh (forall_append sD_fresh sE0_fresh))))
    (forall_append sE1_fresh (forall_append sF_fresh (forall_append sG_fresh (forall_append sH_fresh (forall_append sI_fresh sJ_fresh)))))

/-- On every device, for any float values, from any memory with zero counters: every weakly fair execution of
    the program terminates, and every final state has each buffer at the fold of the operations' results over
    the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = StableHlo.after ops (StableHlo.launchContents m c) (b : DevRef τ sig) :=
  StableHlo.run_seq scopedRefs_eq scopedSems_eq defs main (fun _ => ops) main_eq (fun _ => ops_sub) m ρ
    (fun _ => List.forall_iff_forall_mem.1 ops_fresh)

end Cert.ReferenceIdeal.RefValue

end
-- ==== Proof.RefRead.lean ====
/-
  The reference program's result, read at an index.

  The run of the program (its 167 operations folded over the launch contents) is studied stretch by stretch. For
  an ARBITRARY valuation of the buffers each stretch's outputs are named functions of the contents it reads: the
  sampled node indices through the staged index functions, the gathered rows encoded, and the head (means over
  the two hops, the side-by-side rows, three affine layers). The pure functions are then read at an index: a
  product contracted over one axis is a sum over that axis, a sum over one axis from the zero word is the plain
  sum, the quotient by the constant twelve is the product with one twelfth, the positive part is the maximum
  with zero, and the layout operations (side-by-side rows, transposes, spread biases) move indices.
  Composing the stretches gives the result buffer at `(b, o)` as the common function of the parameters read off
  the fourteen arguments, and every argument unchanged.
-/
import proofs.«174830_j1030792151555_1_alg».proof.Proof.RefRun
import proofs.«174830_j1030792151555_1_alg».proof.Proof.IdxSpec
import proofs.«174830_j1030792151555_1_alg».proof.Proof.LibRowOps
import Idealize.ShloMosaic.Lib.Pipeline.Frame

noncomputable section

open scoped BigOperators

namespace Cert.ReferenceIdeal.RefValue

open Cert.ReferenceIdeal Idealize.ShloMosaic Idealize.ShloMosaic.TcCoe Idealize.ShloMosaic.ValueIdx Idealize.SL.Sem
open Cert.ReferenceIdeal.Facts₀ Cert.ReferenceIdeal.Facts

variable [Facts] [Cert.KernelIdeal.Facts]

/-! ## What each stretch leaves alone

Every operation writes one buffer. A buffer not among those a stretch writes keeps its contents across the stretch. -/

/-- A single written buffer that is in a list lies in the set of that list's buffers. -/
theorem writes_sub_of_mem {Wl : List (Ref sig .tc)} {y : Ref sig .tc} (h : y ∈ Wl) :
    ({Proc.devRef (τ := τ) .tc y} : Finset (DevRef τ sig)) ⊆ (Wl.map (Proc.devRef (τ := τ) .tc)).toFinset := by
  intro x hx
  rw [Finset.mem_singleton] at hx
  subst hx
  exact List.mem_toFinset.2 (List.mem_map.2 ⟨y, h, rfl⟩)

/-- The buffers stretch `sA` writes. -/
abbrev sA_w : List (Ref sig .tc) :=
  [main_c, main_v0, main_v1, main_c_0, main_v2, main_v3, main_v4, main_v5, main_v6, main_v7]

theorem sA_writes : (sA : List (HloOp τ sig (Elt Ideal))).Forall fun op => op.writes ⊆ (sA_w.map (Proc.devRef (τ := τ) .tc)).toFinset :=
  ⟨writes_sub_of_mem (y := main_c) (by decide),
   writes_sub_of_mem (y := main_v0) (by decide),
   writes_sub_of_mem (y := main_v1) (by decide),
   writes_sub_of_mem (y := main_c_0) (by decide),
   writes_sub_of_mem (y := main_v2) (by decide),
   writes_sub_of_mem (y := main_v3) (by decide),
   writes_sub_of_mem (y := main_v4) (by decide),
   writes_sub_of_mem (y := main_v5) (by decide),
   writes_sub_of_mem (y := main_v6) (by decide),
   writes_sub_of_mem (y := main_v7) (by decide)⟩

theorem sA_frame (W : Valuation τ sig (Elt Ideal)) {r : Ref sig .tc} (hr : r ∉ sA_w) :
    StableHlo.after sA W (r : DevRef τ sig) = W (r : DevRef τ sig) :=
  StableHlo.after_of_writes_sub sA W sA_writes hr

/-- The buffers stretch `sB` writes. -/
abbrev sB_w : List (Ref sig .tc) :=
  [main_call0.c.ref, main_call0.v0.ref, main_call0.v1.ref, main_call0.c_0.ref, main_call0.v2.ref, main_call0.call0.v0.ref, main_call0.v4.ref, main_call0.v5.ref, main_call0.c_1.ref, main_call0.v6.ref, main_call0.v7.ref, main_call0.c_2.ref, main_call0.v8.ref, main_call0.v9.ref, main_call0.c_3.ref, main_call0.v10.ref, main_call0.v11.ref, main_call0.v12.ref, main_call0.v13.ref, main_call0.v14.ref, main_call0.v15.ref, main_call0.v16.ref, main_call0.v17.ref]

theorem sB_writes : (sB : List (HloOp τ sig (Elt Ideal))).Forall fun op => op.writes ⊆ (sB_w.map (Proc.devRef (τ := τ) .tc)).toFinset :=
  ⟨writes_sub_of_mem (y := main_call0.c.ref) (by decide),
   writes_sub_of_mem (y := main_call0.v0.ref) (by decide),
   writes_sub_of_mem (y := main_call0.v1.ref) (by decide),
   writes_sub_of_mem (y := main_call0.c_0.ref) (by decide),
   writes_sub_of_mem (y := main_call0.v2.ref) (by decide),
   writes_sub_of_mem (y := main_call0.call0.v0.ref) (by decide),
   writes_sub_of_mem (y := main_call0.v4.ref) (by decide),
   writes_sub_of_mem (y := main_call0.v5.ref) (by decide),
   writes_sub_of_mem (y := main_call0.c_1.ref) (by decide),
   writes_sub_of_mem (y := main_call0.v6.ref) (by decide),
   writes_sub_of_mem (y := main_call0.v7.ref) (by decide),
   writes_sub_of_mem (y := main_call0.c_2.ref) (by decide),
   writes_sub_of_mem (y := main_call0.v8.ref) (by decide),
   writes_sub_of_mem (y := main_call0.v9.ref) (by decide),
   writes_sub_of_mem (y := main_call0.c_3.ref) (by decide),
   writes_sub_of_mem (y := main_call0.v10.ref) (by decide),
   writes_sub_of_mem (y := main_call0.v11.ref) (by decide),
   writes_sub_of_mem (y := main_call0.v12.ref) (by decide),
   writes_sub_of_mem (y := main_call0.v13.ref) (by decide),
   writes_sub_of_mem (y := main_call0.v14.ref) (by decide),
   writes_sub_of_mem (y := main_call0.v15.ref) (by decide),
   writes_sub_of_mem (y := main_call0.v16.ref) (by decide),
   writes_sub_of_mem (y := main_call0.v17.ref) (by decide)⟩

theorem sB_frame (W : Valuation τ sig (Elt Ideal)) {r : Ref sig .tc} (hr : r ∉ sB_w) :
    StableHlo.after sB W (r : DevRef τ sig) = W (r : DevRef τ sig) :=
  StableHlo.after_of_writes_sub sB W sB_writes hr

/-- The buffers stretch `sC` writes. -/
abbrev sC_w : List (Ref sig .tc) :=
  [main_c_1, main_v9, main_v10, main_c_2, main_v11, main_v12, main_v13, main_v14, main_v15, main_v16, main_v17, main_v18, main_c_3, main_v19, main_v20, main_c_4, main_v21, main_v22, main_v23, main_v24, main_v25, main_v26, main_c_5, main_v27, main_v28, main_c_6, main_v29, main_v30, main_v31, main_v32, main_v33, main_v34]

theorem sC_writes : (sC : List (HloOp τ sig (Elt Ideal))).Forall fun op => op.writes ⊆ (sC_w.map (Proc.devRef (τ := τ) .tc)).toFinset :=
  ⟨writes_sub_of_mem (y := main_c_1) (by decide),
   writes_sub_of_mem (y := main_v9) (by decide),
   writes_sub_of_mem (y := main_v10) (by decide),
   writes_sub_of_mem (y := main_c_2) (by decide),
   writes_sub_of_mem (y := main_v11) (by decide),
   writes_sub_of_mem (y := main_v12) (by decide),
   writes_sub_of_mem (y := main_v13) (by decide),
   writes_sub_of_mem (y := main_v14) (by decide),
   writes_sub_of_mem (y := main_v15) (by decide),
   writes_sub_of_mem (y := main_v16) (by decide),
   writes_sub_of_mem (y := main_v17) (by decide),
   writes_sub_of_mem (y := main_v18) (by decide),
   writes_sub_of_mem (y := main_c_3) (by decide),
   writes_sub_of_mem (y := main_v19) (by decide),
   writes_sub_of_mem (y := main_v20) (by decide),
   writes_sub_of_mem (y := main_c_4) (by decide),
   writes_sub_of_mem (y := main_v21) (by decide),
   writes_sub_of_mem (y := main_v22) (by decide),
   writes_sub_of_mem (y := main_v23) (by decide),
   writes_sub_of_mem (y := main_v24) (by decide),
   writes_sub_of_mem (y := main_v25) (by decide),
   writes_sub_of_mem (y := main_v26) (by decide),
   writes_sub_of_mem (y := main_c_5) (by decide),
   writes_sub_of_mem (y := main_v27) (by decide),
   writes_sub_of_mem (y := main_v28) (by decide),
   writes_sub_of_mem (y := main_c_6) (by decide),
   writes_sub_of_mem (y := main_v29) (by decide),
   writes_sub_of_mem (y := main_v30) (by decide),
   writes_sub_of_mem (y := main_v31) (by decide),
   writes_sub_of_mem (y := main_v32) (by decide),
   writes_sub_of_mem (y := main_v33) (by decide),
   writes_sub_of_mem (y := main_v34) (by decide)⟩

theorem sC_frame (W : Valuation τ sig (Elt Ideal)) {r : Ref sig .tc} (hr : r ∉ sC_w) :
    StableHlo.after sC W (r : DevRef τ sig) = W (r : DevRef τ sig) :=
  StableHlo.after_of_writes_sub sC W sC_writes hr

/-- The buffers stretch `sD` writes. -/
abbrev sD_w : List (Ref sig .tc) :=
  [main_call1.c.ref, main_call1.v0.ref, main_call1.v1.ref, main_call1.c_0.ref, main_call1.v2.ref, main_call1.call0.v0.ref, main_call1.v4.ref, main_call1.v5.ref, main_call1.c_1.ref, main_call1.v6.ref, main_call1.v7.ref, main_call1.c_2.ref, main_call1.v8.ref, main_call1.v9.ref, main_call1.c_3.ref, main_call1.v10.ref, main_call1.v11.ref, main_call1.v12.ref, main_call1.v13.ref, main_call1.v14.ref, main_call1.v15.ref, main_call1.v16.ref, main_call1.v17.ref]

theorem sD_writes : (sD : List (HloOp τ sig (Elt Ideal))).Forall fun op => op.writes ⊆ (sD_w.map (Proc.devRef (τ := τ) .tc)).toFinset :=
  ⟨writes_sub_of_mem (y := main_call1.c.ref) (by decide),
   writes_sub_of_mem (y := main_call1.v0.ref) (by decide),
   writes_sub_of_mem (y := main_call1.v1.ref) (by decide),
   writes_sub_of_mem (y := main_call1.c_0.ref) (by decide),
   writes_sub_of_mem (y := main_call1.v2.ref) (by decide),
   writes_sub_of_mem (y := main_call1.call0.v0.ref) (by decide),
   writes_sub_of_mem (y := main_call1.v4.ref) (by decide),
   writes_sub_of_mem (y := main_call1.v5.ref) (by decide),
   writes_sub_of_mem (y := main_call1.c_1.ref) (by decide),
   writes_sub_of_mem (y := main_call1.v6.ref) (by decide),
   writes_sub_of_mem (y := main_call1.v7.ref) (by decide),
   writes_sub_of_mem (y := main_call1.c_2.ref) (by decide),
   writes_sub_of_mem (y := main_call1.v8.ref) (by decide),
   writes_sub_of_mem (y := main_call1.v9.ref) (by decide),
   writes_sub_of_mem (y := main_call1.c_3.ref) (by decide),
   writes_sub_of_mem (y := main_call1.v10.ref) (by decide),
   writes_sub_of_mem (y := main_call1.v11.ref) (by decide),
   writes_sub_of_mem (y := main_call1.v12.ref) (by decide),
   writes_sub_of_mem (y := main_call1.v13.ref) (by decide),
   writes_sub_of_mem (y := main_call1.v14.ref) (by decide),
   writes_sub_of_mem (y := main_call1.v15.ref) (by decide),
   writes_sub_of_mem (y := main_call1.v16.ref) (by decide),
   writes_sub_of_mem (y := main_call1.v17.ref) (by decide)⟩

theorem sD_frame (W : Valuation τ sig (Elt Ideal)) {r : Ref sig .tc} (hr : r ∉ sD_w) :
    StableHlo.after sD W (r : DevRef τ sig) = W (r : DevRef τ sig) :=
  StableHlo.after_of_writes_sub sD W sD_writes hr

/-- The buffers stretch `sE0` writes. -/
abbrev sE0_w : List (Ref sig .tc) :=
  [main_c_7, main_v36, main_v37, main_c_8, main_v38, main_v39, main_v40, main_v41, main_v42, main_v43, main_v44, main_v45, main_c_9, main_v46, main_v47, main_c_10]

theorem sE0_writes : (sE0 : List (HloOp τ sig (Elt Ideal))).Forall fun op => op.writes ⊆ (sE0_w.map (Proc.devRef (τ := τ) .tc)).toFinset :=
  ⟨writes_sub_of_mem (y := main_c_7) (by decide),
   writes_sub_of_mem (y := main_v36) (by decide),
   writes_sub_of_mem (y := main_v37) (by decide),
   writes_sub_of_mem (y := main_c_8) (by decide),
   writes_sub_of_mem (y := main_v38) (by decide),
   writes_sub_of_mem (y := main_v39) (by decide),
   writes_sub_of_mem (y := main_v40) (by decide),
   writes_sub_of_mem (y := main_v41) (by decide),
   writes_sub_of_mem (y := main_v42) (by decide),
   writes_sub_of_mem (y := main_v43) (by decide),
   writes_sub_of_mem (y := main_v44) (by decide),
   writes_sub_of_mem (y := main_v45) (by decide),
   writes_sub_of_mem (y := main_c_9) (by decide),
   writes_sub_of_mem (y := main_v46) (by decide),
   writes_sub_of_mem (y := main_v47) (by decide),
   writes_sub_of_mem (y := main_c_10) (by decide)⟩

theorem sE0_frame (W : Valuation τ sig (Elt Ideal)) {r : Ref sig .tc} (hr : r ∉ sE0_w) :
    StableHlo.after sE0 W (r : DevRef τ sig) = W (r : DevRef τ sig) :=
  StableHlo.after_of_writes_sub sE0 W sE0_writes hr

/-- The buffers stretch `sE1` writes. -/
abbrev sE1_w : List (Ref sig .tc) :=
  [main_v48, main_v49, main_v50, main_v51, main_v52, main_v53]

theorem sE1_writes : (sE1 : List (HloOp τ sig (Elt Ideal))).Forall fun op => op.writes ⊆ (sE1_w.map (Proc.devRef (τ := τ) .tc)).toFinset :=
  ⟨writes_sub_of_mem (y := main_v48) (by decide),
   writes_sub_of_mem (y := main_v49) (by decide),
   writes_sub_of_mem (y := main_v50) (by decide),
   writes_sub_of_mem (y := main_v51) (by decide),
   writes_sub_of_mem (y := main_v52) (by decide),
   writes_sub_of_mem (y := main_v53) (by decide)⟩

theorem sE1_frame (W : Valuation τ sig (Elt Ideal)) {r : Ref sig .tc} (hr : r ∉ sE1_w) :
    StableHlo.after sE1 W (r : DevRef τ sig) = W (r : DevRef τ sig) :=
  StableHlo.after_of_writes_sub sE1 W sE1_writes hr

/-- The buffers stretch `sF` writes. -/
abbrev sF_w : List (Ref sig .tc) :=
  [main_c_11, main_v54, main_v55, main_c_12, main_v56, main_v57, main_v58, main_v59]

theorem sF_writes : (sF : List (HloOp τ sig (Elt Ideal))).Forall fun op => op.writes ⊆ (sF_w.map (Proc.devRef (τ := τ) .tc)).toFinset :=
  ⟨writes_sub_of_mem (y := main_c_11) (by decide),
   writes_sub_of_mem (y := main_v54) (by decide),
   writes_sub_of_mem (y := main_v55) (by decide),
   writes_sub_of_mem (y := main_c_12) (by decide),
   writes_sub_of_mem (y := main_v56) (by decide),
   writes_sub_of_mem (y := main_v57) (by decide),
   writes_sub_of_mem (y := main_v58) (by decide),
   writes_sub_of_mem (y := main_v59) (by decide)⟩

theorem sF_frame (W : Valuation τ sig (Elt Ideal)) {r : Ref sig .tc} (hr : r ∉ sF_w) :
    StableHlo.after sF W (r : DevRef τ sig) = W (r : DevRef τ sig) :=
  StableHlo.after_of_writes_sub sF W sF_writes hr

/-- The buffers stretch `sG` writes. -/
abbrev sG_w : List (Ref sig .tc) :=
  [main_v60, main_v61, main_call2.cst.ref, main_call2.v0.ref, main_call2.v1.ref]

theorem sG_writes : (sG : List (HloOp τ sig (Elt Ideal))).Forall fun op => op.writes ⊆ (sG_w.map (Proc.devRef (τ := τ) .tc)).toFinset :=
  ⟨writes_sub_of_mem (y := main_v60) (by decide),
   writes_sub_of_mem (y := main_v61) (by decide),
   writes_sub_of_mem (y := main_call2.cst.ref) (by decide),
   writes_sub_of_mem (y := main_call2.v0.ref) (by decide),
   writes_sub_of_mem (y := main_call2.v1.ref) (by decide)⟩

theorem sG_frame (W : Valuation τ sig (Elt Ideal)) {r : Ref sig .tc} (hr : r ∉ sG_w) :
    StableHlo.after sG W (r : DevRef τ sig) = W (r : DevRef τ sig) :=
  StableHlo.after_of_writes_sub sG W sG_writes hr

/-- The buffers stretch `sH` writes. -/
abbrev sH_w : List (Ref sig .tc) :=
  [main_c_13, main_v63, main_v64, main_c_14, main_v65, main_v66, main_v67, main_v68]

theorem sH_writes : (sH : List (HloOp τ sig (Elt Ideal))).Forall fun op => op.writes ⊆ (sH_w.map (Proc.devRef (τ := τ) .tc)).toFinset :=
  ⟨writes_sub_of_mem (y := main_c_13) (by decide),
   writes_sub_of_mem (y := main_v63) (by decide),
   writes_sub_of_mem (y := main_v64) (by decide),
   writes_sub_of_mem (y := main_c_14) (by decide),
   writes_sub_of_mem (y := main_v65) (by decide),
   writes_sub_of_mem (y := main_v66) (by decide),
   writes_sub_of_mem (y := main_v67) (by decide),
   writes_sub_of_mem (y := main_v68) (by decide)⟩

theorem sH_frame (W : Valuation τ sig (Elt Ideal)) {r : Ref sig .tc} (hr : r ∉ sH_w) :
    StableHlo.after sH W (r : DevRef τ sig) = W (r : DevRef τ sig) :=
  StableHlo.after_of_writes_sub sH W sH_writes hr

/-- The buffers stretch `sI` writes. -/
abbrev sI_w : List (Ref sig .tc) :=
  [main_v69, main_v70, main_call3.cst.ref, main_call3.v0.ref, main_call3.v1.ref]

theorem sI_writes : (sI : List (HloOp τ sig (Elt Ideal))).Forall fun op => op.writes ⊆ (sI_w.map (Proc.devRef (τ := τ) .tc)).toFinset :=
  ⟨writes_sub_of_mem (y := main_v69) (by decide),
   writes_sub_of_mem (y := main_v70) (by decide),
   writes_sub_of_mem (y := main_call3.cst.ref) (by decide),
   writes_sub_of_mem (y := main_call3.v0.ref) (by decide),
   writes_sub_of_mem (y := main_call3.v1.ref) (by decide)⟩

theorem sI_frame (W : Valuation τ sig (Elt Ideal)) {r : Ref sig .tc} (hr : r ∉ sI_w) :
    StableHlo.after sI W (r : DevRef τ sig) = W (r : DevRef τ sig) :=
  StableHlo.after_of_writes_sub sI W sI_writes hr

/-- The buffers stretch `sJ` writes. -/
abbrev sJ_w : List (Ref sig .tc) :=
  [main_cst, main_v72, main_cst_15, main_v73, main_v74, main_v75, main_v76, main_v77, main_v78, main_v79, main_call4.cst.ref, main_call4.v0.ref, main_call4.v1.ref, main_cst_16, main_v81, main_cst_17, main_v82, main_v83, main_v84, main_v85, main_v86, main_v87, main_v88, main_call5.cst.ref, main_call5.v0.ref, main_call5.v1.ref, main_v90, main_v91, main_v92, main_v93, main_v94]

theorem sJ_writes : (sJ : List (HloOp τ sig (Elt Ideal))).Forall fun op => op.writes ⊆ (sJ_w.map (Proc.devRef (τ := τ) .tc)).toFinset :=
  ⟨writes_sub_of_mem (y := main_cst) (by decide),
   writes_sub_of_mem (y := main_v72) (by decide),
   writes_sub_of_mem (y := main_cst_15) (by decide),
   writes_sub_of_mem (y := main_v73) (by decide),
   writes_sub_of_mem (y := main_v74) (by decide),
   writes_sub_of_mem (y := main_v75) (by decide),
   writes_sub_of_mem (y := main_v76) (by decide),
   writes_sub_of_mem (y := main_v77) (by decide),
   writes_sub_of_mem (y := main_v78) (by decide),
   writes_sub_of_mem (y := main_v79) (by decide),
   writes_sub_of_mem (y := main_call4.cst.ref) (by decide),
   writes_sub_of_mem (y := main_call4.v0.ref) (by decide),
   writes_sub_of_mem (y := main_call4.v1.ref) (by decide),
   writes_sub_of_mem (y := main_cst_16) (by decide),
   writes_sub_of_mem (y := main_v81) (by decide),
   writes_sub_of_mem (y := main_cst_17) (by decide),
   writes_sub_of_mem (y := main_v82) (by decide),
   writes_sub_of_mem (y := main_v83) (by decide),
   writes_sub_of_mem (y := main_v84) (by decide),
   writes_sub_of_mem (y := main_v85) (by decide),
   writes_sub_of_mem (y := main_v86) (by decide),
   writes_sub_of_mem (y := main_v87) (by decide),
   writes_sub_of_mem (y := main_v88) (by decide),
   writes_sub_of_mem (y := main_call5.cst.ref) (by decide),
   writes_sub_of_mem (y := main_call5.v0.ref) (by decide),
   writes_sub_of_mem (y := main_call5.v1.ref) (by decide),
   writes_sub_of_mem (y := main_v90) (by decide),
   writes_sub_of_mem (y := main_v91) (by decide),
   writes_sub_of_mem (y := main_v92) (by decide),
   writes_sub_of_mem (y := main_v93) (by decide),
   writes_sub_of_mem (y := main_v94) (by decide)⟩

theorem sJ_frame (W : Valuation τ sig (Elt Ideal)) {r : Ref sig .tc} (hr : r ∉ sJ_w) :
    StableHlo.after sJ W (r : DevRef τ sig) = W (r : DevRef τ sig) :=
  StableHlo.after_of_writes_sub sJ W sJ_writes hr

/-! ## The four products read at an index -/

/-- A `4096×12×128` array times a `64×128` one, each contracted over its last axis: entry `(b, k, h)` is the sum over `f` of left `(b, k, f)` times right `(h, f)`. -/
theorem dot3_apply (l : FVec Ideal S4096x12x128 .f32) (r : FVec Ideal S64x128 .f32) (b : Fin 4096) (k : Fin 12) (h : Fin 64) :
    Host.dotGeneral dot_S4096x12x128_S64x128_S4096x12x64_2_1_01_0_n_n none l r (ix3 b k h)
      = ∑ f : Fin 128, l (ix3 b k f) * r (ix2 h f) := by
  show FloatOps.dotGeneral dot_S4096x12x128_S64x128_S4096x12x64_2_1_01_0_n_n none .single l r (ix3 b k h) = _
  rw [Ideal.dotGeneral_apply]
  rw [← Equiv.sum_comp (contrEquiv1 dot_S4096x12x128_S64x128_S4096x12x64_2_1_01_0_n_n 128 rfl rfl).symm]
  refine Finset.sum_congr rfl fun f _ => ?_
  have hk := contrEquiv1_symm_val dot_S4096x12x128_S64x128_S4096x12x64_2_1_01_0_n_n 128 rfl rfl f
  have el : dot_S4096x12x128_S64x128_S4096x12x64_2_1_01_0_n_n.lhsIdx (ix3 b k h) ((contrEquiv1 dot_S4096x12x128_S64x128_S4096x12x64_2_1_01_0_n_n 128 rfl rfl).symm f) = ix3 b k f :=
    funext fun a => Fin.ext (by
      match a with
      | ⟨0, _⟩ => rfl
      | ⟨1, _⟩ => rfl
      | ⟨2, _⟩ => exact (dot_S4096x12x128_S64x128_S4096x12x64_2_1_01_0_n_n.lhsIdx_val_of_single rfl (ix3 b k h) _).trans hk)
  have er : dot_S4096x12x128_S64x128_S4096x12x64_2_1_01_0_n_n.rhsIdx (ix3 b k h) ((contrEquiv1 dot_S4096x12x128_S64x128_S4096x12x64_2_1_01_0_n_n 128 rfl rfl).symm f) = ix2 h f :=
    funext fun a => Fin.ext (by
      match a with
      | ⟨0, _⟩ => rfl
      | ⟨1, _⟩ => exact (dot_S4096x12x128_S64x128_S4096x12x64_2_1_01_0_n_n.rhsIdx_val_of_single rfl (ix3 b k h) _).trans hk)
  rw [el, er]

/-- A `4096×12×12×128` array times a `64×128` one, each contracted over its last axis: entry `(b, k, j, h)` is the sum over `f` of left `(b, k, j, f)` times right `(h, f)`. -/
theorem dot4_apply (l : FVec Ideal S4096x12x12x128 .f32) (r : FVec Ideal S64x128 .f32) (b : Fin 4096) (k j : Fin 12) (h : Fin 64) :
    Host.dotGeneral dot_S4096x12x12x128_S64x128_S4096x12x12x64_3_1_012_0_n_n none l r (ix4 b k j h)
      = ∑ f : Fin 128, l (ix4 b k j f) * r (ix2 h f) := by
  show FloatOps.dotGeneral dot_S4096x12x12x128_S64x128_S4096x12x12x64_3_1_012_0_n_n none .single l r (ix4 b k j h) = _
  rw [Ideal.dotGeneral_apply]
  rw [← Equiv.sum_comp (contrEquiv1 dot_S4096x12x12x128_S64x128_S4096x12x12x64_3_1_012_0_n_n 128 rfl rfl).symm]
  refine Finset.sum_congr rfl fun f _ => ?_
  have hk := contrEquiv1_symm_val dot_S4096x12x12x128_S64x128_S4096x12x12x64_3_1_012_0_n_n 128 rfl rfl f
  have el : dot_S4096x12x12x128_S64x128_S4096x12x12x64_3_1_012_0_n_n.lhsIdx (ix4 b k j h) ((contrEquiv1 dot_S4096x12x12x128_S64x128_S4096x12x12x64_3_1_012_0_n_n 128 rfl rfl).symm f) = ix4 b k j f :=
    funext fun a => Fin.ext (by
      match a with
      | ⟨0, _⟩ => rfl
      | ⟨1, _⟩ => rfl
      | ⟨2, _⟩ => rfl
      | ⟨3, _⟩ => exact (dot_S4096x12x12x128_S64x128_S4096x12x12x64_3_1_012_0_n_n.lhsIdx_val_of_single rfl (ix4 b k j h) _).trans hk)
  have er : dot_S4096x12x12x128_S64x128_S4096x12x12x64_3_1_012_0_n_n.rhsIdx (ix4 b k j h) ((contrEquiv1 dot_S4096x12x12x128_S64x128_S4096x12x12x64_3_1_012_0_n_n 128 rfl rfl).symm f) = ix2 h f :=
    funext fun a => Fin.ext (by
      match a with
      | ⟨0, _⟩ => rfl
      | ⟨1, _⟩ => exact (dot_S4096x12x12x128_S64x128_S4096x12x12x64_3_1_012_0_n_n.rhsIdx_val_of_single rfl (ix4 b k j h) _).trans hk)
  rw [el, er]

/-- A `4096×64` array times a `64×64` one: entry `(b, c)` is the sum over `c'` of left `(b, c')` times right `(c', c)`. -/
theorem dotP64_apply (l : FVec Ideal S4096x64 .f32) (r : FVec Ideal S64x64 .f32) (b : Fin 4096) (c : Fin 64) :
    Host.dotGeneral dot_S4096x64_S64x64_S4096x64_1_0_0_1_n_n none l r (ix2 b c)
      = ∑ c' : Fin 64, l (ix2 b c') * r (ix2 c' c) := by
  show FloatOps.dotGeneral dot_S4096x64_S64x64_S4096x64_1_0_0_1_n_n none .single l r (ix2 b c) = _
  rw [Ideal.dotGeneral_apply]
  rw [← Equiv.sum_comp (contrEquiv1 dot_S4096x64_S64x64_S4096x64_1_0_0_1_n_n 64 rfl rfl).symm]
  refine Finset.sum_congr rfl fun c' _ => ?_
  have hk := contrEquiv1_symm_val dot_S4096x64_S64x64_S4096x64_1_0_0_1_n_n 64 rfl rfl c'
  have el : dot_S4096x64_S64x64_S4096x64_1_0_0_1_n_n.lhsIdx (ix2 b c) ((contrEquiv1 dot_S4096x64_S64x64_S4096x64_1_0_0_1_n_n 64 rfl rfl).symm c') = ix2 b c' :=
    funext fun a => Fin.ext (by
      match a with
      | ⟨0, _⟩ => rfl
      | ⟨1, _⟩ => exact (dot_S4096x64_S64x64_S4096x64_1_0_0_1_n_n.lhsIdx_val_of_single rfl (ix2 b c) _).trans hk)
  have er : dot_S4096x64_S64x64_S4096x64_1_0_0_1_n_n.rhsIdx (ix2 b c) ((contrEquiv1 dot_S4096x64_S64x64_S4096x64_1_0_0_1_n_n 64 rfl rfl).symm c') = ix2 c' c :=
    funext fun a => Fin.ext (by
      match a with
      | ⟨0, _⟩ => exact (dot_S4096x64_S64x64_S4096x64_1_0_0_1_n_n.rhsIdx_val_of_single rfl (ix2 b c) _).trans hk
      | ⟨1, _⟩ => rfl)
  rw [el, er]

/-- A `4096×64` array times a `64×16` one: entry `(b, o)` is the sum over `c` of left `(b, c)` times right `(c, o)`. -/
theorem dotP16_apply (l : FVec Ideal S4096x64 .f32) (r : FVec Ideal S64x16 .f32) (b : Fin 4096) (o : Fin 16) :
    Host.dotGeneral dot_S4096x64_S64x16_S4096x16_1_0_0_1_n_n none l r (ix2 b o)
      = ∑ c : Fin 64, l (ix2 b c) * r (ix2 c o) := by
  show FloatOps.dotGeneral dot_S4096x64_S64x16_S4096x16_1_0_0_1_n_n none .single l r (ix2 b o) = _
  rw [Ideal.dotGeneral_apply]
  rw [← Equiv.sum_comp (contrEquiv1 dot_S4096x64_S64x16_S4096x16_1_0_0_1_n_n 64 rfl rfl).symm]
  refine Finset.sum_congr rfl fun c _ => ?_
  have hk := contrEquiv1_symm_val dot_S4096x64_S64x16_S4096x16_1_0_0_1_n_n 64 rfl rfl c
  have el : dot_S4096x64_S64x16_S4096x16_1_0_0_1_n_n.lhsIdx (ix2 b o) ((contrEquiv1 dot_S4096x64_S64x16_S4096x16_1_0_0_1_n_n 64 rfl rfl).symm c) = ix2 b c :=
    funext fun a => Fin.ext (by
      match a with
      | ⟨0, _⟩ => rfl
      | ⟨1, _⟩ => exact (dot_S4096x64_S64x16_S4096x16_1_0_0_1_n_n.lhsIdx_val_of_single rfl (ix2 b o) _).trans hk)
  have er : dot_S4096x64_S64x16_S4096x16_1_0_0_1_n_n.rhsIdx (ix2 b o) ((contrEquiv1 dot_S4096x64_S64x16_S4096x16_1_0_0_1_n_n 64 rfl rfl).symm c) = ix2 c o :=
    funext fun a => Fin.ext (by
      match a with
      | ⟨0, _⟩ => exact (dot_S4096x64_S64x16_S4096x16_1_0_0_1_n_n.rhsIdx_val_of_single rfl (ix2 b o) _).trans hk
      | ⟨1, _⟩ => rfl)
  rw [el, er]

/-! ## Sums over the twelve samples, the quotient by twelve, and layout -/

/-- The pattern of `12.0` denotes the real number twelve. -/
theorem ofBits_twelve : Ideal.ofBits .f32 0x41400000#32 = ((12 : ℝ) : EReal) := by
  simp [Ideal.ofBits, Ideal.ieee, -EReal.coe_mul]; norm_num

/-- The sum over the second-hop axis of a `4096×12×12×64` array from the zero word: entry `(b, k, h)` is the sum
    over `j` of the entries `(b, k, j, h)`. -/
theorem sum2_apply (x : FVec Ideal S4096x12x12x64 .f32) (b : Fin 4096) (k : Fin 12) (h : Fin 64) :
    Host.reduceAdd x (constant S_ .f32 0x00000000#32) reducesTo_S4096x12x12x64_S4096x12x64_d2 h_S_ (ix3 b k h)
      = ∑ j : Fin 12, x (ix4 b k j h) := by
  show Ideal.hostReduceAdd reducesTo_S4096x12x12x64_S4096x12x64_d2 x (Ideal.ofBits .f32 0x00000000#32) (ix3 b k h) = _
  rw [Ideal.hostReduceAdd_single reducesTo_S4096x12x12x64_S4096x12x64_d2 (by decide) x _ (ix3 b k h),
    Ideal.ofBits_zero_f32, zero_add]
  refine Finset.sum_congr rfl fun j _ => congrArg x (funext fun a => Fin.ext ?_)
  match a with
  | ⟨0, _⟩ => rfl
  | ⟨1, _⟩ => rfl
  | ⟨2, _⟩ => rfl
  | ⟨3, _⟩ => rfl

/-- The sum over the first-hop axis of a `4096×12×64` array from the zero word: entry `(b, c)` is the sum over `k`
    of the entries `(b, k, c)`. -/
theorem sum1_apply (x : FVec Ideal S4096x12x64 .f32) (b : Fin 4096) (c : Fin 64) :
    Host.reduceAdd x (constant S_ .f32 0x00000000#32) reducesTo_S4096x12x64_S4096x64_d1 h_S_ (ix2 b c)
      = ∑ k : Fin 12, x (ix3 b k c) := by
  show Ideal.hostReduceAdd reducesTo_S4096x12x64_S4096x64_d1 x (Ideal.ofBits .f32 0x00000000#32) (ix2 b c) = _
  rw [Ideal.hostReduceAdd_single reducesTo_S4096x12x64_S4096x64_d1 (by decide) x _ (ix2 b c),
    Ideal.ofBits_zero_f32, zero_add]
  refine Finset.sum_congr rfl fun k _ => congrArg x (funext fun a => Fin.ext ?_)
  match a with
  | ⟨0, _⟩ => rfl
  | ⟨1, _⟩ => rfl
  | ⟨2, _⟩ => rfl

/-- The quotient by the constant twelve spread over any shape is the product with one twelfth. -/
theorem div12_apply {t : Shape} (hb : S_.BroadcastsInDim t ![]) (y : FVec Ideal t .f32) (i : t.Idx) :
    Host.divf y (broadcastInDim t ![] hb (constant S_ .f32 0x41400000#32)) i = y i * Cert.Sage.twelfth := by
  rw [Cert.Lib.RowOps.hostDivf_apply, Cert.Lib.RowOps.splat_apply, ofBits_twelve, Cert.Sage.mul_twelfth_eq_div]

/-- The positive part against the zero constant spread over any shape. -/
theorem relu_apply {t : Shape} (hb : S_.BroadcastsInDim t ![]) (y : FVec Ideal t .f32) (i : t.Idx) :
    maximumf y (broadcastInDim t ![] hb (constant S_ .f32 0x00000000#32)) i = max (y i) 0 := by
  rw [maximumf_apply, Cert.Lib.RowOps.splat_apply, Ideal.ofBits_zero_f32]

/-- Two `4096×12×64` arrays laid side by side along the last axis, read at `(b, k, d)`. -/
theorem cat_apply (e a : FVec Ideal S4096x12x64 .f32) (b : Fin 4096) (k : Fin 12) (d : Fin 128) :
    concatenate S4096x12x128 2 [⟨S4096x12x64, e⟩, ⟨S4096x12x64, a⟩] concatenates_S4096x12x64_S4096x12x64_S4096x12x128_d2 (ix3 b k d)
      = Cert.Sage.catOf (fun h => e (ix3 b k h)) (fun h => a (ix3 b k h)) d := by
  unfold Cert.Sage.catOf
  by_cases hd : d.val < 64
  · rw [dif_pos hd]
    exact concatenate_pair_apply_left (2 : Fin 3) e a _ (ix3 b k d) rfl (ix3 b k ⟨d.val, hd⟩) (fun c => by
      match c with
      | ⟨0, _⟩ => rfl
      | ⟨1, _⟩ => rfl
      | ⟨2, _⟩ => rfl)
  · rw [dif_neg hd]
    exact concatenate_pair_apply_right (2 : Fin 3) e a _ (ix3 b k d) rfl rfl (ix3 b k ⟨d.val - 64, by have := d.isLt; omega⟩)
      (fun c hc => by
        match c with
        | ⟨0, _⟩ => rfl
        | ⟨1, _⟩ => rfl
        | ⟨2, _⟩ => exact absurd rfl hc)
      (by show d.val - 64 + 64 = d.val; omega)

/-- The transpose of a `64×64` array. -/
theorem tr64_apply (x : FVec Ideal S64x64 .f32) (c' c : Fin 64) :
    transpose S64x64 [1, 0] x transposes_S64x64_S64x64_1_0 (ix2 c' c) = x (ix2 c c') :=
  transpose_apply [1, 0] x _ (ix2 c' c) (ix2 c c') (fun a => by
    match a with
    | ⟨0, _⟩ => rfl
    | ⟨1, _⟩ => rfl)

/-- The transpose of a `16×64` array. -/
theorem tr16_apply (x : FVec Ideal S16x64 .f32) (c : Fin 64) (o : Fin 16) :
    transpose S64x16 [1, 0] x transposes_S16x64_S64x16_1_0 (ix2 c o) = x (ix2 o c) :=
  transpose_apply [1, 0] x _ (ix2 c o) (ix2 o c) (fun a => by
    match a with
    | ⟨0, _⟩ => rfl
    | ⟨1, _⟩ => rfl)

/-- A vector of 64 spread over a `4096×12×64` array in two steps, read at `(b, k, h)`. -/
theorem bias3_apply (v : FVec Ideal S64 .f32) (b : Fin 4096) (k : Fin 12) (h : Fin 64) :
    broadcastInDim S4096x12x64 ![0, 1, 2] bcast_S1x1x64_S4096x12x64_0_1_2
      (broadcastInDim S1x1x64 ![2] bcast_S64_S1x1x64_2 v) (ix3 b k h) = v (ix1 h) := by
  rw [broadcastInDim_apply ![0, 1, 2] bcast_S1x1x64_S4096x12x64_0_1_2 _ (ix3 b k h) (ix3 (0 : Fin 1) (0 : Fin 1) h) (fun a => by
    match a with
    | ⟨0, _⟩ => rfl
    | ⟨1, _⟩ => rfl
    | ⟨2, _⟩ => rfl)]
  rw [broadcastInDim_apply ![2] bcast_S64_S1x1x64_2 v (ix3 (0 : Fin 1) (0 : Fin 1) h) (ix1 h) (fun a => by
    match a with
    | ⟨0, _⟩ => rfl)]

/-! ## The stages of the float tail, as functions of arrays -/

/-- First-hop rows encoded: the linear map to 64 units, then the positive part. -/
def enc3 (x : FVec Ideal S4096x12x128 .f32) (w : FVec Ideal S64x128 .f32) : FVec Ideal S4096x12x64 .f32 :=
  maximumf (Host.dotGeneral dot_S4096x12x128_S64x128_S4096x12x64_2_1_01_0_n_n none x w) (broadcastInDim S4096x12x64 ![] bcast_S_S4096x12x64 (constant S_ .f32 0x00000000#32))

theorem enc3_apply (x : FVec Ideal S4096x12x128 .f32) (w : FVec Ideal S64x128 .f32) (b : Fin 4096) (k : Fin 12) (h : Fin 64) :
    enc3 x w (ix3 b k h) = Cert.Sage.enc (fun h f => w (ix2 h f)) (fun f => x (ix3 b k f)) h := by
  unfold enc3 Cert.Sage.enc
  rw [relu_apply, dot3_apply]

/-- Second-hop rows encoded. -/
def enc4 (x : FVec Ideal S4096x12x12x128 .f32) (w : FVec Ideal S64x128 .f32) : FVec Ideal S4096x12x12x64 .f32 :=
  maximumf (Host.dotGeneral dot_S4096x12x12x128_S64x128_S4096x12x12x64_3_1_012_0_n_n none x w) (broadcastInDim S4096x12x12x64 ![] bcast_S_S4096x12x12x64 (constant S_ .f32 0x00000000#32))

theorem enc4_apply (x : FVec Ideal S4096x12x12x128 .f32) (w : FVec Ideal S64x128 .f32) (b : Fin 4096) (k j : Fin 12) (h : Fin 64) :
    enc4 x w (ix4 b k j h) = Cert.Sage.enc (fun h f => w (ix2 h f)) (fun f => x (ix4 b k j f)) h := by
  unfold enc4 Cert.Sage.enc
  rw [relu_apply, dot4_apply]

/-- The mean over the second hop. -/
def avg2T (x : FVec Ideal S4096x12x12x64 .f32) : FVec Ideal S4096x12x64 .f32 :=
  Host.divf (Host.reduceAdd x (constant S_ .f32 0x00000000#32) reducesTo_S4096x12x12x64_S4096x12x64_d2 h_S_) (broadcastInDim S4096x12x64 ![] bcast_S_S4096x12x64 (constant S_ .f32 0x41400000#32))

theorem avg2T_apply (x : FVec Ideal S4096x12x12x64 .f32) (b : Fin 4096) (k : Fin 12) (h : Fin 64) :
    avg2T x (ix3 b k h) = Cert.Sage.mean12 fun j => x (ix4 b k j h) := by
  unfold avg2T Cert.Sage.mean12
  rw [div12_apply, sum2_apply]

/-- The first hidden layer over the side-by-side rows. -/
def h1T (e a : FVec Ideal S4096x12x64 .f32) (w : FVec Ideal S64x128 .f32) (bias : FVec Ideal S64 .f32) : FVec Ideal S4096x12x64 .f32 :=
  maximumf
    (addf (Host.dotGeneral dot_S4096x12x128_S64x128_S4096x12x64_2_1_01_0_n_n none
        (concatenate S4096x12x128 2 [⟨S4096x12x64, e⟩, ⟨S4096x12x64, a⟩] concatenates_S4096x12x64_S4096x12x64_S4096x12x128_d2) w)
      (broadcastInDim S4096x12x64 ![0, 1, 2] bcast_S1x1x64_S4096x12x64_0_1_2 (broadcastInDim S1x1x64 ![2] bcast_S64_S1x1x64_2 bias)))
    (broadcastInDim S4096x12x64 ![] bcast_S_S4096x12x64 (constant S_ .f32 0x00000000#32))

theorem h1T_apply (e a : FVec Ideal S4096x12x64 .f32) (w : FVec Ideal S64x128 .f32) (bias : FVec Ideal S64 .f32)
    (b : Fin 4096) (k : Fin 12) (h : Fin 64) :
    h1T e a w bias (ix3 b k h)
      = Cert.Sage.h1Of (Cert.Sage.catOf (fun h => e (ix3 b k h)) (fun h => a (ix3 b k h))) (fun h d => w (ix2 h d)) (fun h => bias (ix1 h)) h := by
  unfold h1T Cert.Sage.h1Of
  rw [relu_apply, addf_apply, dot3_apply, bias3_apply]
  simp only [cat_apply]

/-- The mean over the first hop. -/
def avg1T (x : FVec Ideal S4096x12x64 .f32) : FVec Ideal S4096x64 .f32 :=
  Host.divf (Host.reduceAdd x (constant S_ .f32 0x00000000#32) reducesTo_S4096x12x64_S4096x64_d1 h_S_) (broadcastInDim S4096x64 ![] bcast_S_S4096x64 (constant S_ .f32 0x41400000#32))

theorem avg1T_apply (x : FVec Ideal S4096x12x64 .f32) (b : Fin 4096) (c : Fin 64) :
    avg1T x (ix2 b c) = Cert.Sage.mean12 fun k => x (ix3 b k c) := by
  unfold avg1T Cert.Sage.mean12
  rw [div12_apply, sum1_apply]

/-- The second hidden layer. -/
def h0T (v : FVec Ideal S4096x64 .f32) (w : FVec Ideal S64x64 .f32) (bias : FVec Ideal S64 .f32) : FVec Ideal S4096x64 .f32 :=
  maximumf
    (addf (Host.dotGeneral dot_S4096x64_S64x64_S4096x64_1_0_0_1_n_n none v (transpose S64x64 [1, 0] w transposes_S64x64_S64x64_1_0))
      (broadcastInDim S4096x64 ![0, 1] bcast_S1x64_S4096x64_0_1 (broadcastInDim S1x64 ![1] bcast_S64_S1x64_1 bias)))
    (broadcastInDim S4096x64 ![] bcast_S_S4096x64 (constant S_ .f32 0x00000000#32))

theorem h0T_apply (v : FVec Ideal S4096x64 .f32) (w : FVec Ideal S64x64 .f32) (bias : FVec Ideal S64 .f32) (b : Fin 4096) (c : Fin 64) :
    h0T v w bias (ix2 b c) = Cert.Sage.h0Of (fun c' => v (ix2 b c')) (fun c c' => w (ix2 c c')) (fun c => bias (ix1 c)) c := by
  unfold h0T Cert.Sage.h0Of
  rw [relu_apply, addf_apply, dotP64_apply, Cert.Lib.RowOps.bcastRow_bcast_apply]
  refine congrArg (fun s => max (s + bias (ix1 c)) 0) (Finset.sum_congr rfl fun c' _ => ?_)
  rw [tr64_apply]

/-- The output layer. -/
def outT (v : FVec Ideal S4096x64 .f32) (w : FVec Ideal S16x64 .f32) (bias : FVec Ideal S16 .f32) : FVec Ideal S4096x16 .f32 :=
  addf (Host.dotGeneral dot_S4096x64_S64x16_S4096x16_1_0_0_1_n_n none v (transpose S64x16 [1, 0] w transposes_S16x64_S64x16_1_0))
    (broadcastInDim S4096x16 ![0, 1] bcast_S1x16_S4096x16_0_1 (broadcastInDim S1x16 ![1] bcast_S16_S1x16_1 bias))

theorem outT_apply (v : FVec Ideal S4096x64 .f32) (w : FVec Ideal S16x64 .f32) (bias : FVec Ideal S16 .f32) (b : Fin 4096) (o : Fin 16) :
    outT v w bias (ix2 b o) = Cert.Sage.outOf (fun c => v (ix2 b c)) (fun o c => w (ix2 o c)) (fun o => bias (ix1 o)) o := by
  unfold outT Cert.Sage.outOf
  rw [addf_apply, dotP16_apply, Cert.Lib.RowOps.bcastRow_bcast_apply]
  refine congrArg (fun s => s + bias (ix1 o)) (Finset.sum_congr rfl fun c _ => ?_)
  rw [tr16_apply]

/-- Everything after the two encodings. -/
def headT (x62 : FVec Ideal S4096x12x64 .f32) (x71 : FVec Ideal S4096x12x12x64 .f32) (a8 : FVec Ideal S64x128 .f32)
    (a9 : FVec Ideal S64 .f32) (a10 : FVec Ideal S64x64 .f32) (a11 : FVec Ideal S64 .f32) (a12 : FVec Ideal S16x64 .f32)
    (a13 : FVec Ideal S16 .f32) : FVec Ideal S4096x16 .f32 :=
  outT (h0T (avg1T (h1T x62 (avg2T x71) a8 a9)) a10 a11) a12 a13

theorem headT_apply (x62 : FVec Ideal S4096x12x64 .f32) (x71 : FVec Ideal S4096x12x12x64 .f32) (a8 : FVec Ideal S64x128 .f32)
    (a9 : FVec Ideal S64 .f32) (a10 : FVec Ideal S64x64 .f32) (a11 : FVec Ideal S64 .f32) (a12 : FVec Ideal S16x64 .f32)
    (a13 : FVec Ideal S16 .f32) (b : Fin 4096) (o : Fin 16) :
    headT x62 x71 a8 a9 a10 a11 a12 a13 (ix2 b o)
      = Cert.Sage.headOf (fun k h => x62 (ix3 b k h)) (fun k h => Cert.Sage.mean12 fun j => x71 (ix4 b k j h))
          (fun h d => a8 (ix2 h d)) (fun h => a9 (ix1 h)) (fun c c' => a10 (ix2 c c')) (fun c => a11 (ix1 c))
          (fun o c => a12 (ix2 o c)) (fun o => a13 (ix1 o)) o := by
  unfold headT Cert.Sage.headOf
  rw [outT_apply]
  simp only [h0T_apply, avg1T_apply, h1T_apply, avg2T_apply]

/-- The head over the encoded gathered rows is the common function at the parameters read off the arguments. -/
theorem value_eq (a0 : IVec S4096 32) (a1 : IVec S4096x12 32) (a2 : IVec S49152x12 32) (a3 : IVec S100000 32)
    (a4 : IVec S1600000 32) (a5 : IVec S100000 32) (a6 : FVec Ideal S100000x128 .f32) (a7 a8 : FVec Ideal S64x128 .f32)
    (a9 : FVec Ideal S64 .f32) (a10 : FVec Ideal S64x64 .f32) (a11 : FVec Ideal S64 .f32) (a12 : FVec Ideal S16x64 .f32)
    (a13 : FVec Ideal S16 .f32) (b : Fin 4096) (o : Fin 16) :
    headT (enc3 (Cert.Idx.rows1 a6 (Cert.Idx.hop1 a0 a1 a3 a4 a5)) a7)
        (enc4 (Cert.Idx.rows2 a6 (Cert.Idx.hop2 a0 a1 a2 a3 a4 a5)) a7) a8 a9 a10 a11 a12 a13 (ix2 b o)
      = Cert.Sage.out (Cert.Idx.paramsOf a0 a1 a2 a3 a4 a5 a6 a7 a8 a9 a10 a11 a12 a13) b o := by
  rw [headT_apply]
  simp only [enc3_apply, enc4_apply]
  rfl

/-! ## What each stretch computes, from any contents

Each stretch's result is stated for an ARBITRARY valuation of the buffers, as a named function of the contents it
reads: the fold over the stretch is unrolled once here and never again. -/

/-- After the first stretch `main_v7` holds the degrees of the batch nodes, as a column. -/
theorem sA_v7 (W : Valuation τ sig (Elt Ideal)) :
    StableHlo.after sA W (main_v7 : DevRef τ sig)
      = Cert.Idx.col1 (W (main_arg5 : DevRef τ sig)) (W (main_arg0 : DevRef τ sig)) := by
  after_results_simp
  rfl

-- the remainder occurs four times in this term, each under the casts of the typed buffers: the elementwise
-- operations stay folded while the two sides are compared, so only the casts are opened
attribute [local irreducible] Host.remsi select cmpi andi addi broadcastInDim constantI in
set_option maxHeartbeats 4000000 in
/-- The first floored remainder: the random integers modulo the column in `main_v7`. -/
theorem sB_v8 (W : Valuation τ sig (Elt Ideal)) :
    StableHlo.after sB W (main_v8 : DevRef τ sig)
      = Cert.Idx.floorRem 4096 bcast_S_S4096x1 bcast_S_S4096x12 bcast_S4096x1_S4096x12_0_1 (W (main_arg1 : DevRef τ sig)) (W (main_v7 : DevRef τ sig)) := by
  after_results_simp
  rfl

/-- The first-hop neighbours, from the reduced random integers in `main_v8`. -/
theorem sC_v25 (W : Valuation τ sig (Elt Ideal)) :
    StableHlo.after sC W (main_v25 : DevRef τ sig)
      = Cert.Idx.hop1Of (W (main_v8 : DevRef τ sig)) (W (main_arg3 : DevRef τ sig)) (W (main_arg4 : DevRef τ sig)) (W (main_arg0 : DevRef τ sig)) := by
  after_results_simp
  rfl

/-- The first-hop neighbours as one list. -/
theorem sC_v26 (W : Valuation τ sig (Elt Ideal)) :
    StableHlo.after sC W (main_v26 : DevRef τ sig)
      = Cert.Idx.flat1 (Cert.Idx.hop1Of (W (main_v8 : DevRef τ sig)) (W (main_arg3 : DevRef τ sig)) (W (main_arg4 : DevRef τ sig)) (W (main_arg0 : DevRef τ sig))) := by
  after_results_simp
  rfl

/-- The degrees of the first-hop neighbours, as a column. -/
theorem sC_v34 (W : Valuation τ sig (Elt Ideal)) :
    StableHlo.after sC W (main_v34 : DevRef τ sig)
      = Cert.Idx.col2 (W (main_arg5 : DevRef τ sig)) (Cert.Idx.flat1 (Cert.Idx.hop1Of (W (main_v8 : DevRef τ sig)) (W (main_arg3 : DevRef τ sig)) (W (main_arg4 : DevRef τ sig)) (W (main_arg0 : DevRef τ sig)))) := by
  after_results_simp
  rfl

-- the remainder occurs four times in this term, each under the casts of the typed buffers: the elementwise
-- operations stay folded while the two sides are compared, so only the casts are opened
attribute [local irreducible] Host.remsi select cmpi andi addi broadcastInDim constantI in
set_option maxHeartbeats 4000000 in
/-- The second floored remainder: the random integers modulo the column in `main_v34`. -/
theorem sD_v35 (W : Valuation τ sig (Elt Ideal)) :
    StableHlo.after sD W (main_v35 : DevRef τ sig)
      = Cert.Idx.floorRem 49152 bcast_S_S49152x1 bcast_S_S49152x12 bcast_S49152x1_S49152x12_0_1 (W (main_arg2 : DevRef τ sig)) (W (main_v34 : DevRef τ sig)) := by
  after_results_simp
  rfl

/-- The second-hop neighbours, from the reduced random integers in `main_v35` and the flattened first hop in `main_v26`. -/
theorem sE_v53 (W : Valuation τ sig (Elt Ideal)) :
    StableHlo.after sE1 (StableHlo.after sE0 W) (main_v53 : DevRef τ sig)
      = Cert.Idx.cube2 (Cert.Idx.hop2Of (W (main_v35 : DevRef τ sig)) (W (main_arg3 : DevRef τ sig)) (W (main_arg4 : DevRef τ sig)) (W (main_v26 : DevRef τ sig))) := by
  after_results_simp
  rfl

/-- The first-hop node ids as the index array of the feature gather. -/
theorem sF_v59 (W : Valuation τ sig (Elt Ideal)) :
    StableHlo.after sF W (main_v59 : DevRef τ sig)
      = Cert.Idx.idxA (W (main_v25 : DevRef τ sig)) := by
  after_results_simp
  rfl

/-- The first-hop rows gathered at `main_v59` and encoded. -/
theorem sG_v62 (W : Valuation τ sig (Elt Ideal)) :
    StableHlo.after sG W (main_v62 : DevRef τ sig)
      = enc3 (Host.gather gather_S100000x128_S4096x12x1_S4096x12x128_2_0_n_n_0_2_1128 (W (main_arg6 : DevRef τ sig)) (W (main_v59 : DevRef τ sig))) (W (main_arg7 : DevRef τ sig)) := by
  after_results_simp
  rfl

/-- The second-hop node ids as the index array of the feature gather. -/
theorem sH_v68 (W : Valuation τ sig (Elt Ideal)) :
    StableHlo.after sH W (main_v68 : DevRef τ sig)
      = Cert.Idx.idxB (W (main_v53 : DevRef τ sig)) := by
  after_results_simp
  rfl

/-- The second-hop rows gathered at `main_v68` and encoded. -/
theorem sI_v71 (W : Valuation τ sig (Elt Ideal)) :
    StableHlo.after sI W (main_v71 : DevRef τ sig)
      = enc4 (Host.gather gather_S100000x128_S4096x12x12x1_S4096x12x12x128_3_0_n_n_0_3_1128 (W (main_arg6 : DevRef τ sig)) (W (main_v68 : DevRef τ sig))) (W (main_arg7 : DevRef τ sig)) := by
  after_results_simp
  rfl

/-- The head, from the two encodings in `main_v62` and `main_v71` and the six weight and bias arguments. -/
theorem sJ_v94 (W : Valuation τ sig (Elt Ideal)) :
    StableHlo.after sJ W (main_v94 : DevRef τ sig)
      = headT (W (main_v62 : DevRef τ sig)) (W (main_v71 : DevRef τ sig)) (W (main_arg8 : DevRef τ sig)) (W (main_arg9 : DevRef τ sig)) (W (main_arg10 : DevRef τ sig)) (W (main_arg11 : DevRef τ sig)) (W (main_arg12 : DevRef τ sig)) (W (main_arg13 : DevRef τ sig)) := by
  after_results_simp
  rfl

/-! ## The stretches in order

`Wn V` is the contents after the first `n` stages from contents `V`. The arguments are written by no stretch; each
stage's result is read off the previous stage's, never unfolding the named index functions. -/

/-- The fourteen arguments. -/
abbrev argsL : List (Ref sig .tc) :=
  [main_arg0, main_arg1, main_arg2, main_arg3, main_arg4, main_arg5, main_arg6, main_arg7, main_arg8, main_arg9,
   main_arg10, main_arg11, main_arg12, main_arg13]

theorem args_not_sA : ∀ r ∈ argsL, r ∉ sA_w := by decide
theorem args_not_sB : ∀ r ∈ argsL, r ∉ sB_w := by decide
theorem args_not_sC : ∀ r ∈ argsL, r ∉ sC_w := by decide
theorem args_not_sD : ∀ r ∈ argsL, r ∉ sD_w := by decide
theorem args_not_sE0 : ∀ r ∈ argsL, r ∉ sE0_w := by decide
theorem args_not_sE1 : ∀ r ∈ argsL, r ∉ sE1_w := by decide
theorem args_not_sF : ∀ r ∈ argsL, r ∉ sF_w := by decide
theorem args_not_sG : ∀ r ∈ argsL, r ∉ sG_w := by decide
theorem args_not_sH : ∀ r ∈ argsL, r ∉ sH_w := by decide
theorem args_not_sI : ∀ r ∈ argsL, r ∉ sI_w := by decide
theorem args_not_sJ : ∀ r ∈ argsL, r ∉ sJ_w := by decide

abbrev W1 (V : Valuation τ sig (Elt Ideal)) : Valuation τ sig (Elt Ideal) := StableHlo.after sA V
abbrev W2 (V : Valuation τ sig (Elt Ideal)) : Valuation τ sig (Elt Ideal) := StableHlo.after sB (W1 V)
abbrev W3 (V : Valuation τ sig (Elt Ideal)) : Valuation τ sig (Elt Ideal) := StableHlo.after sC (W2 V)
abbrev W4 (V : Valuation τ sig (Elt Ideal)) : Valuation τ sig (Elt Ideal) := StableHlo.after sD (W3 V)
abbrev W5 (V : Valuation τ sig (Elt Ideal)) : Valuation τ sig (Elt Ideal) := StableHlo.after sE1 (StableHlo.after sE0 (W4 V))
abbrev W6 (V : Valuation τ sig (Elt Ideal)) : Valuation τ sig (Elt Ideal) := StableHlo.after sF (W5 V)
abbrev W7 (V : Valuation τ sig (Elt Ideal)) : Valuation τ sig (Elt Ideal) := StableHlo.after sG (W6 V)
abbrev W8 (V : Valuation τ sig (Elt Ideal)) : Valuation τ sig (Elt Ideal) := StableHlo.after sH (W7 V)
abbrev W9 (V : Valuation τ sig (Elt Ideal)) : Valuation τ sig (Elt Ideal) := StableHlo.after sI (W8 V)
abbrev W10 (V : Valuation τ sig (Elt Ideal)) : Valuation τ sig (Elt Ideal) := StableHlo.after sJ (W9 V)

/-- The whole list run from `V` is the ten stages run in order. -/
theorem ops_after (V : Valuation τ sig (Elt Ideal)) : StableHlo.after ops V = W10 V := by
  simp only [ops, ops0, ops1, StableHlo.after_append]

section Args
variable (V : Valuation τ sig (Elt Ideal)) {r : Ref sig .tc} (hr : r ∈ argsL)
include hr
theorem W1_arg : W1 V (r : DevRef τ sig) = V (r : DevRef τ sig) := sA_frame V (args_not_sA r hr)
theorem W2_arg : W2 V (r : DevRef τ sig) = V (r : DevRef τ sig) := (sB_frame _ (args_not_sB r hr)).trans (W1_arg V hr)
theorem W3_arg : W3 V (r : DevRef τ sig) = V (r : DevRef τ sig) := (sC_frame _ (args_not_sC r hr)).trans (W2_arg V hr)
theorem W4_arg : W4 V (r : DevRef τ sig) = V (r : DevRef τ sig) := (sD_frame _ (args_not_sD r hr)).trans (W3_arg V hr)
theorem W5_arg : W5 V (r : DevRef τ sig) = V (r : DevRef τ sig) :=
  (sE1_frame _ (args_not_sE1 r hr)).trans ((sE0_frame _ (args_not_sE0 r hr)).trans (W4_arg V hr))
theorem W6_arg : W6 V (r : DevRef τ sig) = V (r : DevRef τ sig) := (sF_frame _ (args_not_sF r hr)).trans (W5_arg V hr)
theorem W7_arg : W7 V (r : DevRef τ sig) = V (r : DevRef τ sig) := (sG_frame _ (args_not_sG r hr)).trans (W6_arg V hr)
theorem W8_arg : W8 V (r : DevRef τ sig) = V (r : DevRef τ sig) := (sH_frame _ (args_not_sH r hr)).trans (W7_arg V hr)
theorem W9_arg : W9 V (r : DevRef τ sig) = V (r : DevRef τ sig) := (sI_frame _ (args_not_sI r hr)).trans (W8_arg V hr)
theorem W10_arg : W10 V (r : DevRef τ sig) = V (r : DevRef τ sig) := (sJ_frame _ (args_not_sJ r hr)).trans (W9_arg V hr)
end Args

section Chain
variable (V : Valuation τ sig (Elt Ideal))

theorem W1_v7 : W1 V (main_v7 : DevRef τ sig) = Cert.Idx.col1 (V (main_arg5 : DevRef τ sig)) (V (main_arg0 : DevRef τ sig)) := sA_v7 V

theorem W2_v8 : W2 V (main_v8 : DevRef τ sig) = Cert.Idx.rem1 (V (main_arg1 : DevRef τ sig)) (V (main_arg5 : DevRef τ sig)) (V (main_arg0 : DevRef τ sig)) := by
  show StableHlo.after sB (W1 V) _ = _
  rw [sB_v8, W1_v7, W1_arg V (r := main_arg1) (by decide)]
  rfl

theorem W3_v25 : W3 V (main_v25 : DevRef τ sig) = Cert.Idx.hop1 (V (main_arg0 : DevRef τ sig)) (V (main_arg1 : DevRef τ sig)) (V (main_arg3 : DevRef τ sig)) (V (main_arg4 : DevRef τ sig)) (V (main_arg5 : DevRef τ sig)) := by
  show StableHlo.after sC (W2 V) _ = _
  rw [sC_v25, W2_v8, W2_arg V (r := main_arg3) (by decide), W2_arg V (r := main_arg4) (by decide), W2_arg V (r := main_arg0) (by decide)]
  rfl

theorem W3_v26 : W3 V (main_v26 : DevRef τ sig) = Cert.Idx.flat1 (Cert.Idx.hop1 (V (main_arg0 : DevRef τ sig)) (V (main_arg1 : DevRef τ sig)) (V (main_arg3 : DevRef τ sig)) (V (main_arg4 : DevRef τ sig)) (V (main_arg5 : DevRef τ sig))) := by
  show StableHlo.after sC (W2 V) _ = _
  rw [sC_v26, W2_v8, W2_arg V (r := main_arg3) (by decide), W2_arg V (r := main_arg4) (by decide), W2_arg V (r := main_arg0) (by decide)]
  rfl

theorem W3_v34 : W3 V (main_v34 : DevRef τ sig) = Cert.Idx.col2 (V (main_arg5 : DevRef τ sig)) (Cert.Idx.flat1 (Cert.Idx.hop1 (V (main_arg0 : DevRef τ sig)) (V (main_arg1 : DevRef τ sig)) (V (main_arg3 : DevRef τ sig)) (V (main_arg4 : DevRef τ sig)) (V (main_arg5 : DevRef τ sig)))) := by
  show StableHlo.after sC (W2 V) _ = _
  rw [sC_v34, W2_v8, W2_arg V (r := main_arg3) (by decide), W2_arg V (r := main_arg4) (by decide), W2_arg V (r := main_arg0) (by decide), W2_arg V (r := main_arg5) (by decide)]
  rfl

theorem W4_v35 : W4 V (main_v35 : DevRef τ sig) = Cert.Idx.rem2 (V (main_arg2 : DevRef τ sig)) (V (main_arg5 : DevRef τ sig)) (Cert.Idx.flat1 (Cert.Idx.hop1 (V (main_arg0 : DevRef τ sig)) (V (main_arg1 : DevRef τ sig)) (V (main_arg3 : DevRef τ sig)) (V (main_arg4 : DevRef τ sig)) (V (main_arg5 : DevRef τ sig)))) := by
  show StableHlo.after sD (W3 V) _ = _
  rw [sD_v35, W3_v34, W3_arg V (r := main_arg2) (by decide)]
  rfl

theorem W4_v25 : W4 V (main_v25 : DevRef τ sig) = Cert.Idx.hop1 (V (main_arg0 : DevRef τ sig)) (V (main_arg1 : DevRef τ sig)) (V (main_arg3 : DevRef τ sig)) (V (main_arg4 : DevRef τ sig)) (V (main_arg5 : DevRef τ sig)) :=
  (sD_frame (W3 V) (r := main_v25) (by decide)).trans (W3_v25 V)

theorem W4_v26 : W4 V (main_v26 : DevRef τ sig) = Cert.Idx.flat1 (Cert.Idx.hop1 (V (main_arg0 : DevRef τ sig)) (V (main_arg1 : DevRef τ sig)) (V (main_arg3 : DevRef τ sig)) (V (main_arg4 : DevRef τ sig)) (V (main_arg5 : DevRef τ sig))) :=
  (sD_frame (W3 V) (r := main_v26) (by decide)).trans (W3_v26 V)

theorem W5_v53 : W5 V (main_v53 : DevRef τ sig) = Cert.Idx.hop2 (V (main_arg0 : DevRef τ sig)) (V (main_arg1 : DevRef τ sig)) (V (main_arg2 : DevRef τ sig)) (V (main_arg3 : DevRef τ sig)) (V (main_arg4 : DevRef τ sig)) (V (main_arg5 : DevRef τ sig)) := by
  show StableHlo.after sE1 (StableHlo.after sE0 (W4 V)) _ = _
  rw [sE_v53, W4_v35, W4_v26, W4_arg V (r := main_arg3) (by decide), W4_arg V (r := main_arg4) (by decide)]
  rfl

theorem W5_v25 : W5 V (main_v25 : DevRef τ sig) = Cert.Idx.hop1 (V (main_arg0 : DevRef τ sig)) (V (main_arg1 : DevRef τ sig)) (V (main_arg3 : DevRef τ sig)) (V (main_arg4 : DevRef τ sig)) (V (main_arg5 : DevRef τ sig)) :=
  (sE1_frame _ (r := main_v25) (by decide)).trans ((sE0_frame (W4 V) (r := main_v25) (by decide)).trans (W4_v25 V))

theorem W6_v59 : W6 V (main_v59 : DevRef τ sig) = Cert.Idx.idxA (Cert.Idx.hop1 (V (main_arg0 : DevRef τ sig)) (V (main_arg1 : DevRef τ sig)) (V (main_arg3 : DevRef τ sig)) (V (main_arg4 : DevRef τ sig)) (V (main_arg5 : DevRef τ sig))) := by
  show StableHlo.after sF (W5 V) _ = _
  rw [sF_v59, W5_v25]

theorem W6_v53 : W6 V (main_v53 : DevRef τ sig) = Cert.Idx.hop2 (V (main_arg0 : DevRef τ sig)) (V (main_arg1 : DevRef τ sig)) (V (main_arg2 : DevRef τ sig)) (V (main_arg3 : DevRef τ sig)) (V (main_arg4 : DevRef τ sig)) (V (main_arg5 : DevRef τ sig)) :=
  (sF_frame (W5 V) (r := main_v53) (by decide)).trans (W5_v53 V)

theorem W7_v62 : W7 V (main_v62 : DevRef τ sig) = enc3 (Cert.Idx.rows1 (V (main_arg6 : DevRef τ sig)) (Cert.Idx.hop1 (V (main_arg0 : DevRef τ sig)) (V (main_arg1 : DevRef τ sig)) (V (main_arg3 : DevRef τ sig)) (V (main_arg4 : DevRef τ sig)) (V (main_arg5 : DevRef τ sig)))) (V (main_arg7 : DevRef τ sig)) := by
  show StableHlo.after sG (W6 V) _ = _
  rw [sG_v62, W6_v59, W6_arg V (r := main_arg6) (by decide), W6_arg V (r := main_arg7) (by decide)]
  rfl

theorem W7_v53 : W7 V (main_v53 : DevRef τ sig) = Cert.Idx.hop2 (V (main_arg0 : DevRef τ sig)) (V (main_arg1 : DevRef τ sig)) (V (main_arg2 : DevRef τ sig)) (V (main_arg3 : DevRef τ sig)) (V (main_arg4 : DevRef τ sig)) (V (main_arg5 : DevRef τ sig)) :=
  (sG_frame (W6 V) (r := main_v53) (by decide)).trans (W6_v53 V)

theorem W8_v68 : W8 V (main_v68 : DevRef τ sig) = Cert.Idx.idxB (Cert.Idx.hop2 (V (main_arg0 : DevRef τ sig)) (V (main_arg1 : DevRef τ sig)) (V (main_arg2 : DevRef τ sig)) (V (main_arg3 : DevRef τ sig)) (V (main_arg4 : DevRef τ sig)) (V (main_arg5 : DevRef τ sig))) := by
  show StableHlo.after sH (W7 V) _ = _
  rw [sH_v68, W7_v53]

theorem W8_v62 : W8 V (main_v62 : DevRef τ sig) = enc3 (Cert.Idx.rows1 (V (main_arg6 : DevRef τ sig)) (Cert.Idx.hop1 (V (main_arg0 : DevRef τ sig)) (V (main_arg1 : DevRef τ sig)) (V (main_arg3 : DevRef τ sig)) (V (main_arg4 : DevRef τ sig)) (V (main_arg5 : DevRef τ sig)))) (V (main_arg7 : DevRef τ sig)) :=
  (sH_frame (W7 V) (r := main_v62) (by decide)).trans (W7_v62 V)

theorem W9_v71 : W9 V (main_v71 : DevRef τ sig) = enc4 (Cert.Idx.rows2 (V (main_arg6 : DevRef τ sig)) (Cert.Idx.hop2 (V (main_arg0 : DevRef τ sig)) (V (main_arg1 : DevRef τ sig)) (V (main_arg2 : DevRef τ sig)) (V (main_arg3 : DevRef τ sig)) (V (main_arg4 : DevRef τ sig)) (V (main_arg5 : DevRef τ sig)))) (V (main_arg7 : DevRef τ sig)) := by
  show StableHlo.after sI (W8 V) _ = _
  rw [sI_v71, W8_v68, W8_arg V (r := main_arg6) (by decide), W8_arg V (r := main_arg7) (by decide)]
  rfl

theorem W9_v62 : W9 V (main_v62 : DevRef τ sig) = enc3 (Cert.Idx.rows1 (V (main_arg6 : DevRef τ sig)) (Cert.Idx.hop1 (V (main_arg0 : DevRef τ sig)) (V (main_arg1 : DevRef τ sig)) (V (main_arg3 : DevRef τ sig)) (V (main_arg4 : DevRef τ sig)) (V (main_arg5 : DevRef τ sig)))) (V (main_arg7 : DevRef τ sig)) :=
  (sI_frame (W8 V) (r := main_v62) (by decide)).trans (W8_v62 V)

theorem W10_v94 : W10 V (main_v94 : DevRef τ sig)
    = headT (enc3 (Cert.Idx.rows1 (V (main_arg6 : DevRef τ sig)) (Cert.Idx.hop1 (V (main_arg0 : DevRef τ sig)) (V (main_arg1 : DevRef τ sig)) (V (main_arg3 : DevRef τ sig)) (V (main_arg4 : DevRef τ sig)) (V (main_arg5 : DevRef τ sig)))) (V (main_arg7 : DevRef τ sig))) (enc4 (Cert.Idx.rows2 (V (main_arg6 : DevRef τ sig)) (Cert.Idx.hop2 (V (main_arg0 : DevRef τ sig)) (V (main_arg1 : DevRef τ sig)) (V (main_arg2 : DevRef τ sig)) (V (main_arg3 : DevRef τ sig)) (V (main_arg4 : DevRef τ sig)) (V (main_arg5 : DevRef τ sig)))) (V (main_arg7 : DevRef τ sig)))
        (V (main_arg8 : DevRef τ sig)) (V (main_arg9 : DevRef τ sig)) (V (main_arg10 : DevRef τ sig)) (V (main_arg11 : DevRef τ sig)) (V (main_arg12 : DevRef τ sig)) (V (main_arg13 : DevRef τ sig)) := by
  show StableHlo.after sJ (W9 V) _ = _
  rw [sJ_v94, W9_v62, W9_v71, W9_arg V (r := main_arg8) (by decide), W9_arg V (r := main_arg9) (by decide), W9_arg V (r := main_arg10) (by decide), W9_arg V (r := main_arg11) (by decide),
    W9_arg V (r := main_arg12) (by decide), W9_arg V (r := main_arg13) (by decide)]

/-- The result buffer after the whole program, read at `(b, o)`: the common function at the parameters read off
    the arguments' contents. -/
theorem value_at (b : Fin 4096) (o : Fin 16) :
    StableHlo.after ops V (main_v94 : DevRef τ sig) (ix2 b o)
      = Cert.Sage.out (Cert.Idx.paramsOf (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig))) b o := by
  rw [ops_after, W10_v94]
  exact value_eq _ _ _ _ _ _ _ _ _ _ _ _ _ _ b o

/-- Every argument keeps its contents through the whole program. -/
theorem args_keep {r : Ref sig .tc} (hr : r ∈ argsL) :
    StableHlo.after ops V (r : DevRef τ sig) = V (r : DevRef τ sig) := by
  rw [ops_after]
  exact W10_arg V hr

end Chain

/-! ## The run -/

/-- On every device, from any memory with zero counters: every weakly fair execution of the reference program
    terminates with the result buffer, read at `(b, o)`, at the common function of the parameters read off the
    arguments' launch contents, and with every argument unchanged. -/
theorem ref_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (∀ (b : Fin 4096) (o : Fin 16), r.2.mem ((c.tc : Thread nD τ).loc main_v94) (ix2 b o)
          = Cert.Sage.out (Cert.Idx.paramsOf (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
              (m ((c.tc : Thread nD τ).loc main_arg12))
              (m ((c.tc : Thread nD τ).loc main_arg13))) b o)
      ∧ ∀ a : Ref sig .tc, a ∈ argsL → r.2.mem ((c.tc : Thread nD τ).loc a) = m ((c.tc : Thread nD τ).loc a) :=
  (θ_run _ _ _).mono (fun _ h c =>
      ⟨fun b o => (congrFun (h c main_v94) (ix2 b o)).trans (value_at (StableHlo.launchContents m c) b o),
       fun a ha => (h c a).trans (args_keep (StableHlo.launchContents m c) ha)⟩)
    (run_all m ρ)

end Cert.ReferenceIdeal.RefValue

end
-- ==== Proof.lean ====
/-
  Both programs compute, at the ideal values, ONE function of the fourteen argument arrays: from the sampled
  first-hop and second-hop nodes (integer arithmetic on the index arguments, the same operations in both programs)
  the feature rows are gathered, every row is encoded by a linear map and the positive part, the twelve second-hop
  encodings under a first-hop neighbour are averaged, the pair (encoding, average) goes through an affine map and
  the positive part, the twelve results under a batch node are averaged, and two more affine maps give the sixteen
  outputs (`Cert.Sage.out`, Proof/Spec.lean).

  The kernel program gathers the rows on the host, encodes them in two tiled regions (the average as a product
  with a 0/1 grouping matrix, times the constant one twelfth), narrows the results to a shorter float format (the
  identity on the extended reals) and runs the rest in a third tiled region; the reference is one line of host
  operations whose mean is a sum divided by twelve. On the extended reals the product with 1/12 is the quotient by
  12 for every value, a product with 0 is 0 and with 1 the other factor for every value, and sums may be regrouped
  freely, so the two results agree entry by entry with no use of the finiteness precondition.

  The frames of the two kernel programs are the generated ones; the reference's frame is its run with the result
  forgotten; the two rewrites the idealization made (the constant one twelfth, twice) are the rule's own statement.
-/
import proofs.«174830_j1030792151555_1_alg».proof.Defs
import proofs.«174830_j1030792151555_1_alg».proof.Proof.Gen.Kernel
import proofs.«174830_j1030792151555_1_alg».proof.Proof.Gen.Kernel.Frame
import proofs.«174830_j1030792151555_1_alg».proof.Proof.Gen.KernelIdeal
import proofs.«174830_j1030792151555_1_alg».proof.Proof.Gen.KernelIdeal.Frame
import proofs.«174830_j1030792151555_1_alg».proof.Proof.Gen.ReferenceIdeal
import proofs.«174830_j1030792151555_1_alg».proof.Proof.Gen.Pre_finite_inputs
import proofs.«174830_j1030792151555_1_alg».proof.Proof.KValue
import proofs.«174830_j1030792151555_1_alg».proof.Proof.RefRead
import Idealize.ShloMosaic.Adequacy
import Idealize.ShloMosaic.Init

noncomputable section

namespace Cert.Proof

open Idealize.ShloMosaic Idealize.ShloMosaic.ValueIdx Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- A property of every argument buffer of the reference, one conjunct per argument. -/
theorem args_of (Q : Ref Cert.ReferenceIdeal.sig .tc → Prop) (h : ∀ a, a ∈ Cert.ReferenceIdeal.RefValue.argsL → Q a) :
    Q Cert.ReferenceIdeal.main_arg0 ∧ Q Cert.ReferenceIdeal.main_arg1 ∧ Q Cert.ReferenceIdeal.main_arg2 ∧ Q Cert.ReferenceIdeal.main_arg3 ∧ Q Cert.ReferenceIdeal.main_arg4 ∧ Q Cert.ReferenceIdeal.main_arg5 ∧ Q Cert.ReferenceIdeal.main_arg6 ∧ Q Cert.ReferenceIdeal.main_arg7 ∧ Q Cert.ReferenceIdeal.main_arg8 ∧ Q Cert.ReferenceIdeal.main_arg9 ∧ Q Cert.ReferenceIdeal.main_arg10 ∧ Q Cert.ReferenceIdeal.main_arg11 ∧ Q Cert.ReferenceIdeal.main_arg12 ∧ Q Cert.ReferenceIdeal.main_arg13 :=
  ⟨h _ (by decide), h _ (by decide), h _ (by decide), h _ (by decide), h _ (by decide), h _ (by decide), h _ (by decide), h _ (by decide), h _ (by decide), h _ (by decide), h _ (by decide), h _ (by decide), h _ (by decide), h _ (by decide)⟩

/-- The reference's frame: its run, the result forgotten. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun r h c => args_of (fun a => r.2.mem ((c.tc : Thread Cert.ReferenceIdeal.nD Cert.ReferenceIdeal.τ).loc a)
        = m ((c.tc : Thread Cert.ReferenceIdeal.nD Cert.ReferenceIdeal.τ).loc a)) (h c).2)
    (Cert.ReferenceIdeal.RefValue.ref_value m ρ)

/-- The idealization's two rewrites: the constant the kernel multiplies the pooled sums by is named one twelfth. -/
theorem preserves : Cert.preserves_Kernel_KernelIdeal :=
  ⟨IdealRules.named_const.statement Cert.KernelIdeal.κ "inv_12" .f32 0x3DAAAAAB#32 ((1 / 12 : ℝ) : EReal) rfl,
   IdealRules.named_const.statement Cert.KernelIdeal.κ "inv_12" .f32 0x3DAAAAAB#32 ((1 / 12 : ℝ) : EReal) rfl⟩

/-- Both runs end with the result array at the common function of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun i => Cert.Sage.out (Cert.Idx.paramsOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)))
      (Cert.KernelIdeal.RegionValue.row i) (Cert.KernelIdeal.RegionValue.col i), ?_, ?_⟩
  · refine (θ_run (Cert.KernelIdeal.defs (F := Ideal)) _ _).mono (fun r h c => ⟨?_, (h c).2⟩) (Cert.KernelIdeal.KValue.run m ρ)
    funext i
    obtain ⟨b, o, rfl⟩ : ∃ (b : Fin 4096) (o : Fin 16), i = ix2 b o := ⟨i 0, i 1, eq_ix2 i⟩
    exact (h c).1 b o
  · refine (θ_run (Cert.ReferenceIdeal.defs (F := Ideal)) _ _).mono (fun r h c => ⟨?_,
        args_of (fun a => r.2.mem ((c.tc : Thread Cert.ReferenceIdeal.nD Cert.ReferenceIdeal.τ).loc a)
          = m' ((c.tc : Thread Cert.ReferenceIdeal.nD Cert.ReferenceIdeal.τ).loc a)) (h c).2⟩)
      (Cert.ReferenceIdeal.RefValue.ref_value m' ρ')
    funext i
    obtain ⟨b, o, rfl⟩ : ∃ (b : Fin 4096) (o : Fin 16), i = ix2 b o := ⟨i 0, i 1, eq_ix2 i⟩
    obtain ⟨e0, e1, e2, e3, e4, e5, e6, e7, e8, e9, e10, e11, e12, e13⟩ := hagree c
    rw [(h c).1 b o, e0, e1, e2, e3, e4, e5, e6, e7, e8, e9, e10, e11, e12, e13]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
